-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x32x32 : Shape := ⟨4, ![4096, 3, 32, 32]⟩
abbrev S5x3x32x168 : Shape := ⟨4, ![5, 3, 32, 168]⟩
abbrev S1x168 : Shape := ⟨2, ![1, 168]⟩
abbrev S5x162x160 : Shape := ⟨3, ![5, 162, 160]⟩
abbrev S1x160 : Shape := ⟨2, ![1, 160]⟩
abbrev S5x144x120 : Shape := ⟨3, ![5, 144, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S_ : Shape := ⟨0, ![]⟩

class Facts : Prop where
  bcast_S_S4096x3x32x32 : S_.BroadcastsInDim S4096x3x32x32 (![] : Fin 0 → Fin S4096x3x32x32.rank)
  reducesTo_S4096x3x32x32_S_d0_1_2_3 : S4096x3x32x32.ReducesTo [0, 1, 2, 3] S_
  h_S_ : 0 < S_.numel
  bcast_S_S5x3x32x168 : S_.BroadcastsInDim S5x3x32x168 (![] : Fin 0 → Fin S5x3x32x168.rank)
  reducesTo_S5x3x32x168_S_d0_1_2_3 : S5x3x32x168.ReducesTo [0, 1, 2, 3] S_
  bcast_S_S1x168 : S_.BroadcastsInDim S1x168 (![] : Fin 0 → Fin S1x168.rank)
  reducesTo_S1x168_S_d0_1 : S1x168.ReducesTo [0, 1] S_
  bcast_S_S5x162x160 : S_.BroadcastsInDim S5x162x160 (![] : Fin 0 → Fin S5x162x160.rank)
  reducesTo_S5x162x160_S_d0_1_2 : S5x162x160.ReducesTo [0, 1, 2] S_
  bcast_S_S1x160 : S_.BroadcastsInDim S1x160 (![] : Fin 0 → Fin S1x160.rank)
  reducesTo_S1x160_S_d0_1 : S1x160.ReducesTo [0, 1] S_
  bcast_S_S5x144x120 : S_.BroadcastsInDim S5x144x120 (![] : Fin 0 → Fin S5x144x120.rank)
  reducesTo_S5x144x120_S_d0_1_2 : S5x144x120.ReducesTo [0, 1, 2] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S1x84 : S_.BroadcastsInDim S1x84 (![] : Fin 0 → Fin S1x84.rank)
  reducesTo_S1x84_S_d0_1 : S1x84.ReducesTo [0, 1] S_
  bcast_S_S84x10 : S_.BroadcastsInDim S84x10 (![] : Fin 0 → Fin S84x10.rank)
  reducesTo_S84x10_S_d0_1 : S84x10.ReducesTo [0, 1] S_
  bcast_S_S1x10 : S_.BroadcastsInDim S1x10 (![] : Fin 0 → Fin S1x10.rank)
  reducesTo_S1x10_S_d0_1 : S1x10.ReducesTo [0, 1] S_

variable [Facts]

def fn_part3 {F : FTy → Type} [FloatOps F] (main_v48 : IVec S_ 1) (main_v49 : FVec F S1x10 .f32) (main_v50 : FVec F S1x10 .f32) : IVec S_ 1 :=
  let main_v51 : IVec S1x10 1 := cmpf .olt main_v49 main_v50
  let main_c_19 : IVec S_ 1 := constantI S_ 1 1#1
  let main_v52 : IVec S_ 1 := (fun x v => Host.reduce IntOp.andi x v reducesTo_S1x10_S_d0_1 h_S_) main_v51 main_c_19
  let main_v53 : IVec S_ 1 := andi main_v48 main_v52
  main_v53

def fn_part2 {F : FTy → Type} [FloatOps F] (main_arg7 : FVec F S120x84 .f32) (main_arg8 : FVec F S1x84 .f32) (main_arg9 : FVec F S84x10 .f32) (main_arg10 : FVec F S1x10 .f32) (main_v33 : IVec S_ 1) : IVec S_ 1 :=
  let main_v34 : FVec F S120x84 .f32 := Host.absf main_arg7
  let main_cst_12 : FVec F S_ .f32 := constant S_ .f32 0x7F800000#32
  let main_v35 : FVec F S120x84 .f32 := broadcastInDim S120x84 ![] bcast_S_S120x84 main_cst_12
  let main_v36 : IVec S120x84 1 := cmpf .olt main_v34 main_v35
  let main_c_13 : IVec S_ 1 := constantI S_ 1 1#1
  let main_v37 : IVec S_ 1 := (fun x v => Host.reduce IntOp.andi x v reducesTo_S120x84_S_d0_1 h_S_) main_v36 main_c_13
  let main_v38 : IVec S_ 1 := andi main_v33 main_v37
  let main_v39 : FVec F S1x84 .f32 := Host.absf main_arg8
  let main_cst_14 : FVec F S_ .f32 := constant S_ .f32 0x7F800000#32
  let main_v40 : FVec F S1x84 .f32 := broadcastInDim S1x84 ![] bcast_S_S1x84 main_cst_14
  let main_v41 : IVec S1x84 1 := cmpf .olt main_v39 main_v40
  let main_c_15 : IVec S_ 1 := constantI S_ 1 1#1
  let main_v42 : IVec S_ 1 := (fun x v => Host.reduce IntOp.andi x v reducesTo_S1x84_S_d0_1 h_S_) main_v41 main_c_15
  let main_v43 : IVec S_ 1 := andi main_v38 main_v42
  let main_v44 : FVec F S84x10 .f32 := Host.absf main_arg9
  let main_cst_16 : FVec F S_ .f32 := constant S_ .f32 0x7F800000#32
  let main_v45 : FVec F S84x10 .f32 := broadcastInDim S84x10 ![] bcast_S_S84x10 main_cst_16
  let main_v46 : IVec S84x10 1 := cmpf .olt main_v44 main_v45
  let main_c_17 : IVec S_ 1 := constantI S_ 1 1#1
  let main_v47 : IVec S_ 1 := (fun x v => Host.reduce IntOp.andi x v reducesTo_S84x10_S_d0_1 h_S_) main_v46 main_c_17
  let main_v48 : IVec S_ 1 := andi main_v43 main_v47
  let main_v49 : FVec F S1x10 .f32 := Host.absf main_arg10
  let main_cst_18 : FVec F S_ .f32 := constant S_ .f32 0x7F800000#32
  let main_v50 : FVec F S1x10 .f32 := broadcastInDim S1x10 ![] bcast_S_S1x10 main_cst_18
  fn_part3 (F := F) main_v48 main_v49 main_v50

def fn_part1 {F : FTy → Type} [FloatOps F] (main_arg4 : FVec F S1x160 .f32) (main_arg5 : FVec F S5x144x120 .f32) (main_arg6 : FVec F S1x120 .f32) (main_arg7 : FVec F S120x84 .f32) (main_arg8 : FVec F S1x84 .f32) (main_arg9 : FVec F S84x10 .f32) (main_arg10 : FVec F S1x10 .f32) (main_v13 : IVec S_ 1) (main_v16 : IVec S5x162x160 1) : IVec S_ 1 :=
  let main_c_5 : IVec S_ 1 := constantI S_ 1 1#1
  let main_v17 : IVec S_ 1 := (fun x v => Host.reduce IntOp.andi x v reducesTo_S5x162x160_S_d0_1_2 h_S_) main_v16 main_c_5
  let main_v18 : IVec S_ 1 := andi main_v13 main_v17
  let main_v19 : FVec F S1x160 .f32 := Host.absf main_arg4
  let main_cst_6 : FVec F S_ .f32 := constant S_ .f32 0x7F800000#32
  let main_v20 : FVec F S1x160 .f32 := broadcastInDim S1x160 ![] bcast_S_S1x160 main_cst_6
  let main_v21 : IVec S1x160 1 := cmpf .olt main_v19 main_v20
  let main_c_7 : IVec S_ 1 := constantI S_ 1 1#1
  let main_v22 : IVec S_ 1 := (fun x v => Host.reduce IntOp.andi x v reducesTo_S1x160_S_d0_1 h_S_) main_v21 main_c_7
  let main_v23 : IVec S_ 1 := andi main_v18 main_v22
  let main_v24 : FVec F S5x144x120 .f32 := Host.absf main_arg5
  let main_cst_8 : FVec F S_ .f32 := constant S_ .f32 0x7F800000#32
  let main_v25 : FVec F S5x144x120 .f32 := broadcastInDim S5x144x120 ![] bcast_S_S5x144x120 main_cst_8
  let main_v26 : IVec S5x144x120 1 := cmpf .olt main_v24 main_v25
  let main_c_9 : IVec S_ 1 := constantI S_ 1 1#1
  let main_v27 : IVec S_ 1 := (fun x v => Host.reduce IntOp.andi x v reducesTo_S5x144x120_S_d0_1_2 h_S_) main_v26 main_c_9
  let main_v28 : IVec S_ 1 := andi main_v23 main_v27
  let main_v29 : FVec F S1x120 .f32 := Host.absf main_arg6
  let main_cst_10 : FVec F S_ .f32 := constant S_ .f32 0x7F800000#32
  let main_v30 : FVec F S1x120 .f32 := broadcastInDim S1x120 ![] bcast_S_S1x120 main_cst_10
  let main_v31 : IVec S1x120 1 := cmpf .olt main_v29 main_v30
  let main_c_11 : IVec S_ 1 := constantI S_ 1 1#1
  let main_v32 : IVec S_ 1 := (fun x v => Host.reduce IntOp.andi x v reducesTo_S1x120_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x3x32x32 .f32) (main_arg1 : FVec F S5x3x32x168 .f32) (main_arg2 : FVec F S1x168 .f32) (main_arg3 : FVec F S5x162x160 .f32) (main_arg4 : FVec F S1x160 .f32) (main_arg5 : FVec F S5x144x120 .f32) (main_arg6 : FVec F S1x120 .f32) (main_arg7 : FVec F S120x84 .f32) (main_arg8 : FVec F S1x84 .f32) (main_arg9 : FVec F S84x10 .f32) (main_arg10 : FVec F S1x10 .f32) : IVec S_ 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_c : IVec S_ 1 := constantI S_ 1 1#1
  let main_v3 : IVec S_ 1 := (fun x v => Host.reduce IntOp.andi x v reducesTo_S4096x3x32x32_S_d0_1_2_3 h_S_) main_v2 main_c
  let main_v4 : FVec F S5x3x32x168 .f32 := Host.absf main_arg1
  let main_cst_0 : FVec F S_ .f32 := constant S_ .f32 0x7F800000#32
  let main_v5 : FVec F S5x3x32x168 .f32 := broadcastInDim S5x3x32x168 ![] bcast_S_S5x3x32x168 main_cst_0
  let main_v6 : IVec S5x3x32x168 1 := cmpf .olt main_v4 main_v5
  let main_c_1 : IVec S_ 1 := constantI S_ 1 1#1
  let main_v7 : IVec S_ 1 := (fun x v => Host.reduce IntOp.andi x v reducesTo_S5x3x32x168_S_d0_1_2_3 h_S_) main_v6 main_c_1
  let main_v8 : IVec S_ 1 := andi main_v3 main_v7
  let main_v9 : FVec F S1x168 .f32 := Host.absf main_arg2
  let main_cst_2 : FVec F S_ .f32 := constant S_ .f32 0x7F800000#32
  let main_v10 : FVec F S1x168 .f32 := broadcastInDim S1x168 ![] bcast_S_S1x168 main_cst_2
  let main_v11 : IVec S1x168 1 := cmpf .olt main_v9 main_v10
  let main_c_3 : IVec S_ 1 := constantI S_ 1 1#1
  let main_v12 : IVec S_ 1 := (fun x v => Host.reduce IntOp.andi x v reducesTo_S1x168_S_d0_1 h_S_) main_v11 main_c_3
  let main_v13 : IVec S_ 1 := andi main_v8 main_v12
  let main_v14 : FVec F S5x162x160 .f32 := Host.absf main_arg3
  let main_cst_4 : FVec F S_ .f32 := constant S_ .f32 0x7F800000#32
  let main_v15 : FVec F S5x162x160 .f32 := broadcastInDim S5x162x160 ![] bcast_S_S5x162x160 main_cst_4
  let main_v16 : IVec S5x162x160 1 := cmpf .olt main_v14 main_v15
  fn_part1 (F := F) main_arg4 main_arg5 main_arg6 main_arg7 main_arg8 main_arg9 main_arg10 main_v13 main_v16
-- ==== Kernel.lean ====
abbrev S4096x3x32x32 : Shape := ⟨4, ![4096, 3, 32, 32]⟩
abbrev S5x3x32x168 : Shape := ⟨4, ![5, 3, 32, 168]⟩
abbrev S1x168 : Shape := ⟨2, ![1, 168]⟩
abbrev S5x162x160 : Shape := ⟨3, ![5, 162, 160]⟩
abbrev S1x160 : Shape := ⟨2, ![1, 160]⟩
abbrev S5x144x120 : Shape := ⟨3, ![5, 144, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S32x4096x3x32 : Shape := ⟨4, ![32, 4096, 3, 32]⟩
abbrev S32x4096x96 : Shape := ⟨3, ![32, 4096, 96]⟩
abbrev S480x168 : Shape := ⟨2, ![480, 168]⟩
abbrev S810x160 : Shape := ⟨2, ![810, 160]⟩
abbrev S720x120 : Shape := ⟨2, ![720, 120]⟩
abbrev S4096x10 : Shape := ⟨2, ![4096, 10]⟩
abbrev S32x512x96 : Shape := ⟨3, ![32, 512, 96]⟩
abbrev S512x10 : Shape := ⟨2, ![512, 10]⟩
abbrev S28x512x96 : Shape := ⟨3, ![28, 512, 96]⟩
abbrev S14336x96 : Shape := ⟨2, ![14336, 96]⟩
abbrev S14336x480 : Shape := ⟨2, ![14336, 480]⟩
abbrev S14336x168 : Shape := ⟨2, ![14336, 168]⟩
abbrev S14336x162 : Shape := ⟨2, ![14336, 162]⟩
abbrev S14x1024x162 : Shape := ⟨3, ![14, 1024, 162]⟩
abbrev S14x512x162 : Shape := ⟨3, ![14, 512, 162]⟩
abbrev S7168x162 : Shape := ⟨2, ![7168, 162]⟩
abbrev S10x512x162 : Shape := ⟨3, ![10, 512, 162]⟩
abbrev S5120x162 : Shape := ⟨2, ![5120, 162]⟩
abbrev S5120x810 : Shape := ⟨2, ![5120, 810]⟩
abbrev S5120x160 : Shape := ⟨2, ![5120, 160]⟩
abbrev S5120x144 : Shape := ⟨2, ![5120, 144]⟩
abbrev S5x1024x144 : Shape := ⟨3, ![5, 1024, 144]⟩
abbrev S5x512x144 : Shape := ⟨3, ![5, 512, 144]⟩
abbrev S1x512x144 : Shape := ⟨3, ![1, 512, 144]⟩
abbrev S512x144 : Shape := ⟨2, ![512, 144]⟩
abbrev S512x720 : Shape := ⟨2, ![512, 720]⟩
abbrev S512x120 : Shape := ⟨2, ![512, 120]⟩
abbrev S512x84 : Shape := ⟨2, ![512, 84]⟩

abbrev nBuf : Space → Nat
  | .hbm => 23
  | .vmem => 14
  | .smem => 0
  | _ => 0

abbrev bufTy : (tb : Table) → Fin (tcTables nBuf tb) → BufTy
  | .hbm, ⟨0, _⟩ => ⟨S4096x3x32x32, .f32⟩
  | .hbm, ⟨1, _⟩ => ⟨S5x3x32x168, .f32⟩
  | .hbm, ⟨2, _⟩ => ⟨S1x168, .f32⟩
  | .hbm, ⟨3, _⟩ => ⟨S5x162x160, .f32⟩
  | .hbm, ⟨4, _⟩ => ⟨S1x160, .f32⟩
  | .hbm, ⟨5, _⟩ => ⟨S5x144x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x10, .f32⟩
  | .hbm, ⟨10, _⟩ => ⟨S1x10, .f32⟩
  | .hbm, ⟨11, _⟩ => ⟨S32x4096x3x32, .f32⟩
  | .hbm, ⟨12, _⟩ => ⟨S32x4096x96, .f32⟩
  | .hbm, ⟨13, _⟩ => ⟨S32x4096x96, .bf16⟩
  | .hbm, ⟨14, _⟩ => ⟨S480x168, .f32⟩
  | .hbm, ⟨15, _⟩ => ⟨S480x168, .bf16⟩
  | .hbm, ⟨16, _⟩ => ⟨S810x160, .f32⟩
  | .hbm, ⟨17, _⟩ => ⟨S810x160, .bf16⟩
  | .hbm, ⟨18, _⟩ => ⟨S720x120, .f32⟩
  | .hbm, ⟨19, _⟩ => ⟨S720x120, .bf16⟩
  | .hbm, ⟨20, _⟩ => ⟨S120x84, .bf16⟩
  | .hbm, ⟨21, _⟩ => ⟨S84x10, .bf16⟩
  | .hbm, ⟨22, _⟩ => ⟨S4096x10, .f32⟩
  | .local _ .vmem, ⟨0, _⟩ => ⟨S32x512x96, .bf16⟩
  | .local _ .vmem, ⟨1, _⟩ => ⟨S32x512x96, .bf16⟩
  | .local _ .vmem, ⟨2, _⟩ => ⟨S480x168, .bf16⟩
  | .local _ .vmem, ⟨3, _⟩ => ⟨S1x168, .f32⟩
  | .local _ .vmem, ⟨4, _⟩ => ⟨S810x160, .bf16⟩
  | .local _ .vmem, ⟨5, _⟩ => ⟨S1x160, .f32⟩
  | .local _ .vmem, ⟨6, _⟩ => ⟨S720x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x10, .bf16⟩
  | .local _ .vmem, ⟨11, _⟩ => ⟨S1x10, .f32⟩
  | .local _ .vmem, ⟨12, _⟩ => ⟨S512x10, .f32⟩
  | .local _ .vmem, ⟨13, _⟩ => ⟨S512x10, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S810x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S720x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x3x32x32_S32x4096x3x32_2_0_1_3 : S4096x3x32x32.Transposes [2, 0, 1, 3] S32x4096x3x32
  shapeCasts_S32x4096x3x32_S32x4096x96 : S32x4096x3x32.ShapeCasts S32x4096x96
  bitsLt_bf16_f32 : FTy.bits .bf16 < FTy.bits .f32
  shapeCasts_S5x3x32x168_S480x168 : S5x3x32x168.ShapeCasts S480x168
  shapeCasts_S5x162x160_S810x160 : S5x162x160.ShapeCasts S810x160
  shapeCasts_S5x144x120_S720x120 : S5x144x120.ShapeCasts S720x120
  inb_S32x512x96_S32x512x96_0_0_0 : ∀ a, (![0, 0, 0] : Fin 3 → Nat) a + S32x512x96.size a ≤ S32x512x96.size a
  h_S32x512x96 : 0 < S32x512x96.numel
  shapeCasts_S32x512x96_S32x512x96 : S32x512x96.ShapeCasts S32x512x96
  slices_S32x512x96_o0_0_0_S28x512x96 : S32x512x96.Slices ![0, 0, 0] S28x512x96
  shapeCasts_S28x512x96_S14336x96 : S28x512x96.ShapeCasts S14336x96
  slices_S32x512x96_o1_0_0_S28x512x96 : S32x512x96.Slices ![1, 0, 0] S28x512x96
  slices_S32x512x96_o2_0_0_S28x512x96 : S32x512x96.Slices ![2, 0, 0] S28x512x96
  slices_S32x512x96_o3_0_0_S28x512x96 : S32x512x96.Slices ![3, 0, 0] S28x512x96
  slices_S32x512x96_o4_0_0_S28x512x96 : S32x512x96.Slices ![4, 0, 0] S28x512x96
  concatenates_S14336x96_S14336x96_S14336x96_S14336x96_S14336x96_S14336x480_d1 : Shape.Concatenates [S14336x96, S14336x96, S14336x96, S14336x96, S14336x96] S14336x480 1
  inb_S480x168_S480x168_0_0 : ∀ a, (![0, 0] : Fin 2 → Nat) a + S480x168.size a ≤ S480x168.size a
  h_S480x168 : 0 < S480x168.numel
  shapeCasts_S480x168_S480x168 : S480x168.ShapeCasts S480x168
  inb_S1x168_S1x168_0_0 : ∀ a, (![0, 0] : Fin 2 → Nat) a + S1x168.size a ≤ S1x168.size a
  h_S1x168 : 0 < S1x168.numel
  broadcasts_S1x168_S14336x168 : S1x168.Broadcasts S14336x168
  slices_S14336x168_o0_0_S14336x162 : S14336x168.Slices ![0, 0] S14336x162
  slices_S14336x168_o0_6_S14336x162 : S14336x168.Slices ![0, 6] S14336x162
  shapeCasts_S14336x162_S14x1024x162 : S14336x162.ShapeCasts S14x1024x162
  slices_S14x1024x162_o0_0_0_S14x512x162 : S14x1024x162.Slices ![0, 0, 0] S14x512x162
  slices_S14x1024x162_o0_512_0_S14x512x162 : S14x1024x162.Slices ![0, 512, 0] S14x512x162
  shapeCasts_S14x512x162_S7168x162 : S14x512x162.ShapeCasts S7168x162
  shapeCasts_S7168x162_S14x512x162 : S7168x162.ShapeCasts S14x512x162
  slices_S14x512x162_o0_0_0_S10x512x162 : S14x512x162.Slices ![0, 0, 0] S10x512x162
  shapeCasts_S10x512x162_S5120x162 : S10x512x162.ShapeCasts S5120x162
  slices_S14x512x162_o1_0_0_S10x512x162 : S14x512x162.Slices ![1, 0, 0] S10x512x162
  slices_S14x512x162_o2_0_0_S10x512x162 : S14x512x162.Slices ![2, 0, 0] S10x512x162
  slices_S14x512x162_o3_0_0_S10x512x162 : S14x512x162.Slices ![3, 0, 0] S10x512x162
  slices_S14x512x162_o4_0_0_S10x512x162 : S14x512x162.Slices ![4, 0, 0] S10x512x162
  concatenates_S5120x162_S5120x162_S5120x162_S5120x162_S5120x162_S5120x810_d1 : Shape.Concatenates [S5120x162, S5120x162, S5120x162, S5120x162, S5120x162] S5120x810 1
  inb_S810x160_S810x160_0_0 : ∀ a, (![0, 0] : Fin 2 → Nat) a + S810x160.size a ≤ S810x160.size a
  h_S810x160 : 0 < S810x160.numel
  shapeCasts_S810x160_S810x160 : S810x160.ShapeCasts S810x160
  inb_S1x160_S1x160_0_0 : ∀ a, (![0, 0] : Fin 2 → Nat) a + S1x160.size a ≤ S1x160.size a
  h_S1x160 : 0 < S1x160.numel
  broadcasts_S1x160_S5120x160 : S1x160.Broadcasts S5120x160
  slices_S5120x160_o0_0_S5120x144 : S5120x160.Slices ![0, 0] S5120x144
  slices_S5120x160_o0_16_S5120x144 : S5120x160.Slices ![0, 16] S5120x144
  shapeCasts_S5120x144_S5x1024x144 : S5120x144.ShapeCasts S5x1024x144
  slices_S5x1024x144_o0_0_0_S5x512x144 : S5x1024x144.Slices ![0, 0, 0] S5x512x144
  slices_S5x1024x144_o0_512_0_S5x512x144 : S5x1024x144.Slices ![0, 512, 0] S5x512x144
  slices_S5x512x144_o0_0_0_S1x512x144 : S5x512x144.Slices ![0, 0, 0] S1x512x144
  shapeCasts_S1x512x144_S512x144 : S1x512x144.ShapeCasts S512x144
  slices_S5x512x144_o1_0_0_S1x512x144 : S5x512x144.Slices ![1, 0, 0] S1x512x144
  slices_S5x512x144_o2_0_0_S1x512x144 : S5x512x144.Slices ![2, 0, 0] S1x512x144
  slices_S5x512x144_o3_0_0_S1x512x144 : S5x512x144.Slices ![3, 0, 0] S1x512x144
  slices_S5x512x144_o4_0_0_S1x512x144 : S5x512x144.Slices ![4, 0, 0] S1x512x144
  concatenates_S512x144_S512x144_S512x144_S512x144_S512x144_S512x720_d1 : Shape.Concatenates [S512x144, S512x144, S512x144, S512x144, S512x144] S512x720 1
  inb_S720x120_S720x120_0_0 : ∀ a, (![0, 0] : Fin 2 → Nat) a + S720x120.size a ≤ S720x120.size a
  h_S720x120 : 0 < S720x120.numel
  shapeCasts_S720x120_S720x120 : S720x120.ShapeCasts S720x120
  inb_S1x120_S1x120_0_0 : ∀ a, (![0, 0] : Fin 2 → Nat) a + S1x120.size a ≤ S1x120.size a
  h_S1x120 : 0 < S1x120.numel
  broadcasts_S1x120_S512x120 : S1x120.Broadcasts S512x120
  inb_S120x84_S120x84_0_0 : ∀ a, (![0, 0] : Fin 2 → Nat) a + S120x84.size a ≤ S120x84.size a
  h_S120x84 : 0 < S120x84.numel
  shapeCasts_S120x84_S120x84 : S120x84.ShapeCasts S120x84
  inb_S1x84_S1x84_0_0 : ∀ a, (![0, 0] : Fin 2 → Nat) a + S1x84.size a ≤ S1x84.size a
  h_S1x84 : 0 < S1x84.numel
  broadcasts_S1x84_S512x84 : S1x84.Broadcasts S512x84
  inb_S84x10_S84x10_0_0 : ∀ a, (![0, 0] : Fin 2 → Nat) a + S84x10.size a ≤ S84x10.size a
  h_S84x10 : 0 < S84x10.numel
  shapeCasts_S84x10_S84x10 : S84x10.ShapeCasts S84x10
  inb_S1x10_S1x10_0_0 : ∀ a, (![0, 0] : Fin 2 → Nat) a + S1x10.size a ≤ S1x10.size a
  h_S1x10 : 0 < S1x10.numel
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S14336x480_S480x168_S14336x168_1_0_0_1_n_n_wf : DotDims.WF S14336x480 S480x168 S14336x168 [1] [0] [0] [1] [] []
  dot_S5120x810_S810x160_S5120x160_1_0_0_1_n_n_wf : DotDims.WF S5120x810 S810x160 S5120x160 [1] [0] [0] [1] [] []
  dot_S512x720_S720x120_S512x120_1_0_0_1_n_n_wf : DotDims.WF S512x720 S720x120 S512x120 [1] [0] [0] [1] [] []
  dot_S512x120_S120x84_S512x84_1_0_0_1_n_n_wf : DotDims.WF S512x120 S120x84 S512x84 [1] [0] [0] [1] [] []
  dot_S512x84_S84x10_S512x10_1_0_0_1_n_n_wf : DotDims.WF S512x84 S84x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x96.size a ≤ S32x4096x96.size a
  hwx0_0 : ∀ i : grid0.Coords, EltTy.bits .bf16 = 32 ∨ (Rect.block (s := S32x4096x96) S32x512x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S480x168.size a ≤ S480x168.size a
  hwx0_1 : ∀ i : grid0.Coords, EltTy.bits .bf16 = 32 ∨ (Rect.block (s := S480x168) S480x168.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S810x160.size a ≤ S810x160.size a
  hwx0_3 : ∀ i : grid0.Coords, EltTy.bits .bf16 = 32 ∨ (Rect.block (s := S810x160) S810x160.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S720x120.size a ≤ S720x120.size a
  hwx0_5 : ∀ i : grid0.Coords, EltTy.bits .bf16 = 32 ∨ (Rect.block (s := S720x120) S720x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .bf16 = 32 ∨ (Rect.block (s := S84x10) S84x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x10.size a ≤ S4096x10.size a
  hwx0_11 : ∀ i : grid0.Coords, EltTy.bits .f32 = 32 ∨ (Rect.block (s := S4096x10) S512x10.size (cc0_transform_11 i) (hinb0_11 i)).WholeWords (EltTy.packing .f32)

variable [Facts₀]

def dot_S14336x480_S480x168_S14336x168_1_0_0_1_n_n : DotDims S14336x480 S480x168 S14336x168 where
  lhsContracting := [1]
  rhsContracting := [0]
  lhsNonContracting := [0]
  rhsNonContracting := [1]
  lhsBatch := []
  rhsBatch := []
  wf := dot_S14336x480_S480x168_S14336x168_1_0_0_1_n_n_wf
def dot_S5120x810_S810x160_S5120x160_1_0_0_1_n_n : DotDims S5120x810 S810x160 S5120x160 where
  lhsContracting := [1]
  rhsContracting := [0]
  lhsNonContracting := [0]
  rhsNonContracting := [1]
  lhsBatch := []
  rhsBatch := []
  wf := dot_S5120x810_S810x160_S5120x160_1_0_0_1_n_n_wf
def dot_S512x720_S720x120_S512x120_1_0_0_1_n_n : DotDims S512x720 S720x120 S512x120 where
  lhsContracting := [1]
  rhsContracting := [0]
  lhsNonContracting := [0]
  rhsNonContracting := [1]
  lhsBatch := []
  rhsBatch := []
  wf := dot_S512x720_S720x120_S512x120_1_0_0_1_n_n_wf
def dot_S512x120_S120x84_S512x84_1_0_0_1_n_n : DotDims S512x120 S120x84 S512x84 where
  lhsContracting := [1]
  rhsContracting := [0]
  lhsNonContracting := [0]
  rhsNonContracting := [1]
  lhsBatch := []
  rhsBatch := []
  wf := dot_S512x120_S120x84_S512x84_1_0_0_1_n_n_wf
def dot_S512x84_S84x10_S512x10_1_0_0_1_n_n : DotDims S512x84 S84x10 S512x10 where
  lhsContracting := [1]
  rhsContracting := [0]
  lhsNonContracting := [0]
  rhsNonContracting := [1]
  lhsBatch := []
  rhsBatch := []
  wf := dot_S512x84_S84x10_S512x10_1_0_0_1_n_n_wf

abbrev win0_0 : Pipeline.Window sig grid0 :=
  Pipeline.Window.ofSpec (Memref.whole main_v2) S32x512x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S480x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S810x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S720x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x3x32x32 : Shape := ⟨4, ![4096, 3, 32, 32]⟩
abbrev S5x3x32x168 : Shape := ⟨4, ![5, 3, 32, 168]⟩
abbrev S1x168 : Shape := ⟨2, ![1, 168]⟩
abbrev S5x162x160 : Shape := ⟨3, ![5, 162, 160]⟩
abbrev S1x160 : Shape := ⟨2, ![1, 160]⟩
abbrev S5x144x120 : Shape := ⟨3, ![5, 144, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S4096x96x32 : Shape := ⟨3, ![4096, 96, 32]⟩
abbrev S4096x1x10 : Shape := ⟨3, ![4096, 1, 10]⟩
abbrev S1x96x32 : Shape := ⟨3, ![1, 96, 32]⟩
abbrev S1x1x10 : Shape := ⟨3, ![1, 1, 10]⟩
abbrev S14x162 : Shape := ⟨2, ![14, 162]⟩
abbrev S28x168 : Shape := ⟨2, ![28, 168]⟩
abbrev S1x28x32 : Shape := ⟨3, ![1, 28, 32]⟩
abbrev S28x32 : Shape := ⟨2, ![28, 32]⟩
abbrev S1x1x32x168 : Shape := ⟨4, ![1, 1, 32, 168]⟩
abbrev S32x168 : Shape := ⟨2, ![32, 168]⟩
abbrev S28x162 : Shape := ⟨2, ![28, 162]⟩
abbrev S27x162 : Shape := ⟨2, ![27, 162]⟩
abbrev S1x162 : Shape := ⟨2, ![1, 162]⟩
abbrev S10x160 : Shape := ⟨2, ![10, 160]⟩
abbrev S10x162 : Shape := ⟨2, ![10, 162]⟩
abbrev S1x162x160 : Shape := ⟨3, ![1, 162, 160]⟩
abbrev S162x160 : Shape := ⟨2, ![162, 160]⟩
abbrev S10x144 : Shape := ⟨2, ![10, 144]⟩
abbrev S9x144 : Shape := ⟨2, ![9, 144]⟩
abbrev S1x144 : Shape := ⟨2, ![1, 144]⟩
abbrev S1x144x120 : Shape := ⟨3, ![1, 144, 120]⟩
abbrev S144x120 : Shape := ⟨2, ![144, 120]⟩
abbrev S4096x10 : Shape := ⟨2, ![4096, 10]⟩

abbrev nBuf : Space → Nat
  | .hbm => 14
  | .vmem => 15
  | .smem => 0
  | _ => 0

abbrev bufTy : (tb : Table) → Fin (tcTables nBuf tb) → BufTy
  | .hbm, ⟨0, _⟩ => ⟨S4096x3x32x32, .f32⟩
  | .hbm, ⟨1, _⟩ => ⟨S5x3x32x168, .f32⟩
  | .hbm, ⟨2, _⟩ => ⟨S1x168, .f32⟩
  | .hbm, ⟨3, _⟩ => ⟨S5x162x160, .f32⟩
  | .hbm, ⟨4, _⟩ => ⟨S1x160, .f32⟩
  | .hbm, ⟨5, _⟩ => ⟨S5x144x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x10, .f32⟩
  | .hbm, ⟨10, _⟩ => ⟨S1x10, .f32⟩
  | .hbm, ⟨11, _⟩ => ⟨S4096x96x32, .f32⟩
  | .hbm, ⟨12, _⟩ => ⟨S4096x1x10, .f32⟩
  | .hbm, ⟨13, _⟩ => ⟨S4096x10, .f32⟩
  | .local _ .vmem, ⟨0, _⟩ => ⟨S1x96x32, .f32⟩
  | .local _ .vmem, ⟨1, _⟩ => ⟨S1x96x32, .f32⟩
  | .local _ .vmem, ⟨2, _⟩ => ⟨S5x3x32x168, .f32⟩
  | .local _ .vmem, ⟨3, _⟩ => ⟨S1x168, .f32⟩
  | .local _ .vmem, ⟨4, _⟩ => ⟨S5x162x160, .f32⟩
  | .local _ .vmem, ⟨5, _⟩ => ⟨S1x160, .f32⟩
  | .local _ .vmem, ⟨6, _⟩ => ⟨S5x144x120, .f32⟩
  | .local _ .vmem, ⟨7, _⟩ => ⟨S1x120, .f32⟩
  | .local _ .vmem, ⟨8, _⟩ => ⟨S120x84, .f32⟩
  | .local _ .vmem, ⟨9, _⟩ => ⟨S1x84, .f32⟩
  | .local _ .vmem, ⟨10, _⟩ => ⟨S84x10, .f32⟩
  | .local _ .vmem, ⟨11, _⟩ => ⟨S1x10, .f32⟩
  | .local _ .vmem, ⟨12, _⟩ => ⟨S1x1x10, .f32⟩
  | .local _ .vmem, ⟨13, _⟩ => ⟨S1x1x10, .f32⟩
  | .local _ .vmem, ⟨14, _⟩ => ⟨S14x162, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x3x32x168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x162x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x144x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x3x32x32_S4096x96x32 : S4096x3x32x32.ShapeCasts S4096x96x32
  inb_S1x96x32_S1x28x32_0_0_0 : ∀ a, (![0, 0, 0] : Fin 3 → Nat) a + S1x28x32.size a ≤ S1x96x32.size a
  h_S1x28x32 : 0 < S1x28x32.numel
  shapeCasts_S1x28x32_S28x32 : S1x28x32.ShapeCasts S28x32
  inb_S5x3x32x168_S1x1x32x168_0_0_0_0 : ∀ a, (![0, 0, 0, 0] : Fin 4 → Nat) a + S1x1x32x168.size a ≤ S5x3x32x168.size a
  h_S1x1x32x168 : 0 < S1x1x32x168.numel
  shapeCasts_S1x1x32x168_S32x168 : S1x1x32x168.ShapeCasts S32x168
  inb_S1x96x32_S1x28x32_0_1_0 : ∀ a, (![0, 1, 0] : Fin 3 → Nat) a + S1x28x32.size a ≤ S1x96x32.size a
  inb_S5x3x32x168_S1x1x32x168_1_0_0_0 : ∀ a, (![1, 0, 0, 0] : Fin 4 → Nat) a + S1x1x32x168.size a ≤ S5x3x32x168.size a
  inb_S1x96x32_S1x28x32_0_2_0 : ∀ a, (![0, 2, 0] : Fin 3 → Nat) a + S1x28x32.size a ≤ S1x96x32.size a
  inb_S5x3x32x168_S1x1x32x168_2_0_0_0 : ∀ a, (![2, 0, 0, 0] : Fin 4 → Nat) a + S1x1x32x168.size a ≤ S5x3x32x168.size a
  inb_S1x96x32_S1x28x32_0_3_0 : ∀ a, (![0, 3, 0] : Fin 3 → Nat) a + S1x28x32.size a ≤ S1x96x32.size a
  inb_S5x3x32x168_S1x1x32x168_3_0_0_0 : ∀ a, (![3, 0, 0, 0] : Fin 4 → Nat) a + S1x1x32x168.size a ≤ S5x3x32x168.size a
  inb_S1x96x32_S1x28x32_0_4_0 : ∀ a, (![0, 4, 0] : Fin 3 → Nat) a + S1x28x32.size a ≤ S1x96x32.size a
  inb_S5x3x32x168_S1x1x32x168_4_0_0_0 : ∀ a, (![4, 0, 0, 0] : Fin 4 → Nat) a + S1x1x32x168.size a ≤ S5x3x32x168.size a
  inb_S1x96x32_S1x28x32_0_32_0 : ∀ a, (![0, 32, 0] : Fin 3 → Nat) a + S1x28x32.size a ≤ S1x96x32.size a
  inb_S5x3x32x168_S1x1x32x168_0_1_0_0 : ∀ a, (![0, 1, 0, 0] : Fin 4 → Nat) a + S1x1x32x168.size a ≤ S5x3x32x168.size a
  inb_S1x96x32_S1x28x32_0_33_0 : ∀ a, (![0, 33, 0] : Fin 3 → Nat) a + S1x28x32.size a ≤ S1x96x32.size a
  inb_S5x3x32x168_S1x1x32x168_1_1_0_0 : ∀ a, (![1, 1, 0, 0] : Fin 4 → Nat) a + S1x1x32x168.size a ≤ S5x3x32x168.size a
  inb_S1x96x32_S1x28x32_0_34_0 : ∀ a, (![0, 34, 0] : Fin 3 → Nat) a + S1x28x32.size a ≤ S1x96x32.size a
  inb_S5x3x32x168_S1x1x32x168_2_1_0_0 : ∀ a, (![2, 1, 0, 0] : Fin 4 → Nat) a + S1x1x32x168.size a ≤ S5x3x32x168.size a
  inb_S1x96x32_S1x28x32_0_35_0 : ∀ a, (![0, 35, 0] : Fin 3 → Nat) a + S1x28x32.size a ≤ S1x96x32.size a
  inb_S5x3x32x168_S1x1x32x168_3_1_0_0 : ∀ a, (![3, 1, 0, 0] : Fin 4 → Nat) a + S1x1x32x168.size a ≤ S5x3x32x168.size a
  inb_S1x96x32_S1x28x32_0_36_0 : ∀ a, (![0, 36, 0] : Fin 3 → Nat) a + S1x28x32.size a ≤ S1x96x32.size a
  inb_S5x3x32x168_S1x1x32x168_4_1_0_0 : ∀ a, (![4, 1, 0, 0] : Fin 4 → Nat) a + S1x1x32x168.size a ≤ S5x3x32x168.size a
  inb_S1x96x32_S1x28x32_0_64_0 : ∀ a, (![0, 64, 0] : Fin 3 → Nat) a + S1x28x32.size a ≤ S1x96x32.size a
  inb_S5x3x32x168_S1x1x32x168_0_2_0_0 : ∀ a, (![0, 2, 0, 0] : Fin 4 → Nat) a + S1x1x32x168.size a ≤ S5x3x32x168.size a
  inb_S1x96x32_S1x28x32_0_65_0 : ∀ a, (![0, 65, 0] : Fin 3 → Nat) a + S1x28x32.size a ≤ S1x96x32.size a
  inb_S5x3x32x168_S1x1x32x168_1_2_0_0 : ∀ a, (![1, 2, 0, 0] : Fin 4 → Nat) a + S1x1x32x168.size a ≤ S5x3x32x168.size a
  inb_S1x96x32_S1x28x32_0_66_0 : ∀ a, (![0, 66, 0] : Fin 3 → Nat) a + S1x28x32.size a ≤ S1x96x32.size a
  inb_S5x3x32x168_S1x1x32x168_2_2_0_0 : ∀ a, (![2, 2, 0, 0] : Fin 4 → Nat) a + S1x1x32x168.size a ≤ S5x3x32x168.size a
  inb_S1x96x32_S1x28x32_0_67_0 : ∀ a, (![0, 67, 0] : Fin 3 → Nat) a + S1x28x32.size a ≤ S1x96x32.size a
  inb_S5x3x32x168_S1x1x32x168_3_2_0_0 : ∀ a, (![3, 2, 0, 0] : Fin 4 → Nat) a + S1x1x32x168.size a ≤ S5x3x32x168.size a
  inb_S1x96x32_S1x28x32_0_68_0 : ∀ a, (![0, 68, 0] : Fin 3 → Nat) a + S1x28x32.size a ≤ S1x96x32.size a
  inb_S5x3x32x168_S1x1x32x168_4_2_0_0 : ∀ a, (![4, 2, 0, 0] : Fin 4 → Nat) a + S1x1x32x168.size a ≤ S5x3x32x168.size a
  inb_S1x168_S1x168_0_0 : ∀ a, (![0, 0] : Fin 2 → Nat) a + S1x168.size a ≤ S1x168.size a
  h_S1x168 : 0 < S1x168.numel
  broadcasts_S1x168_S28x168 : S1x168.Broadcasts S28x168
  slices_S28x168_o0_0_S28x162 : S28x168.Slices ![0, 0] S28x162
  slices_S28x168_o0_6_S28x162 : S28x168.Slices ![0, 6] S28x162
  slices_S28x162_o0_0_S27x162 : S28x162.Slices ![0, 0] S27x162
  slices_S28x162_o1_0_S27x162 : S28x162.Slices ![1, 0] S27x162
  slices_S27x162_o0_0_S1x162 : S27x162.Slices ![0, 0] S1x162
  inb_S14x162_S1x162_0_0 : ∀ a, (![0, 0] : Fin 2 → Nat) a + S1x162.size a ≤ S14x162.size a
  h_S1x162 : 0 < S1x162.numel
  shapeCasts_S1x162_S1x162 : S1x162.ShapeCasts S1x162
  slices_S27x162_o2_0_S1x162 : S27x162.Slices ![2, 0] S1x162
  inb_S14x162_S1x162_1_0 : ∀ a, (![1, 0] : Fin 2 → Nat) a + S1x162.size a ≤ S14x162.size a
  slices_S27x162_o4_0_S1x162 : S27x162.Slices ![4, 0] S1x162
  inb_S14x162_S1x162_2_0 : ∀ a, (![2, 0] : Fin 2 → Nat) a + S1x162.size a ≤ S14x162.size a
  slices_S27x162_o6_0_S1x162 : S27x162.Slices ![6, 0] S1x162
  inb_S14x162_S1x162_3_0 : ∀ a, (![3, 0] : Fin 2 → Nat) a + S1x162.size a ≤ S14x162.size a
  slices_S27x162_o8_0_S1x162 : S27x162.Slices ![8, 0] S1x162
  inb_S14x162_S1x162_4_0 : ∀ a, (![4, 0] : Fin 2 → Nat) a + S1x162.size a ≤ S14x162.size a
  slices_S27x162_o10_0_S1x162 : S27x162.Slices ![10, 0] S1x162
  inb_S14x162_S1x162_5_0 : ∀ a, (![5, 0] : Fin 2 → Nat) a + S1x162.size a ≤ S14x162.size a
  slices_S27x162_o12_0_S1x162 : S27x162.Slices ![12, 0] S1x162
  inb_S14x162_S1x162_6_0 : ∀ a, (![6, 0] : Fin 2 → Nat) a + S1x162.size a ≤ S14x162.size a
  slices_S27x162_o14_0_S1x162 : S27x162.Slices ![14, 0] S1x162
  inb_S14x162_S1x162_7_0 : ∀ a, (![7, 0] : Fin 2 → Nat) a + S1x162.size a ≤ S14x162.size a
  slices_S27x162_o16_0_S1x162 : S27x162.Slices ![16, 0] S1x162
  inb_S14x162_S1x162_8_0 : ∀ a, (![8, 0] : Fin 2 → Nat) a + S1x162.size a ≤ S14x162.size a
  slices_S27x162_o18_0_S1x162 : S27x162.Slices ![18, 0] S1x162
  inb_S14x162_S1x162_9_0 : ∀ a, (![9, 0] : Fin 2 → Nat) a + S1x162.size a ≤ S14x162.size a
  slices_S27x162_o20_0_S1x162 : S27x162.Slices ![20, 0] S1x162
  inb_S14x162_S1x162_10_0 : ∀ a, (![10, 0] : Fin 2 → Nat) a + S1x162.size a ≤ S14x162.size a
  slices_S27x162_o22_0_S1x162 : S27x162.Slices ![22, 0] S1x162
  inb_S14x162_S1x162_11_0 : ∀ a, (![11, 0] : Fin 2 → Nat) a + S1x162.size a ≤ S14x162.size a
  slices_S27x162_o24_0_S1x162 : S27x162.Slices ![24, 0] S1x162
  inb_S14x162_S1x162_12_0 : ∀ a, (![12, 0] : Fin 2 → Nat) a + S1x162.size a ≤ S14x162.size a
  slices_S27x162_o26_0_S1x162 : S27x162.Slices ![26, 0] S1x162
  inb_S14x162_S1x162_13_0 : ∀ a, (![13, 0] : Fin 2 → Nat) a + S1x162.size a ≤ S14x162.size a
  inb_S14x162_S10x162_0_0 : ∀ a, (![0, 0] : Fin 2 → Nat) a + S10x162.size a ≤ S14x162.size a
  h_S10x162 : 0 < S10x162.numel
  inb_S5x162x160_S1x162x160_0_0_0 : ∀ a, (![0, 0, 0] : Fin 3 → Nat) a + S1x162x160.size a ≤ S5x162x160.size a
  h_S1x162x160 : 0 < S1x162x160.numel
  shapeCasts_S1x162x160_S162x160 : S1x162x160.ShapeCasts S162x160
  inb_S14x162_S10x162_1_0 : ∀ a, (![1, 0] : Fin 2 → Nat) a + S10x162.size a ≤ S14x162.size a
  inb_S5x162x160_S1x162x160_1_0_0 : ∀ a, (![1, 0, 0] : Fin 3 → Nat) a + S1x162x160.size a ≤ S5x162x160.size a
  inb_S14x162_S10x162_2_0 : ∀ a, (![2, 0] : Fin 2 → Nat) a + S10x162.size a ≤ S14x162.size a
  inb_S5x162x160_S1x162x160_2_0_0 : ∀ a, (![2, 0, 0] : Fin 3 → Nat) a + S1x162x160.size a ≤ S5x162x160.size a
  inb_S14x162_S10x162_3_0 : ∀ a, (![3, 0] : Fin 2 → Nat) a + S10x162.size a ≤ S14x162.size a
  inb_S5x162x160_S1x162x160_3_0_0 : ∀ a, (![3, 0, 0] : Fin 3 → Nat) a + S1x162x160.size a ≤ S5x162x160.size a
  inb_S14x162_S10x162_4_0 : ∀ a, (![4, 0] : Fin 2 → Nat) a + S10x162.size a ≤ S14x162.size a
  inb_S5x162x160_S1x162x160_4_0_0 : ∀ a, (![4, 0, 0] : Fin 3 → Nat) a + S1x162x160.size a ≤ S5x162x160.size a
  inb_S1x160_S1x160_0_0 : ∀ a, (![0, 0] : Fin 2 → Nat) a + S1x160.size a ≤ S1x160.size a
  h_S1x160 : 0 < S1x160.numel
  broadcasts_S1x160_S10x160 : S1x160.Broadcasts S10x160
  slices_S10x160_o0_0_S10x144 : S10x160.Slices ![0, 0] S10x144
  slices_S10x160_o0_16_S10x144 : S10x160.Slices ![0, 16] S10x144
  slices_S10x144_o0_0_S9x144 : S10x144.Slices ![0, 0] S9x144
  slices_S10x144_o1_0_S9x144 : S10x144.Slices ![1, 0] S9x144
  slices_S9x144_o0_0_S1x144 : S9x144.Slices ![0, 0] S1x144
  inb_S5x144x120_S1x144x120_0_0_0 : ∀ a, (![0, 0, 0] : Fin 3 → Nat) a + S1x144x120.size a ≤ S5x144x120.size a
  h_S1x144x120 : 0 < S1x144x120.numel
  shapeCasts_S1x144x120_S144x120 : S1x144x120.ShapeCasts S144x120
  slices_S9x144_o2_0_S1x144 : S9x144.Slices ![2, 0] S1x144
  inb_S5x144x120_S1x144x120_1_0_0 : ∀ a, (![1, 0, 0] : Fin 3 → Nat) a + S1x144x120.size a ≤ S5x144x120.size a
  slices_S9x144_o4_0_S1x144 : S9x144.Slices ![4, 0] S1x144
  inb_S5x144x120_S1x144x120_2_0_0 : ∀ a, (![2, 0, 0] : Fin 3 → Nat) a + S1x144x120.size a ≤ S5x144x120.size a
  slices_S9x144_o6_0_S1x144 : S9x144.Slices ![6, 0] S1x144
  inb_S5x144x120_S1x144x120_3_0_0 : ∀ a, (![3, 0, 0] : Fin 3 → Nat) a + S1x144x120.size a ≤ S5x144x120.size a
  slices_S9x144_o8_0_S1x144 : S9x144.Slices ![8, 0] S1x144
  inb_S5x144x120_S1x144x120_4_0_0 : ∀ a, (![4, 0, 0] : Fin 3 → Nat) a + S1x144x120.size a ≤ S5x144x120.size a
  inb_S1x120_S1x120_0_0 : ∀ a, (![0, 0] : Fin 2 → Nat) a + S1x120.size a ≤ S1x120.size a
  h_S1x120 : 0 < S1x120.numel
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  shapeCasts_S1x10_S1x1x10 : S1x10.ShapeCasts S1x1x10
  shapeCasts_S4096x1x10_S4096x10 : S4096x1x10.ShapeCasts S4096x10
  dot_S28x32_S32x168_S28x168_1_0_0_1_n_n_wf : DotDims.WF S28x32 S32x168 S28x168 [1] [0] [0] [1] [] []
  dot_S10x162_S162x160_S10x160_1_0_0_1_n_n_wf : DotDims.WF S10x162 S162x160 S10x160 [1] [0] [0] [1] [] []
  dot_S1x144_S144x120_S1x120_1_0_0_1_n_n_wf : DotDims.WF S1x144 S144x120 S1x120 [1] [0] [0] [1] [] []
  dot_S1x120_S120x84_S1x84_1_0_0_1_n_n_wf : DotDims.WF S1x120 S120x84 S1x84 [1] [0] [0] [1] [] []
  dot_S1x84_S84x10_S1x10_1_0_0_1_n_n_wf : DotDims.WF S1x84 S84x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x32.size a ≤ S4096x96x32.size a
  hwx0_0 : ∀ i : grid0.Coords, EltTy.bits .f32 = 32 ∨ (Rect.block (s := S4096x96x32) S1x96x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x3x32x168.size a ≤ S5x3x32x168.size a
  hwx0_1 : ∀ i : grid0.Coords, EltTy.bits .f32 = 32 ∨ (Rect.block (s := S5x3x32x168) S5x3x32x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x162x160.size a ≤ S5x162x160.size a
  hwx0_3 : ∀ i : grid0.Coords, EltTy.bits .f32 = 32 ∨ (Rect.block (s := S5x162x160) S5x162x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x144x120.size a ≤ S5x144x120.size a
  hwx0_5 : ∀ i : grid0.Coords, EltTy.bits .f32 = 32 ∨ (Rect.block (s := S5x144x120) S5x144x120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .f32 = 32 ∨ (Rect.block (s := S120x84) S120x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .f32 = 32 ∨ (Rect.block (s := S84x10) S84x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x10.size a ≤ S4096x1x10.size a
  hwx0_11 : ∀ i : grid0.Coords, EltTy.bits .f32 = 32 ∨ (Rect.block (s := S4096x1x10) S1x1x10.size (cc0_transform_11 i) (hinb0_11 i)).WholeWords (EltTy.packing .f32)

variable [Facts₀]

def dot_S28x32_S32x168_S28x168_1_0_0_1_n_n : DotDims S28x32 S32x168 S28x168 where
  lhsContracting := [1]
  rhsContracting := [0]
  lhsNonContracting := [0]
  rhsNonContracting := [1]
  lhsBatch := []
  rhsBatch := []
  wf := dot_S28x32_S32x168_S28x168_1_0_0_1_n_n_wf
def dot_S10x162_S162x160_S10x160_1_0_0_1_n_n : DotDims S10x162 S162x160 S10x160 where
  lhsContracting := [1]
  rhsContracting := [0]
  lhsNonContracting := [0]
  rhsNonContracting := [1]
  lhsBatch := []
  rhsBatch := []
  wf := dot_S10x162_S162x160_S10x160_1_0_0_1_n_n_wf
def dot_S1x144_S144x120_S1x120_1_0_0_1_n_n : DotDims S1x144 S144x120 S1x120 where
  lhsContracting := [1]
  rhsContracting := [0]
  lhsNonContracting := [0]
  rhsNonContracting := [1]
  lhsBatch := []
  rhsBatch := []
  wf := dot_S1x144_S144x120_S1x120_1_0_0_1_n_n_wf
def dot_S1x120_S120x84_S1x84_1_0_0_1_n_n : DotDims S1x120 S120x84 S1x84 where
  lhsContracting := [1]
  rhsContracting := [0]
  lhsNonContracting := [0]
  rhsNonContracting := [1]
  lhsBatch := []
  rhsBatch := []
  wf := dot_S1x120_S120x84_S1x84_1_0_0_1_n_n_wf
def dot_S1x84_S84x10_S1x10_1_0_0_1_n_n : DotDims S1x84 S84x10 S1x10 where
  lhsContracting := [1]
  rhsContracting := [0]
  lhsNonContracting := [0]
  rhsNonContracting := [1]
  lhsBatch := []
  rhsBatch := []
  wf := dot_S1x84_S84x10_S1x10_1_0_0_1_n_n_wf

abbrev win0_0 : Pipeline.Window sig grid0 :=
  Pipeline.Window.ofSpec (Memref.whole main_v0) S1x96x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x3x32x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x162x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x144x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x1x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  The network both programs compute, written once on the extended reals, for ONE image.
  An image is `x ci h w` (3 channels of 32×32); the first convolution is stored as a row-Toeplitz
  table `t1 kh ci w l` whose lane `l = ow*6 + co` already folds the horizontal taps, so
  row `oh` of the convolution is a plain sum over the five vertical taps `kh`, the three channels
  and the 32 input lanes.  A 2×2 max-pool is kept "dilated": the width pair is the maximum of lane `l`
  and lane `l + C` (C the channel count), the height pair the maximum of rows `2p` and `2p+1`; the lanes
  that hold no pooled value are multiplied by zero weights downstream and are never looked at here.
  The second convolution and the first dense layer are again sums over vertical taps (or pooled rows)
  and lanes; two more dense layers follow.  Nothing here uses more than +, * and max on the extended reals.
-/
import Mathlib

noncomputable section

namespace LeNetSpec

/-- Rectified first convolution, row `oh`, lane `l`. -/
def c1 (x : Fin 3 → Fin 32 → Fin 32 → EReal) (t1 : Fin 5 → Fin 3 → Fin 32 → Fin 168 → EReal) (b1 : Fin 168 → EReal)
    (oh : Fin 28) (l : Fin 168) : EReal :=
  max ((∑ ci : Fin 3, ∑ kh : Fin 5, ∑ w : Fin 32, x ci ⟨oh.val + kh.val, by omega⟩ w * t1 kh ci w l) + b1 l) 0

/-- Width pairs of the first pool: lanes `l` and `l + 6`. -/
def m1 (c : Fin 28 → Fin 168 → EReal) (oh : Fin 28) (l : Fin 162) : EReal :=
  max (c oh ⟨l.val, by omega⟩) (c oh ⟨l.val + 6, by omega⟩)

/-- Height pairs of the first pool: rows `2p` and `2p + 1`. -/
def p1 (mm : Fin 28 → Fin 162 → EReal) (ph : Fin 14) (l : Fin 162) : EReal :=
  max (mm ⟨2 * ph.val, by omega⟩ l) (mm ⟨2 * ph.val + 1, by omega⟩ l)

/-- Rectified second convolution over the dilated pooled rows. -/
def c2 (p : Fin 14 → Fin 162 → EReal) (t2 : Fin 5 → Fin 162 → Fin 160 → EReal) (b2 : Fin 160 → EReal)
    (oh : Fin 10) (j : Fin 160) : EReal :=
  max ((∑ kh : Fin 5, ∑ l : Fin 162, p ⟨oh.val + kh.val, by omega⟩ l * t2 kh l j) + b2 j) 0

/-- Width pairs of the second pool: lanes `l` and `l + 16`. -/
def m2 (c : Fin 10 → Fin 160 → EReal) (oh : Fin 10) (l : Fin 144) : EReal :=
  max (c oh ⟨l.val, by omega⟩) (c oh ⟨l.val + 16, by omega⟩)

/-- Height pairs of the second pool. -/
def p2 (mm : Fin 10 → Fin 144 → EReal) (r : Fin 5) (l : Fin 144) : EReal :=
  max (mm ⟨2 * r.val, by omega⟩ l) (mm ⟨2 * r.val + 1, by omega⟩ l)

/-- First dense layer (the flatten order is folded into `f1`). -/
def y1 (p : Fin 5 → Fin 144 → EReal) (f1 : Fin 5 → Fin 144 → Fin 120 → EReal) (bf1 : Fin 120 → EReal) (j : Fin 120) : EReal :=
  max ((∑ r : Fin 5, ∑ l : Fin 144, p r l * f1 r l j) + bf1 j) 0

/-- Second dense layer. -/
def y2 (y : Fin 120 → EReal) (w2 : Fin 120 → Fin 84 → EReal) (bf2 : Fin 84 → EReal) (j : Fin 84) : EReal :=
  max ((∑ k : Fin 120, y k * w2 k j) + bf2 j) 0

/-- Output layer. -/
def y3 (y : Fin 84 → EReal) (w3 : Fin 84 → Fin 10 → EReal) (b3 : Fin 10 → EReal) (j : Fin 10) : EReal :=
  (∑ k : Fin 84, y k * w3 k j) + b3 j

/-- The weights of the network, as curried tables. -/
structure Weights where
  t1 : Fin 5 → Fin 3 → Fin 32 → Fin 168 → EReal
  b1 : Fin 168 → EReal
  t2 : Fin 5 → Fin 162 → Fin 160 → EReal
  b2 : Fin 160 → EReal
  f1 : Fin 5 → Fin 144 → Fin 120 → EReal
  bf1 : Fin 120 → EReal
  w2 : Fin 120 → Fin 84 → EReal
  bf2 : Fin 84 → EReal
  w3 : Fin 84 → Fin 10 → EReal
  b3 : Fin 10 → EReal

/-- Pooled first layer of one image. -/
def pool1 (W : Weights) (x : Fin 3 → Fin 32 → Fin 32 → EReal) : Fin 14 → Fin 162 → EReal :=
  p1 (m1 (c1 x W.t1 W.b1))

/-- Pooled second layer of one image. -/
def pool2 (W : Weights) (x : Fin 3 → Fin 32 → Fin 32 → EReal) : Fin 5 → Fin 144 → EReal :=
  p2 (m2 (c2 (pool1 W x) W.t2 W.b2))

/-- The ten outputs of one image. -/
def net (W : Weights) (x : Fin 3 → Fin 32 → Fin 32 → EReal) (j : Fin 10) : EReal :=
  y3 (y2 (y1 (pool2 W x) W.f1 W.bf1) W.w2 W.bf2) W.w3 W.b3 j

end LeNetSpec

end
-- ==== Proof.Net.lean ====
/-
  The network of `Spec.lean` read off the eleven argument arrays: image `n` of the batch is
  `x[n, ci, h, w]`, the tables are the arrays' entries, the bias rows `[1, c]` are read at row 0,
  and the result array holds output `j` of image `n` at `[n, j]`.
-/
import Idealize.ShloMosaic.Lib.ValueIdx
import proofs.«140764_g2000603131124687_pallasbulk_7_36_alg».proof.Proof.Spec

noncomputable section

namespace LeNetSpec

open Idealize.ShloMosaic Idealize.ShloMosaic.ValueIdx

/-- Image `n` of the batch. -/
def imgOf (a0 : (⟨4, ![4096, 3, 32, 32]⟩ : Shape).Idx → EReal) (n : Fin 4096) : Fin 3 → Fin 32 → Fin 32 → EReal :=
  fun ci h w => a0 (ix4 n ci h w)

/-- The weights as the argument arrays hold them. -/
def weightsOf (a1 : (⟨4, ![5, 3, 32, 168]⟩ : Shape).Idx → EReal) (a2 : (⟨2, ![1, 168]⟩ : Shape).Idx → EReal)
    (a3 : (⟨3, ![5, 162, 160]⟩ : Shape).Idx → EReal) (a4 : (⟨2, ![1, 160]⟩ : Shape).Idx → EReal)
    (a5 : (⟨3, ![5, 144, 120]⟩ : Shape).Idx → EReal) (a6 : (⟨2, ![1, 120]⟩ : Shape).Idx → EReal)
    (a7 : (⟨2, ![120, 84]⟩ : Shape).Idx → EReal) (a8 : (⟨2, ![1, 84]⟩ : Shape).Idx → EReal)
    (a9 : (⟨2, ![84, 10]⟩ : Shape).Idx → EReal) (a10 : (⟨2, ![1, 10]⟩ : Shape).Idx → EReal) : Weights where
  t1 := fun kh ci w l => a1 (ix4 kh ci w l)
  b1 := fun l => a2 (ix2 0 l)
  t2 := fun kh l j => a3 (ix3 kh l j)
  b2 := fun j => a4 (ix2 0 j)
  f1 := fun r l j => a5 (ix3 r l j)
  bf1 := fun j => a6 (ix2 0 j)
  w2 := fun k j => a7 (ix2 k j)
  bf2 := fun j => a8 (ix2 0 j)
  w3 := fun k j => a9 (ix2 k j)
  b3 := fun j => a10 (ix2 0 j)

/-- The whole result array as one function of the argument arrays. -/
def G (a0 : (⟨4, ![4096, 3, 32, 32]⟩ : Shape).Idx → EReal)
    (a1 : (⟨4, ![5, 3, 32, 168]⟩ : Shape).Idx → EReal) (a2 : (⟨2, ![1, 168]⟩ : Shape).Idx → EReal)
    (a3 : (⟨3, ![5, 162, 160]⟩ : Shape).Idx → EReal) (a4 : (⟨2, ![1, 160]⟩ : Shape).Idx → EReal)
    (a5 : (⟨3, ![5, 144, 120]⟩ : Shape).Idx → EReal) (a6 : (⟨2, ![1, 120]⟩ : Shape).Idx → EReal)
    (a7 : (⟨2, ![120, 84]⟩ : Shape).Idx → EReal) (a8 : (⟨2, ![1, 84]⟩ : Shape).Idx → EReal)
    (a9 : (⟨2, ![84, 10]⟩ : Shape).Idx → EReal) (a10 : (⟨2, ![1, 10]⟩ : Shape).Idx → EReal) :
    (⟨2, ![4096, 10]⟩ : Shape).Idx → EReal :=
  fun i => net (weightsOf a1 a2 a3 a4 a5 a6 a7 a8 a9 a10) (imgOf a0 (i 0)) (i 1)

end LeNetSpec

end
-- ==== Proof.KDefs.lean ====
/-
  How the batched program's staged blocks hold one image and the weights: a block of 512 images is
  laid out `[h, b, ci*32 + w]`, the first convolution's table is flattened to rows `kh*96 + ci*32 + w`,
  the second to rows `kh*162 + l`, the first dense layer's to rows `r*144 + l`.  `BodyValue` says that the
  block the body leaves holds, at `[b, j]`, output `j` of the network on image `b` of the block.
-/
import proofs.«140764_g2000603131124687_pallasbulk_7_36_alg».proof.Proof.Gen.KernelIdeal.Frame
import proofs.«140764_g2000603131124687_pallasbulk_7_36_alg».proof.Proof.Net

noncomputable section

namespace Cert.KernelIdeal.KDefs

open Cert.KernelIdeal Cert.KernelIdeal.Gen Idealize.ShloMosaic Idealize.ShloMosaic.ValueIdx LeNetSpec

/-- Image `b` of a staged block `[32, 512, 96]`. -/
def kImg (x0 : Vec Ideal S32x512x96 .bf16) (b : Fin 512) : Fin 3 → Fin 32 → Fin 32 → EReal :=
  fun ci h w => x0 (ix3 h b ⟨ci.val * 32 + w.val, by omega⟩)

/-- The weights as the staged, flattened tables hold them. -/
def kW (x1 : Vec Ideal S480x168 .bf16) (x2 : Vec Ideal S1x168 .f32) (x3 : Vec Ideal S810x160 .bf16) (x4 : Vec Ideal S1x160 .f32)
    (x5 : Vec Ideal S720x120 .bf16) (x6 : Vec Ideal S1x120 .f32) (x7 : Vec Ideal S120x84 .bf16) (x8 : Vec Ideal S1x84 .f32)
    (x9 : Vec Ideal S84x10 .bf16) (x10 : Vec Ideal S1x10 .f32) : Weights where
  t1 := fun kh ci w l => x1 (ix2 ⟨kh.val * 96 + ci.val * 32 + w.val, by omega⟩ l)
  b1 := fun l => x2 (ix2 0 l)
  t2 := fun kh l j => x3 (ix2 ⟨kh.val * 162 + l.val, by omega⟩ j)
  b2 := fun j => x4 (ix2 0 j)
  f1 := fun r l j => x5 (ix2 ⟨r.val * 144 + l.val, by omega⟩ j)
  bf1 := fun j => x6 (ix2 0 j)
  w2 := fun k j => x7 (ix2 k j)
  bf2 := fun j => x8 (ix2 0 j)
  w3 := fun k j => x9 (ix2 k j)
  b3 := fun j => x10 (ix2 0 j)

/-- What the body leaves in the output block, entry by entry. -/
def BodyValue : Prop :=
  ∀ (x0 : Vec Ideal S32x512x96 .bf16) (x1 : Vec Ideal S480x168 .bf16) (x2 : Vec Ideal S1x168 .f32) (x3 : Vec Ideal S810x160 .bf16)
    (x4 : Vec Ideal S1x160 .f32) (x5 : Vec Ideal S720x120 .bf16) (x6 : Vec Ideal S1x120 .f32) (x7 : Vec Ideal S120x84 .bf16)
    (x8 : Vec Ideal S1x84 .f32) (x9 : Vec Ideal S84x10 .bf16) (x10 : Vec Ideal S1x10 .f32) (b : Fin 512) (j : Fin 10),
    out0_11 (F := Ideal) x0 x1 x2 x3 x4 x5 x6 x7 x8 x9 x10 (ix2 b j) = net (kW x1 x2 x3 x4 x5 x6 x7 x8 x9 x10) (kImg x0 b) j

end Cert.KernelIdeal.KDefs

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.KerBodyPiece.lean ====
/-
  The block the batched body leaves is ONE store of the whole `[512, 10]` block, whose value is the
  composition of the body's three arithmetic stages applied to the eleven loaded blocks.
-/
import proofs.«140764_g2000603131124687_pallasbulk_7_36_alg».proof.Proof.KDefs
import proofs.«140764_g2000603131124687_pallasbulk_7_36_alg».proof.Proof.LibMatOps
import Idealize.ShloMosaic.Lib.ValueLayout

noncomputable section

open scoped BigOperators

namespace Cert.KernelIdeal.KBody

open Cert.KernelIdeal Cert.KernelIdeal.Gen Idealize.ShloMosaic Idealize.ShloMosaic.ValueIdx LeNetSpec

theorem zero2 : (![0, 0] : Fin 2 → Nat) = fun _ => 0 := funext fun a => by fin_cases a <;> rfl
theorem zero3 : (![0, 0, 0] : Fin 3 → Nat) = fun _ => 0 := funext fun a => by fin_cases a <;> rfl

variable {F : FTy → Type} [FloatOps F]

/-- The output block as the stages' composition of the loaded blocks. -/
theorem out_eq (x0 : Vec F S32x512x96 .bf16) (x1 : Vec F S480x168 .bf16) (x2 : Vec F S1x168 .f32) (x3 : Vec F S810x160 .bf16)
    (x4 : Vec F S1x160 .f32) (x5 : Vec F S720x120 .bf16) (x6 : Vec F S1x120 .f32) (x7 : Vec F S120x84 .bf16)
    (x8 : Vec F S1x84 .f32) (x9 : Vec F S84x10 .bf16) (x10 : Vec F S1x10 .f32) :
    out0_11 x0 x1 x2 x3 x4 x5 x6 x7 x8 x9 x10
      = k0_pay1 (k0_pay3 (k0_pay2 x0 x1 x2 x3) x4 x5 x6 x7 x8) (k0_pay4 x9) (constant S512x10 .f32 0x00000000#32) x10 := by
  unfold out0_11
  rw [View.canon_unit_zero zero2]
  simp only [View.ld_unit_zero (S := S32x512x96) zero3, View.ld_unit_zero (S := S480x168) zero2,
    View.ld_unit_zero (S := S1x168) zero2, View.ld_unit_zero (S := S810x160) zero2, View.ld_unit_zero (S := S1x160) zero2,
    View.ld_unit_zero (S := S720x120) zero2, View.ld_unit_zero (S := S1x120) zero2, View.ld_unit_zero (S := S120x84) zero2,
    View.ld_unit_zero (S := S1x84) zero2, View.ld_unit_zero (S := S84x10) zero2, View.ld_unit_zero (S := S1x10) zero2]

end Cert.KernelIdeal.KBody

end
-- ==== Proof.KerBodyStages.lean ====
/-
  The batched body's arithmetic cut into its layers: each stage below is the corresponding stretch of the
  body's pure term, so the body's three payloads are their compositions by unfolding alone.
-/
import proofs.«140764_g2000603131124687_pallasbulk_7_36_alg».proof.Proof.KDefs
import proofs.«140764_g2000603131124687_pallasbulk_7_36_alg».proof.Proof.LibMatOps
import Idealize.ShloMosaic.Lib.ValueLayout

noncomputable section

open scoped BigOperators

namespace Cert.KernelIdeal.KBody

open Cert.KernelIdeal Cert.KernelIdeal.Gen Idealize.ShloMosaic Idealize.ShloMosaic.ValueIdx LeNetSpec

variable {F : FTy → Type} [FloatOps F]

/-- The first layer's left operand: five row-shifted copies of the image block side by side. -/
def sL1 (v0 : Vec F S32x512x96 .bf16) : FVec F S14336x480 .bf16 :=
  have v1 : FVec F S32x512x96 .bf16 := shapeCast S32x512x96 v0 shapeCasts_S32x512x96_S32x512x96
  have v2 : FVec F S28x512x96 .bf16 := extractStridedSlice S28x512x96 ![0, 0, 0] v1 slices_S32x512x96_o0_0_0_S28x512x96
  have v3 : FVec F S14336x96 .bf16 := shapeCast S14336x96 v2 shapeCasts_S28x512x96_S14336x96
  have v4 : FVec F S28x512x96 .bf16 := extractStridedSlice S28x512x96 ![1, 0, 0] v1 slices_S32x512x96_o1_0_0_S28x512x96
  have v5 : FVec F S14336x96 .bf16 := shapeCast S14336x96 v4 shapeCasts_S28x512x96_S14336x96
  have v6 : FVec F S28x512x96 .bf16 := extractStridedSlice S28x512x96 ![2, 0, 0] v1 slices_S32x512x96_o2_0_0_S28x512x96
  have v7 : FVec F S14336x96 .bf16 := shapeCast S14336x96 v6 shapeCasts_S28x512x96_S14336x96
  have v8 : FVec F S28x512x96 .bf16 := extractStridedSlice S28x512x96 ![3, 0, 0] v1 slices_S32x512x96_o3_0_0_S28x512x96
  have v9 : FVec F S14336x96 .bf16 := shapeCast S14336x96 v8 shapeCasts_S28x512x96_S14336x96
  have v10 : FVec F S28x512x96 .bf16 := extractStridedSlice S28x512x96 ![4, 0, 0] v1 slices_S32x512x96_o4_0_0_S28x512x96
  have v11 : FVec F S14336x96 .bf16 := shapeCast S14336x96 v10 shapeCasts_S28x512x96_S14336x96
  have v12 : FVec F S14336x480 .bf16 := concatenate S14336x480 1 [⟨S14336x96, v3⟩, ⟨S14336x96, v5⟩, ⟨S14336x96, v7⟩, ⟨S14336x96, v9⟩, ⟨S14336x96, v11⟩] concatenates_S14336x96_S14336x96_S14336x96_S14336x96_S14336x96_S14336x480_d1
  v12
/-- First convolution: product with the table, bias, rectifier. -/
def sM1 (v12 : FVec F S14336x480 .bf16) (v13 : Vec F S480x168 .bf16) (v16 : Vec F S1x168 .f32) : FVec F S14336x168 .bf16 :=
  have v14 : FVec F S480x168 .bf16 := shapeCast S480x168 v13 shapeCasts_S480x168_S480x168
  have cst : FVec F S14336x168 .f32 := constant S14336x168 .f32 0x00000000#32
  have v15 : FVec F S14336x168 .f32 := matmul dot_S14336x480_S480x168_S14336x168_1_0_0_1_n_n none v12 v14 cst
  have v17 : FVec F S14336x168 .f32 := broadcastTo S14336x168 v16 broadcasts_S1x168_S14336x168
  have v18 : FVec F S14336x168 .f32 := addf v15 v17
  have cst_6 : F .f32 := Scalar.ofBits .f32 0x00000000#32
  have v19 : FVec F S14336x168 .f32 := broadcast S14336x168 cst_6
  have v20 : FVec F S14336x168 .f32 := maximumf v18 v19
  have v21 : FVec F S14336x168 .bf16 := truncf .bf16 v20 bitsLt_bf16_f32
  v21
/-- First pool: lane pairs, then row-block pairs. -/
def sP1 (v21 : FVec F S14336x168 .bf16) : FVec F S7168x162 .bf16 :=
  have v22 : FVec F S14336x162 .bf16 := extractStridedSlice S14336x162 ![0, 0] v21 slices_S14336x168_o0_0_S14336x162
  have v23 : FVec F S14336x162 .bf16 := extractStridedSlice S14336x162 ![0, 6] v21 slices_S14336x168_o0_6_S14336x162
  have v24 : FVec F S14336x162 .bf16 := maximumf v22 v23
  have v25 : FVec F S14x1024x162 .bf16 := shapeCast S14x1024x162 v24 shapeCasts_S14336x162_S14x1024x162
  have v26 : FVec F S14x512x162 .bf16 := extractStridedSlice S14x512x162 ![0, 0, 0] v25 slices_S14x1024x162_o0_0_0_S14x512x162
  have v27 : FVec F S14x512x162 .bf16 := extractStridedSlice S14x512x162 ![0, 512, 0] v25 slices_S14x1024x162_o0_512_0_S14x512x162
  have v28 : FVec F S14x512x162 .bf16 := maximumf v26 v27
  have v29 : FVec F S7168x162 .bf16 := shapeCast S7168x162 v28 shapeCasts_S14x512x162_S7168x162
  v29
/-- The second layer's left operand: five row-block-shifted copies of the pooled slab side by side. -/
def sL2 (v29 : FVec F S7168x162 .bf16) : FVec F S5120x810 .bf16 :=
  have v30 : FVec F S14x512x162 .bf16 := shapeCast S14x512x162 v29 shapeCasts_S7168x162_S14x512x162
  have v31 : FVec F S10x512x162 .bf16 := extractStridedSlice S10x512x162 ![0, 0, 0] v30 slices_S14x512x162_o0_0_0_S10x512x162
  have v32 : FVec F S5120x162 .bf16 := shapeCast S5120x162 v31 shapeCasts_S10x512x162_S5120x162
  have v33 : FVec F S10x512x162 .bf16 := extractStridedSlice S10x512x162 ![1, 0, 0] v30 slices_S14x512x162_o1_0_0_S10x512x162
  have v34 : FVec F S5120x162 .bf16 := shapeCast S5120x162 v33 shapeCasts_S10x512x162_S5120x162
  have v35 : FVec F S10x512x162 .bf16 := extractStridedSlice S10x512x162 ![2, 0, 0] v30 slices_S14x512x162_o2_0_0_S10x512x162
  have v36 : FVec F S5120x162 .bf16 := shapeCast S5120x162 v35 shapeCasts_S10x512x162_S5120x162
  have v37 : FVec F S10x512x162 .bf16 := extractStridedSlice S10x512x162 ![3, 0, 0] v30 slices_S14x512x162_o3_0_0_S10x512x162
  have v38 : FVec F S5120x162 .bf16 := shapeCast S5120x162 v37 shapeCasts_S10x512x162_S5120x162
  have v39 : FVec F S10x512x162 .bf16 := extractStridedSlice S10x512x162 ![4, 0, 0] v30 slices_S14x512x162_o4_0_0_S10x512x162
  have v40 : FVec F S5120x162 .bf16 := shapeCast S5120x162 v39 shapeCasts_S10x512x162_S5120x162
  have v41 : FVec F S5120x810 .bf16 := concatenate S5120x810 1 [⟨S5120x162, v32⟩, ⟨S5120x162, v34⟩, ⟨S5120x162, v36⟩, ⟨S5120x162, v38⟩, ⟨S5120x162, v40⟩] concatenates_S5120x162_S5120x162_S5120x162_S5120x162_S5120x162_S5120x810_d1
  v41
/-- Second convolution's product. -/
def sM2 (v41 : FVec F S5120x810 .bf16) (v42 : Vec F S810x160 .bf16) : FVec F S5120x160 .f32 :=
  have v43 : FVec F S810x160 .bf16 := shapeCast S810x160 v42 shapeCasts_S810x160_S810x160
  have cst_9 : FVec F S5120x160 .f32 := constant S5120x160 .f32 0x00000000#32
  have v44 : FVec F S5120x160 .f32 := matmul dot_S5120x810_S810x160_S5120x160_1_0_0_1_n_n none v41 v43 cst_9
  v44
/-- Second convolution's bias and rectifier. -/
def sA2 (v44 : FVec F S5120x160 .f32) (v45 : Vec F S1x160 .f32) : FVec F S5120x160 .bf16 :=
  have v46 : FVec F S5120x160 .f32 := broadcastTo S5120x160 v45 broadcasts_S1x160_S5120x160
  have v47 : FVec F S5120x160 .f32 := addf v44 v46
  have cst_12 : F .f32 := Scalar.ofBits .f32 0x00000000#32
  have v48 : FVec F S5120x160 .f32 := broadcast S5120x160 cst_12
  have v49 : FVec F S5120x160 .f32 := maximumf v47 v48
  have v50 : FVec F S5120x160 .bf16 := truncf .bf16 v49 bitsLt_bf16_f32
  v50
/-- Second pool. -/
def sP2 (v50 : FVec F S5120x160 .bf16) : FVec F S5x512x144 .bf16 :=
  have v51 : FVec F S5120x144 .bf16 := extractStridedSlice S5120x144 ![0, 0] v50 slices_S5120x160_o0_0_S5120x144
  have v52 : FVec F S5120x144 .bf16 := extractStridedSlice S5120x144 ![0, 16] v50 slices_S5120x160_o0_16_S5120x144
  have v53 : FVec F S5120x144 .bf16 := maximumf v51 v52
  have v54 : FVec F S5x1024x144 .bf16 := shapeCast S5x1024x144 v53 shapeCasts_S5120x144_S5x1024x144
  have v55 : FVec F S5x512x144 .bf16 := extractStridedSlice S5x512x144 ![0, 0, 0] v54 slices_S5x1024x144_o0_0_0_S5x512x144
  have v56 : FVec F S5x512x144 .bf16 := extractStridedSlice S5x512x144 ![0, 512, 0] v54 slices_S5x1024x144_o0_512_0_S5x512x144
  have v57 : FVec F S5x512x144 .bf16 := maximumf v55 v56
  v57
/-- The dense layer's left operand: the five pooled row blocks side by side. -/
def sL3 (v57 : FVec F S5x512x144 .bf16) : FVec F S512x720 .bf16 :=
  have v58 : FVec F S1x512x144 .bf16 := extractStridedSlice S1x512x144 ![0, 0, 0] v57 slices_S5x512x144_o0_0_0_S1x512x144
  have v59 : FVec F S512x144 .bf16 := shapeCast S512x144 v58 shapeCasts_S1x512x144_S512x144
  have v60 : FVec F S1x512x144 .bf16 := extractStridedSlice S1x512x144 ![1, 0, 0] v57 slices_S5x512x144_o1_0_0_S1x512x144
  have v61 : FVec F S512x144 .bf16 := shapeCast S512x144 v60 shapeCasts_S1x512x144_S512x144
  have v62 : FVec F S1x512x144 .bf16 := extractStridedSlice S1x512x144 ![2, 0, 0] v57 slices_S5x512x144_o2_0_0_S1x512x144
  have v63 : FVec F S512x144 .bf16 := shapeCast S512x144 v62 shapeCasts_S1x512x144_S512x144
  have v64 : FVec F S1x512x144 .bf16 := extractStridedSlice S1x512x144 ![3, 0, 0] v57 slices_S5x512x144_o3_0_0_S1x512x144
  have v65 : FVec F S512x144 .bf16 := shapeCast S512x144 v64 shapeCasts_S1x512x144_S512x144
  have v66 : FVec F S1x512x144 .bf16 := extractStridedSlice S1x512x144 ![4, 0, 0] v57 slices_S5x512x144_o4_0_0_S1x512x144
  have v67 : FVec F S512x144 .bf16 := shapeCast S512x144 v66 shapeCasts_S1x512x144_S512x144
  have v68 : FVec F S512x720 .bf16 := concatenate S512x720 1 [⟨S512x144, v59⟩, ⟨S512x144, v61⟩, ⟨S512x144, v63⟩, ⟨S512x144, v65⟩, ⟨S512x144, v67⟩] concatenates_S512x144_S512x144_S512x144_S512x144_S512x144_S512x720_d1
  v68
/-- First dense layer. -/
def sY1 (v68 : FVec F S512x720 .bf16) (v69 : Vec F S720x120 .bf16) (v72 : Vec F S1x120 .f32) : FVec F S512x120 .bf16 :=
  have v70 : FVec F S720x120 .bf16 := shapeCast S720x120 v69 shapeCasts_S720x120_S720x120
  have cst_15 : FVec F S512x120 .f32 := constant S512x120 .f32 0x00000000#32
  have v71 : FVec F S512x120 .f32 := matmul dot_S512x720_S720x120_S512x120_1_0_0_1_n_n none v68 v70 cst_15
  have v73 : FVec F S512x120 .f32 := broadcastTo S512x120 v72 broadcasts_S1x120_S512x120
  have v74 : FVec F S512x120 .f32 := addf v71 v73
  have cst_18 : F .f32 := Scalar.ofBits .f32 0x00000000#32
  have v75 : FVec F S512x120 .f32 := broadcast S512x120 cst_18
  have v76 : FVec F S512x120 .f32 := maximumf v74 v75
  have v77 : FVec F S512x120 .bf16 := truncf .bf16 v76 bitsLt_bf16_f32
  v77
/-- Second dense layer. -/
def sY2 (v77 : FVec F S512x120 .bf16) (v78 : Vec F S120x84 .bf16) (v81 : Vec F S1x84 .f32) : FVec F S512x84 .bf16 :=
  have v79 : FVec F S120x84 .bf16 := shapeCast S120x84 v78 shapeCasts_S120x84_S120x84
  have cst_21 : FVec F S512x84 .f32 := constant S512x84 .f32 0x00000000#32
  have v80 : FVec F S512x84 .f32 := matmul dot_S512x120_S120x84_S512x84_1_0_0_1_n_n none v77 v79 cst_21
  have v82 : FVec F S512x84 .f32 := broadcastTo S512x84 v81 broadcasts_S1x84_S512x84
  have v83 : FVec F S512x84 .f32 := addf v80 v82
  have cst_24 : F .f32 := Scalar.ofBits .f32 0x00000000#32
  have v84 : FVec F S512x84 .f32 := broadcast S512x84 cst_24
  have v85 : FVec F S512x84 .f32 := maximumf v83 v84
  have v86 : FVec F S512x84 .bf16 := truncf .bf16 v85 bitsLt_bf16_f32
  v86

/-- The first payload (up to the second convolution's product) is the composition of the first five stages. -/
theorem pay2_eq (v0 : Vec F S32x512x96 .bf16) (v13 : Vec F S480x168 .bf16) (v16 : Vec F S1x168 .f32) (v42 : Vec F S810x160 .bf16) :
    k0_pay2 v0 v13 v16 v42 = sM2 (sL2 (sP1 (sM1 (sL1 v0) v13 v16))) v42 := rfl

/-- The second payload is the composition of the next five. -/
theorem pay3_eq (v44 : FVec F S5120x160 .f32) (v45 : Vec F S1x160 .f32) (v69 : Vec F S720x120 .bf16) (v72 : Vec F S1x120 .f32)
    (v78 : Vec F S120x84 .bf16) (v81 : Vec F S1x84 .f32) :
    k0_pay3 v44 v45 v69 v72 v78 v81 = sY2 (sY1 (sL3 (sP2 (sA2 v44 v45))) v69 v72) v78 v81 := rfl

end Cert.KernelIdeal.KBody

end
-- ==== Proof.LibSlabLayout.lean ====
/-
  SLABS OF ROWS: LAYOUT OPERATIONS READ AT AN INDEX, AND A SUM OVER A PRODUCT RANGE.

  A slab `[A*B, C]` whose row `a*B + b` is row `b` of block `a` is the row-major flattening of `[A, B, C]`; the two
  shape casts between them read the same entry.  A rank-3 array cut along its leading axis from `o` reads the source
  `o` blocks further on.  Five equal-width arrays set side by side read, at column `k*n + q`, column `q` of piece `k`.
  A sum over `N = m*n` consecutive indices is the double sum over `i < m`, `j < n` at `i*n + j`.
-/
import Idealize.ShloMosaic.Lib.ValueIdx
import Idealize.ShloMosaic.Lib.Pipeline.Value
import Idealize.ShloMosaic.Lib.ValueLayout

noncomputable section

open scoped BigOperators

namespace Cert.SlabLayout

open Idealize.ShloMosaic Idealize.ShloMosaic.ValueIdx

variable {α : Type}

/-- A sum over `N = m * n` indices as a double sum, the index written `i * n + j`. -/
theorem sum_fin_split {M : Type*} [AddCommMonoid M] (m n N : Nat) (hN : N = m * n) (f : Fin N → M) :
    ∑ k : Fin N, f k = ∑ i : Fin m, ∑ j : Fin n, f ⟨i.val * n + j.val, by
      have := i.isLt; have := j.isLt; rw [hN]
      calc i.val * n + j.val < i.val * n + n := by omega
        _ = (i.val + 1) * n := by ring
        _ ≤ m * n := Nat.mul_le_mul_right n (by omega)⟩ := by
  subst hN
  rw [← Fintype.sum_prod_type', ← Equiv.sum_comp finProdFinEquiv]
  refine Finset.sum_congr rfl fun p _ => congrArg f (Fin.ext ?_)
  show p.2.val + n * p.1.val = p.1.val * n + p.2.val
  rw [Nat.mul_comm, Nat.add_comm]

/-- `[A, B, C]` flattened to `[R, C]` (`R = A * B`): row `a * B + b` is row `b` of block `a`. -/
theorem shapeCast_fold_apply {A B C R : ℕ} (x : (⟨3, ![A, B, C]⟩ : Shape).Idx → α)
    (h : (⟨3, ![A, B, C]⟩ : Shape).ShapeCasts ⟨2, ![R, C]⟩) (a : Fin A) (b : Fin B) (c : Fin C) (r : Fin R)
    (hr : r.val = a.val * B + b.val) :
    shapeCast ⟨2, ![R, C]⟩ x h (ix2 r c) = x (ix3 a b c) :=
  shapeCast_apply x h _ _ (by
    rw [Shape.rowMajor_val_three, Shape.rowMajor_val_two]
    show (a.val * B + b.val) * C + c.val = r.val * C + c.val
    rw [hr])

/-- `[R, C]` (`R = A * B`) cut into `[A, B, C]`: entry `(a, b, c)` is row `a * B + b`. -/
theorem shapeCast_unfold_apply {A B C R : ℕ} (x : (⟨2, ![R, C]⟩ : Shape).Idx → α)
    (h : (⟨2, ![R, C]⟩ : Shape).ShapeCasts ⟨3, ![A, B, C]⟩) (a : Fin A) (b : Fin B) (c : Fin C) (r : Fin R)
    (hr : r.val = a.val * B + b.val) :
    shapeCast ⟨3, ![A, B, C]⟩ x h (ix3 a b c) = x (ix2 r c) :=
  shapeCast_apply x h _ _ (by
    rw [Shape.rowMajor_val_three, Shape.rowMajor_val_two]
    show r.val * C + c.val = (a.val * B + b.val) * C + c.val
    rw [hr])

/-- A rank-3 array cut along its leading axis from `o` reads, at `(j, b, e)`, the source at `(k, b, e)`, `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Which of five. -/
def pick5 {β : Type} (x0 x1 x2 x3 x4 : β) (k : Fin 5) : β :=
  match k with
  | ⟨0, _⟩ => x0
  | ⟨1, _⟩ => x1
  | ⟨2, _⟩ => x2
  | ⟨3, _⟩ => x3
  | ⟨4, _⟩ => x4

/-- Five `[a, n]` arrays set side by side into `[a, N]`: column `k * n + q` is column `q` of piece `k`. -/
theorem concat5_cols_apply {a n N : ℕ} (x0 x1 x2 x3 x4 : (⟨2, ![a, n]⟩ : Shape).Idx → α)
    (h : Shape.Concatenates [(⟨2, ![a, n]⟩ : Shape), ⟨2, ![a, n]⟩, ⟨2, ![a, n]⟩, ⟨2, ![a, n]⟩, ⟨2, ![a, n]⟩] ⟨2, ![a, N]⟩ 1)
    (p : Fin a) (k : Fin 5) (q : Fin n) (c : Fin N) (hc : c.val = k.val * n + q.val) :
    concatenate ⟨2, ![a, N]⟩ 1 [⟨⟨2, ![a, n]⟩, x0⟩, ⟨⟨2, ![a, n]⟩, x1⟩, ⟨⟨2, ![a, n]⟩, x2⟩, ⟨⟨2, ![a, n]⟩, x3⟩, ⟨⟨2, ![a, n]⟩, x4⟩] h (ix2 p c)
      = pick5 x0 x1 x2 x3 x4 k (ix2 p q) := by
  have hoff : ∀ b : Fin 2, b.cast (rfl : (⟨2, ![a, n]⟩ : Shape).rank = (⟨2, ![a, N]⟩ : Shape).rank) ≠ (1 : Fin 2) →
      ((ix2 p q : (⟨2, ![a, n]⟩ : Shape).Idx) b).val = ((ix2 p c : (⟨2, ![a, N]⟩ : Shape).Idx) (b.cast rfl)).val := by
    intro b hb
    match b with
    | ⟨0, _⟩ => rfl
    | ⟨1, _⟩ => exact absurd rfl hb
  match k with
  | ⟨0, _⟩ =>
    exact concatenate_apply_piece (t := ⟨2, ![a, N]⟩) 1 [⟨⟨2, ![a, n]⟩, x0⟩, ⟨⟨2, ![a, n]⟩, x1⟩, ⟨⟨2, ![a, n]⟩, x2⟩, ⟨⟨2, ![a, n]⟩, x3⟩, ⟨⟨2, ![a, n]⟩, x4⟩] h (ix2 p c) 0 (by simp) _ x0 rfl rfl 0 rfl (ix2 p q) hoff
      (by show 0 + q.val = c.val; rw [hc]; simp)
  | ⟨1, _⟩ =>
    exact concatenate_apply_piece (t := ⟨2, ![a, N]⟩) 1 [⟨⟨2, ![a, n]⟩, x0⟩, ⟨⟨2, ![a, n]⟩, x1⟩, ⟨⟨2, ![a, n]⟩, x2⟩, ⟨⟨2, ![a, n]⟩, x3⟩, ⟨⟨2, ![a, n]⟩, x4⟩] h (ix2 p c) 1 (by simp) _ x1 rfl rfl n (by simp) (ix2 p q) hoff
      (by show n + q.val = c.val; rw [hc]; simp)
  | ⟨2, _⟩ =>
    exact concatenate_apply_piece (t := ⟨2, ![a, N]⟩) 1 [⟨⟨2, ![a, n]⟩, x0⟩, ⟨⟨2, ![a, n]⟩, x1⟩, ⟨⟨2, ![a, n]⟩, x2⟩, ⟨⟨2, ![a, n]⟩, x3⟩, ⟨⟨2, ![a, n]⟩, x4⟩] h (ix2 p c) 2 (by simp) _ x2 rfl rfl (n + n) (by simp) (ix2 p q) hoff
      (by show n + n + q.val = c.val; rw [hc]; simp; ring)
  | ⟨3, _⟩ =>
    exact concatenate_apply_piece (t := ⟨2, ![a, N]⟩) 1 [⟨⟨2, ![a, n]⟩, x0⟩, ⟨⟨2, ![a, n]⟩, x1⟩, ⟨⟨2, ![a, n]⟩, x2⟩, ⟨⟨2, ![a, n]⟩, x3⟩, ⟨⟨2, ![a, n]⟩, x4⟩] h (ix2 p c) 3 (by simp) _ x3 rfl rfl (n + (n + n)) (by simp) (ix2 p q) hoff
      (by show n + (n + n) + q.val = c.val; rw [hc]; simp; ring)
  | ⟨4, _⟩ =>
    exact concatenate_apply_piece (t := ⟨2, ![a, N]⟩) 1 [⟨⟨2, ![a, n]⟩, x0⟩, ⟨⟨2, ![a, n]⟩, x1⟩, ⟨⟨2, ![a, n]⟩, x2⟩, ⟨⟨2, ![a, n]⟩, x3⟩, ⟨⟨2, ![a, n]⟩, x4⟩] h (ix2 p c) 4 (by simp) _ x4 rfl rfl (n + (n + (n + n))) (by simp) (ix2 p q) hoff
      (by show n + (n + (n + n)) + q.val = c.val; rw [hc]; simp; ring)

end Cert.SlabLayout

end
-- ==== Proof.KerBodyPools.lean ====
/-
  The two max-pools of the batched body read at an entry.  With the image index minor, the two rows of a height
  pair are whole 512-row blocks `2p` and `2p + 1` of the slab, and the width pair is lanes `l` and `l + C`.
-/
import proofs.«140764_g2000603131124687_pallasbulk_7_36_alg».proof.Proof.KDefs
import proofs.«140764_g2000603131124687_pallasbulk_7_36_alg».proof.Proof.LibMatOps
import Idealize.ShloMosaic.Lib.ValueLayout
import proofs.«140764_g2000603131124687_pallasbulk_7_36_alg».proof.Proof.KerBodyStages
import proofs.«140764_g2000603131124687_pallasbulk_7_36_alg».proof.Proof.LibSlabLayout

noncomputable section

open scoped BigOperators

namespace Cert.KernelIdeal.KBody

open Cert.KernelIdeal Cert.KernelIdeal.Gen Idealize.ShloMosaic Idealize.ShloMosaic.ValueIdx LeNetSpec

open Cert.SlabLayout

/-- First pool: row `ph*512 + b`, lane `l` is the pooled value of image `b`'s rectified rows. -/
theorem sP1_apply (a : FVec Ideal S14336x168 .bf16) (ph : Fin 14) (b : Fin 512) (l : Fin 162) (r : Fin 7168)
    (hr : r.val = ph.val * 512 + b.val) :
    sP1 a (ix2 r l) = p1 (m1 fun oh j => a (ix2 ⟨oh.val * 512 + b.val, by omega⟩ j)) ph l := by
  unfold sP1 p1 m1
  refine (shapeCast_fold_apply _ _ ph b l r hr).trans ?_
  refine congrArg₂ max ?_ ?_
  · refine (slice3_axis1_apply 0 _ _ ph b l ⟨b.val, by omega⟩ (by simp)).trans ?_
    refine (shapeCast_unfold_apply _ _ ph ⟨b.val, by omega⟩ l ⟨2 * ph.val * 512 + b.val, by omega⟩ (by simp; omega)).trans ?_
    refine congrArg₂ max ?_ ?_
    · exact slice2_axis1_apply 0 a _ _ l ⟨l.val, by omega⟩ (by simp)
    · exact slice2_axis1_apply 6 a _ _ l ⟨l.val + 6, by omega⟩ (by simp; omega)
  · refine (slice3_axis1_apply 512 _ _ ph b l ⟨512 + b.val, by omega⟩ (by simp)).trans ?_
    refine (shapeCast_unfold_apply _ _ ph ⟨512 + b.val, by omega⟩ l ⟨(2 * ph.val + 1) * 512 + b.val, by omega⟩ (by simp; omega)).trans ?_
    refine congrArg₂ max ?_ ?_
    · exact slice2_axis1_apply 0 a _ _ l ⟨l.val, by omega⟩ (by simp)
    · exact slice2_axis1_apply 6 a _ _ l ⟨l.val + 6, by omega⟩ (by simp; omega)

/-- Second pool: entry `(r, b, l)` is the pooled value of image `b`'s rectified second-layer rows. -/
theorem sP2_apply (v : FVec Ideal S5120x160 .bf16) (r : Fin 5) (b : Fin 512) (l : Fin 144) :
    sP2 v (ix3 r b l) = p2 (m2 fun oh j => v (ix2 ⟨oh.val * 512 + b.val, by omega⟩ j)) r l := by
  unfold sP2 p2 m2
  refine congrArg₂ max ?_ ?_
  · refine (slice3_axis1_apply 0 _ _ r b l ⟨b.val, by omega⟩ (by simp)).trans ?_
    refine (shapeCast_unfold_apply _ _ r ⟨b.val, by omega⟩ l ⟨2 * r.val * 512 + b.val, by omega⟩ (by simp; omega)).trans ?_
    refine congrArg₂ max ?_ ?_
    · exact slice2_axis1_apply 0 v _ _ l ⟨l.val, by omega⟩ (by simp)
    · exact slice2_axis1_apply 16 v _ _ l ⟨l.val + 16, by omega⟩ (by simp; omega)
  · refine (slice3_axis1_apply 512 _ _ r b l ⟨512 + b.val, by omega⟩ (by simp)).trans ?_
    refine (shapeCast_unfold_apply _ _ r ⟨512 + b.val, by omega⟩ l ⟨(2 * r.val + 1) * 512 + b.val, by omega⟩ (by simp; omega)).trans ?_
    refine congrArg₂ max ?_ ?_
    · exact slice2_axis1_apply 0 v _ _ l ⟨l.val, by omega⟩ (by simp)
    · exact slice2_axis1_apply 16 v _ _ l ⟨l.val + 16, by omega⟩ (by simp; omega)

end Cert.KernelIdeal.KBody

end
-- ==== Proof.KerBodyOperands.lean ====
/-
  The left operands of the three big products, read at an entry: each is five shifted copies of a slab set side
  by side, so column `k*n + q` of row `o*512 + b` reads the slab's block `o + k` (or pooled row block `k`).
-/
import proofs.«140764_g2000603131124687_pallasbulk_7_36_alg».proof.Proof.KDefs
import proofs.«140764_g2000603131124687_pallasbulk_7_36_alg».proof.Proof.LibMatOps
import Idealize.ShloMosaic.Lib.ValueLayout
import proofs.«140764_g2000603131124687_pallasbulk_7_36_alg».proof.Proof.KerBodyStages
import proofs.«140764_g2000603131124687_pallasbulk_7_36_alg».proof.Proof.LibSlabLayout

noncomputable section

open scoped BigOperators

namespace Cert.KernelIdeal.KBody

open Cert.KernelIdeal Cert.KernelIdeal.Gen Idealize.ShloMosaic Idealize.ShloMosaic.ValueIdx LeNetSpec

open Cert.SlabLayout

/-- First layer: row `oh*512 + b`, column `kh*96 + q` is the image block's row `oh + kh` of image `b` at lane `q`. -/
theorem sL1_apply (x0 : Vec Ideal S32x512x96 .bf16) (oh : Fin 28) (b : Fin 512) (kh : Fin 5) (q : Fin 96)
    (r : Fin 14336) (k : Fin 480) (hr : r.val = oh.val * 512 + b.val) (hk : k.val = kh.val * 96 + q.val) :
    sL1 x0 (ix2 r k) = x0 (ix3 ⟨oh.val + kh.val, by omega⟩ b q) := by
  unfold sL1
  refine (concat5_cols_apply (a := 14336) (n := 96) (N := 480) _ _ _ _ _ _ r kh q k hk).trans ?_
  match kh with
  | ⟨0, _⟩ =>
    dsimp only [pick5]
    refine (shapeCast_fold_apply (A := 28) (B := 512) (C := 96) (R := 14336) _ _ oh b q r hr).trans ?_
    refine (slice3_axis0_apply (n0 := 32) (n1 := 512) (n2 := 96) (m := 28) 0 _ _ oh b q ⟨oh.val + 0, by omega⟩ (by simp)).trans ?_
    rw [shapeCast_self]
  | ⟨1, _⟩ =>
    dsimp only [pick5]
    refine (shapeCast_fold_apply (A := 28) (B := 512) (C := 96) (R := 14336) _ _ oh b q r hr).trans ?_
    refine (slice3_axis0_apply (n0 := 32) (n1 := 512) (n2 := 96) (m := 28) 1 _ _ oh b q ⟨oh.val + 1, by omega⟩ (by simp; omega)).trans ?_
    rw [shapeCast_self]
  | ⟨2, _⟩ =>
    dsimp only [pick5]
    refine (shapeCast_fold_apply (A := 28) (B := 512) (C := 96) (R := 14336) _ _ oh b q r hr).trans ?_
    refine (slice3_axis0_apply (n0 := 32) (n1 := 512) (n2 := 96) (m := 28) 2 _ _ oh b q ⟨oh.val + 2, by omega⟩ (by simp; omega)).trans ?_
    rw [shapeCast_self]
  | ⟨3, _⟩ =>
    dsimp only [pick5]
    refine (shapeCast_fold_apply (A := 28) (B := 512) (C := 96) (R := 14336) _ _ oh b q r hr).trans ?_
    refine (slice3_axis0_apply (n0 := 32) (n1 := 512) (n2 := 96) (m := 28) 3 _ _ oh b q ⟨oh.val + 3, by omega⟩ (by simp; omega)).trans ?_
    rw [shapeCast_self]
  | ⟨4, _⟩ =>
    dsimp only [pick5]
    refine (shapeCast_fold_apply (A := 28) (B := 512) (C := 96) (R := 14336) _ _ oh b q r hr).trans ?_
    refine (slice3_axis0_apply (n0 := 32) (n1 := 512) (n2 := 96) (m := 28) 4 _ _ oh b q ⟨oh.val + 4, by omega⟩ (by simp; omega)).trans ?_
    rw [shapeCast_self]

/-- Second layer: row `oh*512 + b`, column `kh*162 + l` is the pooled slab's row `(oh + kh)*512 + b` at lane `l`. -/
theorem sL2_apply (p : FVec Ideal S7168x162 .bf16) (oh : Fin 10) (b : Fin 512) (kh : Fin 5) (l : Fin 162)
    (r : Fin 5120) (k : Fin 810) (r' : Fin 7168) (hr : r.val = oh.val * 512 + b.val) (hk : k.val = kh.val * 162 + l.val)
    (hr' : r'.val = (oh.val + kh.val) * 512 + b.val) :
    sL2 p (ix2 r k) = p (ix2 r' l) := by
  unfold sL2
  refine (concat5_cols_apply (a := 5120) (n := 162) (N := 810) _ _ _ _ _ _ r kh l k hk).trans ?_
  match kh with
  | ⟨0, _⟩ =>
    dsimp only [pick5]
    refine (shapeCast_fold_apply (A := 10) (B := 512) (C := 162) (R := 5120) _ _ oh b l r hr).trans ?_
    refine (slice3_axis0_apply (n0 := 14) (n1 := 512) (n2 := 162) (m := 10) 0 _ _ oh b l ⟨oh.val + 0, by omega⟩ (by simp)).trans ?_
    exact shapeCast_unfold_apply (A := 14) (B := 512) (C := 162) (R := 7168) _ _ ⟨oh.val + 0, by omega⟩ b l r' (by simpa using hr')
  | ⟨1, _⟩ =>
    dsimp only [pick5]
    refine (shapeCast_fold_apply (A := 10) (B := 512) (C := 162) (R := 5120) _ _ oh b l r hr).trans ?_
    refine (slice3_axis0_apply (n0 := 14) (n1 := 512) (n2 := 162) (m := 10) 1 _ _ oh b l ⟨oh.val + 1, by omega⟩ (by simp; omega)).trans ?_
    exact shapeCast_unfold_apply (A := 14) (B := 512) (C := 162) (R := 7168) _ _ ⟨oh.val + 1, by omega⟩ b l r' (by simpa using hr')
  | ⟨2, _⟩ =>
    dsimp only [pick5]
    refine (shapeCast_fold_apply (A := 10) (B := 512) (C := 162) (R := 5120) _ _ oh b l r hr).trans ?_
    refine (slice3_axis0_apply (n0 := 14) (n1 := 512) (n2 := 162) (m := 10) 2 _ _ oh b l ⟨oh.val + 2, by omega⟩ (by simp; omega)).trans ?_
    exact shapeCast_unfold_apply (A := 14) (B := 512) (C := 162) (R := 7168) _ _ ⟨oh.val + 2, by omega⟩ b l r' (by simpa using hr')
  | ⟨3, _⟩ =>
    dsimp only [pick5]
    refine (shapeCast_fold_apply (A := 10) (B := 512) (C := 162) (R := 5120) _ _ oh b l r hr).trans ?_
    refine (slice3_axis0_apply (n0 := 14) (n1 := 512) (n2 := 162) (m := 10) 3 _ _ oh b l ⟨oh.val + 3, by omega⟩ (by simp; omega)).trans ?_
    exact shapeCast_unfold_apply (A := 14) (B := 512) (C := 162) (R := 7168) _ _ ⟨oh.val + 3, by omega⟩ b l r' (by simpa using hr')
  | ⟨4, _⟩ =>
    dsimp only [pick5]
    refine (shapeCast_fold_apply (A := 10) (B := 512) (C := 162) (R := 5120) _ _ oh b l r hr).trans ?_
    refine (slice3_axis0_apply (n0 := 14) (n1 := 512) (n2 := 162) (m := 10) 4 _ _ oh b l ⟨oh.val + 4, by omega⟩ (by simp; omega)).trans ?_
    exact shapeCast_unfold_apply (A := 14) (B := 512) (C := 162) (R := 7168) _ _ ⟨oh.val + 4, by omega⟩ b l r' (by simpa using hr')

/-- Dense layer: row `b`, column `r*144 + l` is pooled row `r` of image `b` at lane `l`. -/
theorem sL3_apply (v : FVec Ideal S5x512x144 .bf16) (b : Fin 512) (r : Fin 5) (l : Fin 144) (k : Fin 720)
    (hk : k.val = r.val * 144 + l.val) :
    sL3 v (ix2 b k) = v (ix3 r b l) := by
  unfold sL3
  refine (concat5_cols_apply (a := 512) (n := 144) (N := 720) _ _ _ _ _ _ b r l k hk).trans ?_
  match r with
  | ⟨0, _⟩ =>
    dsimp only [pick5]
    exact (shapeCast_1ab_ab_apply _ _ b l).trans (slice3_axis0_apply 0 _ _ (0 : Fin 1) b l ⟨0, by omega⟩ (by simp))
  | ⟨1, _⟩ =>
    dsimp only [pick5]
    exact (shapeCast_1ab_ab_apply _ _ b l).trans (slice3_axis0_apply 1 _ _ (0 : Fin 1) b l ⟨1, by omega⟩ (by simp))
  | ⟨2, _⟩ =>
    dsimp only [pick5]
    exact (shapeCast_1ab_ab_apply _ _ b l).trans (slice3_axis0_apply 2 _ _ (0 : Fin 1) b l ⟨2, by omega⟩ (by simp))
  | ⟨3, _⟩ =>
    dsimp only [pick5]
    exact (shapeCast_1ab_ab_apply _ _ b l).trans (slice3_axis0_apply 3 _ _ (0 : Fin 1) b l ⟨3, by omega⟩ (by simp))
  | ⟨4, _⟩ =>
    dsimp only [pick5]
    exact (shapeCast_1ab_ab_apply _ _ b l).trans (slice3_axis0_apply 4 _ _ (0 : Fin 1) b l ⟨4, by omega⟩ (by simp))

end Cert.KernelIdeal.KBody

end
-- ==== Proof.KerBodyProducts.lean ====
/-
  The five matrix products of the batched body read at an entry: each is a plain `[M, K] × [K, C]` product into
  zeros, so entry `(p, q)` is the sum over `k < K` of `l (p, k) · w (k, q)`; a bias row is added at every row, and the
  rectifier is the maximum with the zero literal, which is the real 0.
-/
import proofs.«140764_g2000603131124687_pallasbulk_7_36_alg».proof.Proof.KDefs
import proofs.«140764_g2000603131124687_pallasbulk_7_36_alg».proof.Proof.LibMatOps
import Idealize.ShloMosaic.Lib.ValueLayout
import proofs.«140764_g2000603131124687_pallasbulk_7_36_alg».proof.Proof.KerBodyStages

noncomputable section

open scoped BigOperators

namespace Cert.KernelIdeal.KBody

open Cert.KernelIdeal Cert.KernelIdeal.Gen Idealize.ShloMosaic Idealize.ShloMosaic.ValueIdx LeNetSpec

open Cert.MatOps

section
variable {M K C : ℕ} (wf : DotDims.WF ⟨2, ![M, K]⟩ ⟨2, ![K, C]⟩ ⟨2, ![M, C]⟩ [1] [0] [0] [1] [] [])

/-- A plain product into zeros whose right operand went through a shape cast to its own shape. -/
theorem mm_apply {φ₁ φ₂ : FTy} (l : FVec Ideal ⟨2, ![M, K]⟩ φ₁) (w : FVec Ideal ⟨2, ![K, C]⟩ φ₂)
    (hs : (⟨2, ![K, C]⟩ : Shape).ShapeCasts ⟨2, ![K, C]⟩) (p : Fin M) (q : Fin C) :
    FloatOps.matmul (plainDot M K C wf) none l (shapeCast ⟨2, ![K, C]⟩ w hs) (constant ⟨2, ![M, C]⟩ .f32 0x00000000#32) (ix2 p q)
      = ∑ k : Fin K, l (ix2 p k) * w (ix2 k q) := by
  rw [shapeCast_self]
  exact matmul_plain_apply wf none l w p q

/-- Product, bias row, rectifier, and a change of format (the identity on the extended reals). -/
theorem dense_relu_apply {φ₁ φ₂ ψ : FTy} (l : FVec Ideal ⟨2, ![M, K]⟩ φ₁) (w : FVec Ideal ⟨2, ![K, C]⟩ φ₂)
    (bias : FVec Ideal ⟨2, ![1, C]⟩ .f32) (hs : (⟨2, ![K, C]⟩ : Shape).ShapeCasts ⟨2, ![K, C]⟩)
    (hb : (⟨2, ![1, C]⟩ : Shape).Broadcasts ⟨2, ![M, C]⟩) (hlt : ψ.bits < FTy.bits .f32) (p : Fin M) (q : Fin C) :
    (truncf ψ (maximumf (addf (FloatOps.matmul (plainDot M K C wf) none l (shapeCast ⟨2, ![K, C]⟩ w hs)
        (constant ⟨2, ![M, C]⟩ .f32 0x00000000#32)) (broadcastTo ⟨2, ![M, C]⟩ bias hb))
        (broadcast ⟨2, ![M, C]⟩ (Scalar.ofBits (F := Ideal) .f32 0x00000000#32))) hlt : FVec Ideal ⟨2, ![M, C]⟩ ψ) (ix2 p q)
      = max ((∑ k : Fin K, l (ix2 p k) * w (ix2 k q)) + bias (ix2 0 q)) 0 :=
  congrArg₂ max (congrArg₂ (· + ·) (mm_apply wf l w hs p q) (broadcastTo_1b_ab_apply bias hb p q)) Ideal.ofBits_zero_f32

end

/-- First convolution, rectified: entry `(r, l)`. -/
theorem sM1_apply (v12 : FVec Ideal S14336x480 .bf16) (v13 : Vec Ideal S480x168 .bf16) (v16 : Vec Ideal S1x168 .f32)
    (r : Fin 14336) (l : Fin 168) :
    sM1 v12 v13 v16 (ix2 r l) = max ((∑ k : Fin 480, v12 (ix2 r k) * v13 (ix2 k l)) + v16 (ix2 0 l)) 0 := by
  unfold sM1
  exact dense_relu_apply dot_S14336x480_S480x168_S14336x168_1_0_0_1_n_n_wf v12 v13 v16 _ _ _ r l

/-- Second convolution's product: entry `(r, j)`. -/
theorem sM2_apply (v41 : FVec Ideal S5120x810 .bf16) (v42 : Vec Ideal S810x160 .bf16) (r : Fin 5120) (j : Fin 160) :
    sM2 v41 v42 (ix2 r j) = ∑ k : Fin 810, v41 (ix2 r k) * v42 (ix2 k j) := by
  unfold sM2
  exact mm_apply dot_S5120x810_S810x160_S5120x160_1_0_0_1_n_n_wf v41 v42 _ r j

/-- Second convolution's bias and rectifier: entry `(r, j)`. -/
theorem sA2_apply (v44 : FVec Ideal S5120x160 .f32) (v45 : Vec Ideal S1x160 .f32) (r : Fin 5120) (j : Fin 160) :
    sA2 v44 v45 (ix2 r j) = max (v44 (ix2 r j) + v45 (ix2 0 j)) 0 := by
  unfold sA2
  exact congrArg₂ max (congrArg₂ (· + ·) rfl (broadcastTo_1b_ab_apply v45 _ r j)) Ideal.ofBits_zero_f32

/-- First dense layer: entry `(b, j)`. -/
theorem sY1_apply (v68 : FVec Ideal S512x720 .bf16) (v69 : Vec Ideal S720x120 .bf16) (v72 : Vec Ideal S1x120 .f32)
    (b : Fin 512) (j : Fin 120) :
    sY1 v68 v69 v72 (ix2 b j) = max ((∑ k : Fin 720, v68 (ix2 b k) * v69 (ix2 k j)) + v72 (ix2 0 j)) 0 := by
  unfold sY1
  exact dense_relu_apply dot_S512x720_S720x120_S512x120_1_0_0_1_n_n_wf v68 v69 v72 _ _ _ b j

/-- Second dense layer: entry `(b, j)`. -/
theorem sY2_apply (v77 : FVec Ideal S512x120 .bf16) (v78 : Vec Ideal S120x84 .bf16) (v81 : Vec Ideal S1x84 .f32)
    (b : Fin 512) (j : Fin 84) :
    sY2 v77 v78 v81 (ix2 b j) = max ((∑ k : Fin 120, v77 (ix2 b k) * v78 (ix2 k j)) + v81 (ix2 0 j)) 0 := by
  unfold sY2
  exact dense_relu_apply dot_S512x120_S120x84_S512x84_1_0_0_1_n_n_wf v77 v78 v81 _ _ _ b j

/-- Output layer: entry `(b, j)`. -/
theorem out_apply (v86 : FVec Ideal S512x84 .bf16) (x9 : Vec Ideal S84x10 .bf16) (x10 : Vec Ideal S1x10 .f32)
    (b : Fin 512) (j : Fin 10) :
    k0_pay1 v86 (k0_pay4 x9) (constant (F := Ideal) S512x10 .f32 0x00000000#32) x10 (ix2 b j)
      = (∑ k : Fin 84, v86 (ix2 b k) * x9 (ix2 k j)) + x10 (ix2 0 j) := by
  unfold k0_pay1 k0_pay4
  exact congrArg₂ (· + ·) (mm_apply dot_S512x84_S84x10_S512x10_1_0_0_1_n_n_wf v86 x9 _ b j) (broadcastTo_1b_ab_apply x10 _ b j)

end Cert.KernelIdeal.KBody

end
-- ==== Proof.KerBodyLayers.lean ====
/-
  The three layers whose left operand is five shifted copies side by side: the product's single sum over the
  concatenated columns is the double (or triple) sum over the vertical taps and the lanes, by reindexing alone;
  the first layer's sum over taps and channels is also swapped to the order of the one-image network.
-/
import proofs.«140764_g2000603131124687_pallasbulk_7_36_alg».proof.Proof.KDefs
import proofs.«140764_g2000603131124687_pallasbulk_7_36_alg».proof.Proof.LibMatOps
import Idealize.ShloMosaic.Lib.ValueLayout
import proofs.«140764_g2000603131124687_pallasbulk_7_36_alg».proof.Proof.KerBodyOperands
import proofs.«140764_g2000603131124687_pallasbulk_7_36_alg».proof.Proof.KerBodyProducts

noncomputable section

open scoped BigOperators

namespace Cert.KernelIdeal.KBody

open Cert.KernelIdeal Cert.KernelIdeal.Gen Idealize.ShloMosaic Idealize.ShloMosaic.ValueIdx LeNetSpec

open Cert.SlabLayout Cert.KernelIdeal.KDefs

/-- First convolution of image `b` of the block, row `oh`, lane `l`. -/
theorem conv1_value (x0 : Vec Ideal S32x512x96 .bf16) (x1 : Vec Ideal S480x168 .bf16) (x2 : Vec Ideal S1x168 .f32)
    (b : Fin 512) (oh : Fin 28) (l : Fin 168) (r : Fin 14336) (hr : r.val = oh.val * 512 + b.val) :
    sM1 (sL1 x0) x1 x2 (ix2 r l)
      = c1 (kImg x0 b) (fun kh ci w l => x1 (ix2 ⟨kh.val * 96 + ci.val * 32 + w.val, by omega⟩ l)) (fun l => x2 (ix2 0 l)) oh l := by
  rw [sM1_apply]
  unfold c1 kImg
  refine congrArg₂ max (congrArg₂ (· + ·) ?_ rfl) rfl
  calc ∑ k : Fin 480, sL1 x0 (ix2 r k) * x1 (ix2 k l)
      = ∑ kh : Fin 5, ∑ q : Fin 96, x0 (ix3 ⟨oh.val + kh.val, by omega⟩ b q) * x1 (ix2 ⟨kh.val * 96 + q.val, by omega⟩ l) := by
        rw [sum_fin_split 5 96 480 rfl]
        exact Finset.sum_congr rfl fun kh _ => Finset.sum_congr rfl fun q _ =>
          congrArg (· * _) (sL1_apply x0 oh b kh q r _ hr rfl)
    _ = ∑ kh : Fin 5, ∑ ci : Fin 3, ∑ w : Fin 32, x0 (ix3 ⟨oh.val + kh.val, by omega⟩ b ⟨ci.val * 32 + w.val, by omega⟩)
          * x1 (ix2 ⟨kh.val * 96 + ci.val * 32 + w.val, by omega⟩ l) := by
        refine Finset.sum_congr rfl fun kh _ => ?_
        rw [sum_fin_split 3 32 96 rfl]
        exact Finset.sum_congr rfl fun ci _ => Finset.sum_congr rfl fun w _ =>
          congrArg (_ * ·) (congrArg (fun k => x1 (ix2 k l)) (Fin.ext (by
            show kh.val * 96 + (ci.val * 32 + w.val) = kh.val * 96 + ci.val * 32 + w.val
            omega)))
    _ = _ := Finset.sum_comm

/-- Second convolution of image `b`, row `oh`, lane `j`, from the pooled slab `P`. -/
theorem conv2_value (P : FVec Ideal S7168x162 .bf16) (x3 : Vec Ideal S810x160 .bf16) (x4 : Vec Ideal S1x160 .f32)
    (b : Fin 512) (oh : Fin 10) (j : Fin 160) (r : Fin 5120) (hr : r.val = oh.val * 512 + b.val) :
    sA2 (sM2 (sL2 P) x3) x4 (ix2 r j)
      = c2 (fun ph l => P (ix2 ⟨ph.val * 512 + b.val, by omega⟩ l))
          (fun kh l j => x3 (ix2 ⟨kh.val * 162 + l.val, by omega⟩ j)) (fun j => x4 (ix2 0 j)) oh j := by
  rw [sA2_apply, sM2_apply]
  unfold c2
  refine congrArg₂ max (congrArg₂ (· + ·) ?_ rfl) rfl
  rw [sum_fin_split 5 162 810 rfl]
  exact Finset.sum_congr rfl fun kh _ => Finset.sum_congr rfl fun l _ =>
    congrArg (· * _) (sL2_apply P oh b kh l r _ ⟨(oh.val + kh.val) * 512 + b.val, by omega⟩ hr rfl rfl)

/-- First dense layer of image `b`, output `j`, from the pooled blocks `Q`. -/
theorem dense1_value (Q : FVec Ideal S5x512x144 .bf16) (x5 : Vec Ideal S720x120 .bf16) (x6 : Vec Ideal S1x120 .f32)
    (b : Fin 512) (j : Fin 120) :
    sY1 (sL3 Q) x5 x6 (ix2 b j)
      = y1 (fun r l => Q (ix3 r b l)) (fun r l j => x5 (ix2 ⟨r.val * 144 + l.val, by omega⟩ j)) (fun j => x6 (ix2 0 j)) j := by
  rw [sY1_apply]
  unfold y1
  refine congrArg₂ max (congrArg₂ (· + ·) ?_ rfl) rfl
  rw [sum_fin_split 5 144 720 rfl]
  exact Finset.sum_congr rfl fun r _ => Finset.sum_congr rfl fun l _ =>
    congrArg (· * _) (sL3_apply Q b r l _ rfl)

end Cert.KernelIdeal.KBody

end
-- ==== Proof.KerBody.lean ====
/-
  The block the batched body leaves holds, at `[b, j]`, output `j` of the one-image network on image `b` of the
  block: the layers are peeled off from the output inwards, each read at an entry and matched with the network's
  layer of the same name; what remains at every step is the previous layer at the entries the next one reads.
-/
import proofs.«140764_g2000603131124687_pallasbulk_7_36_alg».proof.Proof.KDefs
import proofs.«140764_g2000603131124687_pallasbulk_7_36_alg».proof.Proof.LibMatOps
import Idealize.ShloMosaic.Lib.ValueLayout
import proofs.«140764_g2000603131124687_pallasbulk_7_36_alg».proof.Proof.KerBodyPiece
import proofs.«140764_g2000603131124687_pallasbulk_7_36_alg».proof.Proof.KerBodyPools
import proofs.«140764_g2000603131124687_pallasbulk_7_36_alg».proof.Proof.KerBodyLayers

noncomputable section

open scoped BigOperators

namespace Cert.KernelIdeal.KBody

open Cert.KernelIdeal Cert.KernelIdeal.Gen Idealize.ShloMosaic Idealize.ShloMosaic.ValueIdx LeNetSpec

open Cert.KernelIdeal.KDefs

theorem body_value : Cert.KernelIdeal.KDefs.BodyValue := by
  intro x0 x1 x2 x3 x4 x5 x6 x7 x8 x9 x10 b j
  rw [out_eq, pay3_eq, pay2_eq]
  refine (out_apply _ x9 x10 b j).trans ?_
  unfold net y3
  refine congrArg₂ (· + ·) (Finset.sum_congr rfl fun k _ => congrArg (· * _) ?_) rfl
  refine (sY2_apply _ x7 x8 b k).trans ?_
  unfold y2
  refine congrArg₂ max (congrArg₂ (· + ·) (Finset.sum_congr rfl fun k' _ => congrArg (· * _) ?_) rfl) rfl
  refine (dense1_value _ x5 x6 b k').trans ?_
  refine congrArg (fun p => y1 p _ _ k') (funext fun r => funext fun l => ?_)
  refine (sP2_apply _ r b l).trans ?_
  unfold pool2
  refine congrArg (fun c => p2 (m2 c) r l) (funext fun oh => funext fun jj => ?_)
  refine (conv2_value _ x3 x4 b oh jj _ rfl).trans ?_
  refine congrArg (fun p => c2 p _ _ oh jj) (funext fun ph => funext fun l' => ?_)
  refine (sP1_apply _ ph b l' _ rfl).trans ?_
  unfold pool1
  refine congrArg (fun c => p1 (m1 c) ph l') (funext fun oh' => funext fun l'' => ?_)
  exact conv1_value x0 x1 x2 b oh' l'' _ rfl

end Cert.KernelIdeal.KBody

end
-- ==== Proof.KerArrHost.lean ====
/-
  The arrays the batched program's region finds, read entry by entry from the argument arrays.
  Before the region the host transposes the image batch `[n, ci, h, w]` to `[h, n, ci, w]` and merges the
  last two axes into one lane axis `ci*32 + w`; it flattens the first convolution's table `[kh, ci, w, l]`
  to rows `kh*96 + ci*32 + w`, the second's `[kh, l, j]` to rows `kh*162 + l`, the first dense layer's
  `[r, l, j]` to rows `r*144 + l`; every change of float format is the identity on the extended reals.
-/
import proofs.«140764_g2000603131124687_pallasbulk_7_36_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KArr

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The staged image batch is the argument transposed, its last two axes merged (the change of format is the identity). -/
theorem v2_eq (c : Dev nD) : @Eq (Vec Ideal S32x4096x96 .bf16) (V m c main_v2)
    (shapeCast S32x4096x96 (transpose S32x4096x3x32 [2, 0, 1, 3]
      (show Vec Ideal S4096x3x32x32 .f32 from m ((c : Thread nD τ).loc main_arg0))
      transposes_S4096x3x32x32_S32x4096x3x32_2_0_1_3) shapeCasts_S32x4096x3x32_S32x4096x96) := by
  dsimp only [Gen.V, Gen.hostOps0]
  after_results
  rfl

/-- Entry `[h, n, ci*32 + w]` of the staged batch is entry `[n, ci, h, w]` of the argument. -/
theorem v2_apply (c : Dev nD) (h : Fin 32) (n : Fin 4096) (ci : Fin 3) (w : Fin 32) :
    (V m c main_v2 : S32x4096x96.Idx → EReal) (ix3 h n ⟨ci.val * 32 + w.val, by omega⟩)
      = (m ((c : Thread nD τ).loc main_arg0) : S4096x3x32x32.Idx → EReal) (ix4 n ci h w) := by
  rw [v2_eq m c]
  refine (shapeCast_apply _ _ _ (ix4 h n ci w) ?_).trans ?_
  · rw [Shape.rowMajor_val_four, Shape.rowMajor_val_three]
    show ((h.val * 4096 + n.val) * 3 + ci.val) * 32 + w.val = (h.val * 4096 + n.val) * 96 + (ci.val * 32 + w.val)
    omega
  · exact transpose_apply _ _ _ _ _ fun b => match b with
      | ⟨0, _⟩ => rfl | ⟨1, _⟩ => rfl | ⟨2, _⟩ => rfl | ⟨3, _⟩ => rfl

/-- The staged first table is the argument flattened (the change of format is the identity). -/
theorem v4_eq (c : Dev nD) : @Eq (Vec Ideal S480x168 .bf16) (V m c main_v4)
    (shapeCast S480x168
      (show Vec Ideal S5x3x32x168 .f32 from m ((c : Thread nD τ).loc main_arg1))
      shapeCasts_S5x3x32x168_S480x168) := by
  dsimp only [Gen.V, Gen.hostOps0]
  after_results
  rfl

/-- Row `kh*96 + ci*32 + w` of the staged first table is entry `[kh, ci, w, ·]` of the argument. -/
theorem v4_apply (c : Dev nD) (kh : Fin 5) (ci : Fin 3) (w : Fin 32) (l : Fin 168) :
    (V m c main_v4 : S480x168.Idx → EReal) (ix2 ⟨kh.val * 96 + ci.val * 32 + w.val, by omega⟩ l)
      = (m ((c : Thread nD τ).loc main_arg1) : S5x3x32x168.Idx → EReal) (ix4 kh ci w l) := by
  rw [v4_eq m c]
  refine shapeCast_apply _ _ _ (ix4 kh ci w l) ?_
  rw [Shape.rowMajor_val_four, Shape.rowMajor_val_two]
  show ((kh.val * 3 + ci.val) * 32 + w.val) * 168 + l.val = (kh.val * 96 + ci.val * 32 + w.val) * 168 + l.val
  omega

/-- The staged second table is the argument flattened (the change of format is the identity). -/
theorem v6_eq (c : Dev nD) : @Eq (Vec Ideal S810x160 .bf16) (V m c main_v6)
    (shapeCast S810x160
      (show Vec Ideal S5x162x160 .f32 from m ((c : Thread nD τ).loc main_arg3))
      shapeCasts_S5x162x160_S810x160) := by
  dsimp only [Gen.V, Gen.hostOps0]
  after_results
  rfl

/-- Row `kh*162 + l` of the staged second table is entry `[kh, l, ·]` of the argument. -/
theorem v6_apply (c : Dev nD) (kh : Fin 5) (l : Fin 162) (j : Fin 160) :
    (V m c main_v6 : S810x160.Idx → EReal) (ix2 ⟨kh.val * 162 + l.val, by omega⟩ j)
      = (m ((c : Thread nD τ).loc main_arg3) : S5x162x160.Idx → EReal) (ix3 kh l j) := by
  rw [v6_eq m c]
  refine shapeCast_apply _ _ _ (ix3 kh l j) ?_
  rw [Shape.rowMajor_val_three, Shape.rowMajor_val_two]
  show (kh.val * 162 + l.val) * 160 + j.val = (kh.val * 162 + l.val) * 160 + j.val
  rfl

/-- The staged dense table is the argument flattened (the change of format is the identity). -/
theorem v8_eq (c : Dev nD) : @Eq (Vec Ideal S720x120 .bf16) (V m c main_v8)
    (shapeCast S720x120
      (show Vec Ideal S5x144x120 .f32 from m ((c : Thread nD τ).loc main_arg5))
      shapeCasts_S5x144x120_S720x120) := by
  dsimp only [Gen.V, Gen.hostOps0]
  after_results
  rfl

/-- Row `r*144 + l` of the staged dense table is entry `[r, l, ·]` of the argument. -/
theorem v8_apply (c : Dev nD) (r : Fin 5) (l : Fin 144) (j : Fin 120) :
    (V m c main_v8 : S720x120.Idx → EReal) (ix2 ⟨r.val * 144 + l.val, by omega⟩ j)
      = (m ((c : Thread nD τ).loc main_arg5) : S5x144x120.Idx → EReal) (ix3 r l j) := by
  rw [v8_eq m c]
  refine shapeCast_apply _ _ _ (ix3 r l j) ?_
  rw [Shape.rowMajor_val_three, Shape.rowMajor_val_two]
  show (r.val * 144 + l.val) * 120 + j.val = (r.val * 144 + l.val) * 120 + j.val
  rfl

/-- The staged second dense table is the argument (the change of format is the identity). -/
theorem v9_eq (c : Dev nD) : @Eq (Vec Ideal S120x84 .bf16) (V m c main_v9)
    (show Vec Ideal S120x84 .f32 from m ((c : Thread nD τ).loc main_arg7)) := by
  dsimp only [Gen.V, Gen.hostOps0]
  after_results
  rfl

theorem v9_apply (c : Dev nD) (i : S120x84.Idx) :
    (V m c main_v9 : S120x84.Idx → EReal) i = (m ((c : Thread nD τ).loc main_arg7) : S120x84.Idx → EReal) i := by
  rw [v9_eq m c]

/-- The staged output table is the argument (the change of format is the identity). -/
theorem v10_eq (c : Dev nD) : @Eq (Vec Ideal S84x10 .bf16) (V m c main_v10)
    (show Vec Ideal S84x10 .f32 from m ((c : Thread nD τ).loc main_arg9)) := by
  dsimp only [Gen.V, Gen.hostOps0]
  after_results
  rfl

theorem v10_apply (c : Dev nD) (i : S84x10.Idx) :
    (V m c main_v10 : S84x10.Idx → EReal) i = (m ((c : Thread nD τ).loc main_arg9) : S84x10.Idx → EReal) i := by
  rw [v10_eq m c]

end Cert.KernelIdeal.KArr

end
-- ==== Proof.KerArrBlocks.lean ====
/-
  The blocks the batched program stages at a grid point, read entry by entry: point `t` stages images
  `512 t … 512 t + 511` of the batch (the second axis of the staged array) and every table and bias row whole.
  Hence the image `b` of the block at point `t` is image `512 t + b` of the batch, and the weights read off the
  staged tables are the weights read off the argument arrays.
-/
import proofs.«140764_g2000603131124687_pallasbulk_7_36_alg».proof.Proof.KerArrHost
import proofs.«140764_g2000603131124687_pallasbulk_7_36_alg».proof.Proof.KDefs

noncomputable section

namespace Cert.KernelIdeal.KArr

open Cert.KernelIdeal Cert.KernelIdeal.Gen Cert.KernelIdeal.KDefs Idealize.ShloMosaic Idealize.ShloMosaic.TcCoe Idealize.SL.Sem
open Idealize.ShloMosaic.ValueIdx LeNetSpec

variable (m : (ℓ : Loc nD τ sig) → Buf (Elt Ideal) ℓ)

/-- The index maps over the grid: the image window and the result window move along the batch axis with the
    point. -/
theorem idx_move : ∀ t : Fin cfg0.N,
    win0_0.index t (0 : Fin 3) = 0 ∧ win0_0.index t (1 : Fin 3) = t.val ∧ win0_0.index t (2 : Fin 3) = 0
    ∧ win0_11.index t (0 : Fin 2) = t.val ∧ win0_11.index t (1 : Fin 2) = 0 :=
  (by decide +kernel : ∀ t : Fin grid0.N, _)

/-- Every other window stays at block zero. -/
theorem idx_rest : ∀ (t : Fin cfg0.N) (a : Fin 2),
    win0_1.index t a = 0 ∧ win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 ∧ win0_10.index t a = 0 :=
  (by decide +kernel : ∀ (t : Fin grid0.N) (a : Fin 2), _)

/-- Entry `[h, b, q]` of the image block at point `t` is entry `[h, 512 t + b, q]` of the staged batch. -/
theorem iblk0_apply (c : Dev nD) (t : Fin cfg0.N) (h : Fin 32) (b : Fin 512) (q : Fin 96) (n : Fin 4096)
    (hn : n.val = t.val * 512 + b.val) :
    (iblk m c 0 t : S32x512x96.Idx → EReal) (ix3 h b q) = (V m c main_v2 : S32x4096x96.Idx → EReal) (ix3 h n q) := by
  obtain ⟨e0, e1, e2, -, -⟩ := idx_move t
  unfold iblk
  rw [View.read_apply]
  show (V m c main_v2 : S32x4096x96.Idx → EReal) _ = (V m c main_v2 : S32x4096x96.Idx → EReal) _
  congr 1
  funext a
  apply Fin.ext
  match a with
  | ⟨0, _⟩ => show win0_0.index t (0 : Fin 3) * 32 + 1 * h.val = h.val; rw [e0]; omega
  | ⟨1, _⟩ => show win0_0.index t (1 : Fin 3) * 512 + 1 * b.val = n.val; rw [e1, hn]; omega
  | ⟨2, _⟩ => show win0_0.index t (2 : Fin 3) * 96 + 1 * q.val = q.val; rw [e2]; omega

/-- Window 1's block is its whole array. -/
theorem iblk1_apply (c : Dev nD) (t : Fin cfg0.N) (x : S480x168.Idx) :
    (iblk m c 1 t : S480x168.Idx → EReal) x = (V m c main_v4 : S480x168.Idx → EReal) x := by
  have e := fun a => (idx_rest t a).1
  unfold iblk
  rw [View.read_apply]
  show (V m c main_v4 : S480x168.Idx → EReal) _ = (V m c main_v4 : S480x168.Idx → EReal) _
  congr 1
  funext a
  apply Fin.ext
  match a with
  | ⟨0, _⟩ => show win0_1.index t (0 : Fin 2) * 480 + 1 * (x 0).val = (x 0).val; rw [e 0]; omega
  | ⟨1, _⟩ => show win0_1.index t (1 : Fin 2) * 168 + 1 * (x 1).val = (x 1).val; rw [e 1]; omega

/-- Window 2's block is its whole array. -/
theorem iblk2_apply (c : Dev nD) (t : Fin cfg0.N) (x : S1x168.Idx) :
    (iblk m c 2 t : S1x168.Idx → EReal) x = (V m c main_arg2 : S1x168.Idx → EReal) x := by
  have e := fun a => (idx_rest t a).2.1
  unfold iblk
  rw [View.read_apply]
  show (V m c main_arg2 : S1x168.Idx → EReal) _ = (V m c main_arg2 : S1x168.Idx → EReal) _
  congr 1
  funext a
  apply Fin.ext
  match a with
  | ⟨0, _⟩ => show win0_2.index t (0 : Fin 2) * 1 + 1 * (x 0).val = (x 0).val; rw [e 0]; omega
  | ⟨1, _⟩ => show win0_2.index t (1 : Fin 2) * 168 + 1 * (x 1).val = (x 1).val; rw [e 1]; omega

/-- Window 3's block is its whole array. -/
theorem iblk3_apply (c : Dev nD) (t : Fin cfg0.N) (x : S810x160.Idx) :
    (iblk m c 3 t : S810x160.Idx → EReal) x = (V m c main_v6 : S810x160.Idx → EReal) x := by
  have e := fun a => (idx_rest t a).2.2.1
  unfold iblk
  rw [View.read_apply]
  show (V m c main_v6 : S810x160.Idx → EReal) _ = (V m c main_v6 : S810x160.Idx → EReal) _
  congr 1
  funext a
  apply Fin.ext
  match a with
  | ⟨0, _⟩ => show win0_3.index t (0 : Fin 2) * 810 + 1 * (x 0).val = (x 0).val; rw [e 0]; omega
  | ⟨1, _⟩ => show win0_3.index t (1 : Fin 2) * 160 + 1 * (x 1).val = (x 1).val; rw [e 1]; omega

/-- Window 4's block is its whole array. -/
theorem iblk4_apply (c : Dev nD) (t : Fin cfg0.N) (x : S1x160.Idx) :
    (iblk m c 4 t : S1x160.Idx → EReal) x = (V m c main_arg4 : S1x160.Idx → EReal) x := by
  have e := fun a => (idx_rest t a).2.2.2.1
  unfold iblk
  rw [View.read_apply]
  show (V m c main_arg4 : S1x160.Idx → EReal) _ = (V m c main_arg4 : S1x160.Idx → EReal) _
  congr 1
  funext a
  apply Fin.ext
  match a with
  | ⟨0, _⟩ => show win0_4.index t (0 : Fin 2) * 1 + 1 * (x 0).val = (x 0).val; rw [e 0]; omega
  | ⟨1, _⟩ => show win0_4.index t (1 : Fin 2) * 160 + 1 * (x 1).val = (x 1).val; rw [e 1]; omega

/-- Window 5's block is its whole array. -/
theorem iblk5_apply (c : Dev nD) (t : Fin cfg0.N) (x : S720x120.Idx) :
    (iblk m c 5 t : S720x120.Idx → EReal) x = (V m c main_v8 : S720x120.Idx → EReal) x := by
  have e := fun a => (idx_rest t a).2.2.2.2.1
  unfold iblk
  rw [View.read_apply]
  show (V m c main_v8 : S720x120.Idx → EReal) _ = (V m c main_v8 : S720x120.Idx → EReal) _
  congr 1
  funext a
  apply Fin.ext
  match a with
  | ⟨0, _⟩ => show win0_5.index t (0 : Fin 2) * 720 + 1 * (x 0).val = (x 0).val; rw [e 0]; omega
  | ⟨1, _⟩ => show win0_5.index t (1 : Fin 2) * 120 + 1 * (x 1).val = (x 1).val; rw [e 1]; omega

/-- Window 6's block is its whole array. -/
theorem iblk6_apply (c : Dev nD) (t : Fin cfg0.N) (x : S1x120.Idx) :
    (iblk m c 6 t : S1x120.Idx → EReal) x = (V m c main_arg6 : S1x120.Idx → EReal) x := by
  have e := fun a => (idx_rest t a).2.2.2.2.2.1
  unfold iblk
  rw [View.read_apply]
  show (V m c main_arg6 : S1x120.Idx → EReal) _ = (V m c main_arg6 : S1x120.Idx → EReal) _
  congr 1
  funext a
  apply Fin.ext
  match a with
  | ⟨0, _⟩ => show win0_6.index t (0 : Fin 2) * 1 + 1 * (x 0).val = (x 0).val; rw [e 0]; omega
  | ⟨1, _⟩ => show win0_6.index t (1 : Fin 2) * 120 + 1 * (x 1).val = (x 1).val; rw [e 1]; omega

/-- Window 7's block is its whole array. -/
theorem iblk7_apply (c : Dev nD) (t : Fin cfg0.N) (x : S120x84.Idx) :
    (iblk m c 7 t : S120x84.Idx → EReal) x = (V m c main_v9 : S120x84.Idx → EReal) x := by
  have e := fun a => (idx_rest t a).2.2.2.2.2.2.1
  unfold iblk
  rw [View.read_apply]
  show (V m c main_v9 : S120x84.Idx → EReal) _ = (V m c main_v9 : S120x84.Idx → EReal) _
  congr 1
  funext a
  apply Fin.ext
  match a with
  | ⟨0, _⟩ => show win0_7.index t (0 : Fin 2) * 120 + 1 * (x 0).val = (x 0).val; rw [e 0]; omega
  | ⟨1, _⟩ => show win0_7.index t (1 : Fin 2) * 84 + 1 * (x 1).val = (x 1).val; rw [e 1]; omega

/-- Window 8's block is its whole array. -/
theorem iblk8_apply (c : Dev nD) (t : Fin cfg0.N) (x : S1x84.Idx) :
    (iblk m c 8 t : S1x84.Idx → EReal) x = (V m c main_arg8 : S1x84.Idx → EReal) x := by
  have e := fun a => (idx_rest t a).2.2.2.2.2.2.2.1
  unfold iblk
  rw [View.read_apply]
  show (V m c main_arg8 : S1x84.Idx → EReal) _ = (V m c main_arg8 : S1x84.Idx → EReal) _
  congr 1
  funext a
  apply Fin.ext
  match a with
  | ⟨0, _⟩ => show win0_8.index t (0 : Fin 2) * 1 + 1 * (x 0).val = (x 0).val; rw [e 0]; omega
  | ⟨1, _⟩ => show win0_8.index t (1 : Fin 2) * 84 + 1 * (x 1).val = (x 1).val; rw [e 1]; omega

/-- Window 9's block is its whole array. -/
theorem iblk9_apply (c : Dev nD) (t : Fin cfg0.N) (x : S84x10.Idx) :
    (iblk m c 9 t : S84x10.Idx → EReal) x = (V m c main_v10 : S84x10.Idx → EReal) x := by
  have e := fun a => (idx_rest t a).2.2.2.2.2.2.2.2.1
  unfold iblk
  rw [View.read_apply]
  show (V m c main_v10 : S84x10.Idx → EReal) _ = (V m c main_v10 : S84x10.Idx → EReal) _
  congr 1
  funext a
  apply Fin.ext
  match a with
  | ⟨0, _⟩ => show win0_9.index t (0 : Fin 2) * 84 + 1 * (x 0).val = (x 0).val; rw [e 0]; omega
  | ⟨1, _⟩ => show win0_9.index t (1 : Fin 2) * 10 + 1 * (x 1).val = (x 1).val; rw [e 1]; omega

/-- Window 10's block is its whole array. -/
theorem iblk10_apply (c : Dev nD) (t : Fin cfg0.N) (x : S1x10.Idx) :
    (iblk m c 10 t : S1x10.Idx → EReal) x = (V m c main_arg10 : S1x10.Idx → EReal) x := by
  have e := fun a => (idx_rest t a).2.2.2.2.2.2.2.2.2
  unfold iblk
  rw [View.read_apply]
  show (V m c main_arg10 : S1x10.Idx → EReal) _ = (V m c main_arg10 : S1x10.Idx → EReal) _
  congr 1
  funext a
  apply Fin.ext
  match a with
  | ⟨0, _⟩ => show win0_10.index t (0 : Fin 2) * 1 + 1 * (x 0).val = (x 0).val; rw [e 0]; omega
  | ⟨1, _⟩ => show win0_10.index t (1 : Fin 2) * 10 + 1 * (x 1).val = (x 1).val; rw [e 1]; omega

/-- Image `b` of the block at point `t` is image `512 t + b` of the batch. -/
theorem kImg_blk (c : Dev nD) (t : Fin cfg0.N) (b : Fin 512) (n : Fin 4096) (hn : n.val = t.val * 512 + b.val) :
    kImg (iblk m c 0 t) b = imgOf (m ((c : Thread nD τ).loc main_arg0)) n := by
  funext ci h w
  exact (iblk0_apply m c t h b ⟨ci.val * 32 + w.val, by omega⟩ n hn).trans (v2_apply m c h n ci w)

/-- The weights read off flattened tables are the weights read off the tables, when the flattened tables hold
    the tables' entries row by row. -/
theorem kW_of (x1 : Vec Ideal S480x168 .bf16) (x2 : Vec Ideal S1x168 .f32) (x3 : Vec Ideal S810x160 .bf16) (x4 : Vec Ideal S1x160 .f32)
    (x5 : Vec Ideal S720x120 .bf16) (x6 : Vec Ideal S1x120 .f32) (x7 : Vec Ideal S120x84 .bf16) (x8 : Vec Ideal S1x84 .f32)
    (x9 : Vec Ideal S84x10 .bf16) (x10 : Vec Ideal S1x10 .f32)
    (a1 : S5x3x32x168.Idx → EReal) (a2 : S1x168.Idx → EReal) (a3 : S5x162x160.Idx → EReal) (a4 : S1x160.Idx → EReal)
    (a5 : S5x144x120.Idx → EReal) (a6 : S1x120.Idx → EReal) (a7 : S120x84.Idx → EReal) (a8 : S1x84.Idx → EReal)
    (a9 : S84x10.Idx → EReal) (a10 : S1x10.Idx → EReal)
    (h1 : ∀ (kh : Fin 5) (ci : Fin 3) (w : Fin 32) (l : Fin 168),
      x1 (ix2 ⟨kh.val * 96 + ci.val * 32 + w.val, by omega⟩ l) = a1 (ix4 kh ci w l))
    (h2 : x2 = a2)
    (h3 : ∀ (kh : Fin 5) (l : Fin 162) (j : Fin 160), x3 (ix2 ⟨kh.val * 162 + l.val, by omega⟩ j) = a3 (ix3 kh l j))
    (h4 : x4 = a4)
    (h5 : ∀ (r : Fin 5) (l : Fin 144) (j : Fin 120), x5 (ix2 ⟨r.val * 144 + l.val, by omega⟩ j) = a5 (ix3 r l j))
    (h6 : x6 = a6) (h7 : x7 = a7) (h8 : x8 = a8) (h9 : x9 = a9) (h10 : x10 = a10) :
    kW x1 x2 x3 x4 x5 x6 x7 x8 x9 x10 = weightsOf a1 a2 a3 a4 a5 a6 a7 a8 a9 a10 := by
  subst h2 h4 h6 h7 h8 h9 h10
  unfold kW weightsOf
  congr 1
  · funext kh ci w l; exact h1 kh ci w l
  · funext kh l j; exact h3 kh l j
  · funext r l j; exact h5 r l j

/-- The weights read off the staged blocks at any point are the weights read off the argument arrays. -/
theorem kW_blk (c : Dev nD) (t : Fin cfg0.N) :
    kW (iblk m c 1 t) (iblk m c 2 t) (iblk m c 3 t) (iblk m c 4 t) (iblk m c 5 t) (iblk m c 6 t) (iblk m c 7 t)
        (iblk m c 8 t) (iblk m c 9 t) (iblk m c 10 t)
      = weightsOf (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10)) :=
  kW_of (iblk m c 1 t) (iblk m c 2 t) (iblk m c 3 t) (iblk m c 4 t) (iblk m c 5 t) (iblk m c 6 t) (iblk m c 7 t)
    (iblk m c 8 t) (iblk m c 9 t) (iblk m c 10 t)
    (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (fun kh ci w l => (iblk1_apply m c t _).trans (v4_apply m c kh ci w l))
    (funext fun x => (iblk2_apply m c t x).trans (congrFun (V_main_arg2 m c) x))
    (fun kh l j => (iblk3_apply m c t _).trans (v6_apply m c kh l j))
    (funext fun x => (iblk4_apply m c t x).trans (congrFun (V_main_arg4 m c) x))
    (fun r l j => (iblk5_apply m c t _).trans (v8_apply m c r l j))
    (funext fun x => (iblk6_apply m c t x).trans (congrFun (V_main_arg6 m c) x))
    (funext fun x => (iblk7_apply m c t x).trans (v9_apply m c x))
    (funext fun x => (iblk8_apply m c t x).trans (congrFun (V_main_arg8 m c) x))
    (funext fun x => (iblk9_apply m c t x).trans (v10_apply m c x))
    (funext fun x => (iblk10_apply m c t x).trans (congrFun (V_main_arg10 m c) x))

end Cert.KernelIdeal.KArr

end
-- ==== Proof.KerArr.lean ====
/-
  From the blocks to the whole result array, and the batched program's run.  Point `t` of the grid writes
  back rows `512 t … 512 t + 511` of the result; by the body's value each row `b` of that block holds the ten
  outputs of the network on image `b` of the staged block, which is image `512 t + b` of the batch, with the
  weights read off the argument arrays.  The eight blocks tile the `[4096, 10]` array (row `r` lies in the block
  of point `r / 512`), so after the run the array is the network of the argument arrays, row by row.
-/
import proofs.«140764_g2000603131124687_pallasbulk_7_36_alg».proof.Proof.KerArrBlocks
import proofs.«140764_g2000603131124687_pallasbulk_7_36_alg».proof.Proof.Gen.KernelIdeal.Value

noncomputable section

namespace Cert.KernelIdeal.KArr

open Cert.KernelIdeal Cert.KernelIdeal.Gen Cert.KernelIdeal.KDefs Idealize.ShloMosaic Idealize.ShloMosaic.TcCoe Idealize.SL.Sem
open Idealize.ShloMosaic.ValueIdx LeNetSpec
open Idealize.ShloMosaic.Pipeline (Dat)

section

variable (m : (ℓ : Loc nD τ sig) → Buf (Elt Ideal) ℓ)

/-- The body's value at any entry of its block, the entry's two coordinates read off the index. -/
theorem out_apply (hb : BodyValue) (x0 : Vec Ideal S32x512x96 .bf16) (x1 : Vec Ideal S480x168 .bf16) (x2 : Vec Ideal S1x168 .f32)
    (x3 : Vec Ideal S810x160 .bf16) (x4 : Vec Ideal S1x160 .f32) (x5 : Vec Ideal S720x120 .bf16) (x6 : Vec Ideal S1x120 .f32)
    (x7 : Vec Ideal S120x84 .bf16) (x8 : Vec Ideal S1x84 .f32) (x9 : Vec Ideal S84x10 .bf16) (x10 : Vec Ideal S1x10 .f32)
    (y : S512x10.Idx) :
    out0_11 (F := Ideal) x0 x1 x2 x3 x4 x5 x6 x7 x8 x9 x10 y
      = net (kW x1 x2 x3 x4 x5 x6 x7 x8 x9 x10) (kImg x0 (y 0)) (y 1) :=
  (congrArg (out0_11 (F := Ideal) x0 x1 x2 x3 x4 x5 x6 x7 x8 x9 x10) (eq_ix2 y)).trans
    (hb x0 x1 x2 x3 x4 x5 x6 x7 x8 x9 x10 (y 0) (y 1))

/-- The network's value is the result array's entry once the weights, the image and the output are matched. -/
theorem G_apply (a0 : S4096x3x32x32.Idx → EReal) (a1 : S5x3x32x168.Idx → EReal) (a2 : S1x168.Idx → EReal)
    (a3 : S5x162x160.Idx → EReal) (a4 : S1x160.Idx → EReal) (a5 : S5x144x120.Idx → EReal) (a6 : S1x120.Idx → EReal)
    (a7 : S120x84.Idx → EReal) (a8 : S1x84.Idx → EReal) (a9 : S84x10.Idx → EReal) (a10 : S1x10.Idx → EReal)
    (i : S4096x10.Idx) (W : Weights) (x : Fin 3 → Fin 32 → Fin 32 → EReal) (j : Fin 10)
    (hW : W = weightsOf a1 a2 a3 a4 a5 a6 a7 a8 a9 a10) (hx : x = imgOf a0 (i 0)) (hj : j = i 1) :
    net W x j = G a0 a1 a2 a3 a4 a5 a6 a7 a8 a9 a10 i := by
  subst hW hx hj
  rfl

/-- What point `t` writes back is block `t` of the network of the argument arrays. -/
theorem flushed_eq (hb : BodyValue) (c : Dev nD) (t : Fin cfg0.N) :
    (dats m 0 c).flushed 11 t = ((cfg0.win 11).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed11]
  obtain ⟨-, -, -, e0, e1⟩ := idx_move t
  funext y
  rw [View.read_apply]
  have hr : ((((cfg0.win 11).blk t).view.emb y) 0).val = t.val * 512 + (y 0).val := by
    show win0_11.index t (0 : Fin 2) * 512 + 1 * (y 0).val = _
    rw [e0]; omega
  have hc : ((((cfg0.win 11).blk t).view.emb y) 1).val = (y 1).val := by
    show win0_11.index t (1 : Fin 2) * 10 + 1 * (y 1).val = _
    rw [e1]; omega
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) y)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y)
  exact (out_apply hb (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) y)).trans
    (G_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y) _ _ _ (kW_blk m c t)
      (kImg_blk m c t _ _ hr) (Fin.ext hc.symm))

/-- An index of the result array is in point `t`'s block iff each coordinate is in the block's range on its axis. -/
theorem mem_blk (t : Fin cfg0.N) (i : S4096x10.Idx) :
    i ∈ ((cfg0.win 11).blk t).view.set ↔ ∀ a : Fin 2, win0_11.index t a * S512x10.size a ≤ (i a).val ∧ (i a).val < win0_11.index t a * S512x10.size a + S512x10.size a := by
  show i ∈ ((View.whole main_v11).slice (win0_11.rect t)).set ↔ _
  rw [View.set_slice_whole, Rect.mem_set_unit]
  exact Iff.rfl

/-- Row `r` of the result lies in the block of point `r / 512`. -/
theorem cover (i : S4096x10.Idx) :
    ∃ t : Fin cfg0.N, (cfg0.win 11).flush t = true ∧ i ∈ ((cfg0.win 11).blk t).view.set := by
  have hN : cfg0.N = 8 := N_0
  have hi0 : (i 0).val < 4096 := (i 0).isLt
  have hi1 : (i 1).val < 10 := (i 1).isLt
  obtain ⟨t, ht⟩ : ∃ t : Fin cfg0.N, t.val = (i 0).val / 512 := ⟨⟨(i 0).val / 512, by omega⟩, rfl⟩
  obtain ⟨-, -, -, e0, e1⟩ := idx_move t
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512; rw [e0, ht]; omega
  | ⟨1, _⟩ => show win0_11.index t (1 : Fin 2) * 10 ≤ (i 1).val ∧ (i 1).val < win0_11.index t (1 : Fin 2) * 10 + 10; rw [e1]; omega

/-- The result array after the run is the network of the argument arrays, row by row. -/
theorem final (hb : BodyValue) (c : Dev nD) :
    (dats m 0 c).arrAt 11 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed_eq m hb c t) cover

end

/-- The batched program's run: the result array ends at the network of the argument arrays, the arguments unchanged. -/
theorem run (hb : BodyValue) (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v11) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m hb c), (h c).2⟩) (Value.run_blocks m ρ)

end Cert.KernelIdeal.KArr

end
-- ==== Proof.RDefs.lean ====
/-
  How the one-image-per-point program's staged blocks hold the image and the weights: the image block is
  `[1, ci*32 + h, w]`, the weight windows are the whole argument arrays.  `BodyValue` says that the block the
  body leaves holds, at `[0, 0, j]`, output `j` of the network on that image.
-/
import proofs.«140764_g2000603131124687_pallasbulk_7_36_alg».proof.Proof.Gen.ReferenceIdeal.Frame
import proofs.«140764_g2000603131124687_pallasbulk_7_36_alg».proof.Proof.Net

noncomputable section

namespace Cert.ReferenceIdeal.RDefs

open Cert.ReferenceIdeal Cert.ReferenceIdeal.Gen Idealize.ShloMosaic Idealize.ShloMosaic.ValueIdx LeNetSpec

/-- The image of a staged block `[1, 96, 32]`. -/
def rImg (x0 : Vec Ideal S1x96x32 .f32) : Fin 3 → Fin 32 → Fin 32 → EReal :=
  fun ci h w => x0 (ix3 0 ⟨ci.val * 32 + h.val, by omega⟩ w)

/-- What the body leaves in the output block, entry by entry. -/
def BodyValue : Prop :=
  ∀ (c : Dev nD) (i : grid0.Coords) (arg1 : Memref sig .tc .vmem S1x96x32 .f32) (harg1 : arg1.IsWhole) (arg2 : Memref sig .tc .vmem S5x3x32x168 .f32) (harg2 : arg2.IsWhole) (arg3 : Memref sig .tc .vmem S1x168 .f32) (harg3 : arg3.IsWhole) (arg4 : Memref sig .tc .vmem S5x162x160 .f32) (harg4 : arg4.IsWhole) (arg5 : Memref sig .tc .vmem S1x160 .f32) (harg5 : arg5.IsWhole) (arg6 : Memref sig .tc .vmem S5x144x120 .f32) (harg6 : arg6.IsWhole) (arg7 : Memref sig .tc .vmem S1x120 .f32) (harg7 : arg7.IsWhole) (arg8 : Memref sig .tc .vmem S120x84 .f32) (harg8 : arg8.IsWhole) (arg9 : Memref sig .tc .vmem S1x84 .f32) (harg9 : arg9.IsWhole) (arg10 : Memref sig .tc .vmem S84x10 .f32) (harg10 : arg10.IsWhole) (arg11 : Memref sig .tc .vmem S1x10 .f32) (harg11 : arg11.IsWhole) (arg12 : Memref sig .tc .vmem S1x1x10 .f32) (harg12 : arg12.IsWhole) (arg13 : Memref sig .tc .vmem S14x162 .f32) (harg13 : arg13.IsWhole)
    (x0 : Vec Ideal S1x96x32 .f32) (x1 : Vec Ideal S5x3x32x168 .f32) (x2 : Vec Ideal S1x168 .f32) (x3 : Vec Ideal S5x162x160 .f32) (x4 : Vec Ideal S1x160 .f32) (x5 : Vec Ideal S5x144x120 .f32) (x6 : Vec Ideal S1x120 .f32) (x7 : Vec Ideal S120x84 .f32) (x8 : Vec Ideal S1x84 .f32) (x9 : Vec Ideal S84x10 .f32) (x10 : Vec Ideal S1x10 .f32) (j : Fin 10),
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 0 0 j)
      = net (weightsOf x1 x2 x3 x4 x5 x6 x7 x8 x9 x10) (rImg x0) j

end Cert.ReferenceIdeal.RDefs

end
-- ==== Proof.RefBodyPiece.lean ====
/-
  What the one-image body computes, as one term of the loaded blocks.  The first convolution is the sum of
  fifteen products (three channels, five vertical taps) of 28 image rows by a 32×168 table; after bias,
  rectification and the two pair-maxima, rows 0, 2, …, 26 of the result are written one by one to a 14×162
  scratch; the second convolution reads five windows of ten consecutive scratch rows.  The scratch contents
  are the fourteen written rows, and everything downstream is a function of them and of the weight blocks.
-/
import proofs.«140764_g2000603131124687_pallasbulk_7_36_alg».proof.Proof.RDefs
import Idealize.ShloMosaic.Lib.Pipeline.Value
import Idealize.ShloMosaic.Lib.Pipeline.FrameBody
import Idealize.ShloMosaic.Lib.Tactic

noncomputable section

open scoped BigOperators

namespace Cert.ReferenceIdeal.RBody

open Cert.ReferenceIdeal Cert.ReferenceIdeal.Gen Idealize.ShloMosaic Idealize.ShloMosaic.ValueIdx LeNetSpec

open Idealize.ShloMosaic.TcCoe Idealize.SL.Sem

variable {F : FTy → Type} [FloatOps F]

/-- The sum of the first twelve tap products (channels 0, 1 and the first two taps of channel 2). -/
def acc12 (x0 : Vec F S1x96x32 .f32) (x1 : Vec F S5x3x32x168 .f32) : FVec F S28x168 .f32 :=
  k0_pay5
    (k0_pay3
      (k0_pay2 (View.ld x0 (Rect.unit ![0, 0, 0] S1x28x32.size inb_S1x96x32_S1x28x32_0_0_0)) (View.ld x1 (Rect.unit ![0, 0, 0, 0] S1x1x32x168.size inb_S5x3x32x168_S1x1x32x168_0_0_0_0))
        (View.ld x0 (Rect.unit ![0, 1, 0] S1x28x32.size inb_S1x96x32_S1x28x32_0_1_0)) (View.ld x1 (Rect.unit ![1, 0, 0, 0] S1x1x32x168.size inb_S5x3x32x168_S1x1x32x168_1_0_0_0))
        (View.ld x0 (Rect.unit ![0, 2, 0] S1x28x32.size inb_S1x96x32_S1x28x32_0_2_0)) (View.ld x1 (Rect.unit ![2, 0, 0, 0] S1x1x32x168.size inb_S5x3x32x168_S1x1x32x168_2_0_0_0))
        (View.ld x0 (Rect.unit ![0, 3, 0] S1x28x32.size inb_S1x96x32_S1x28x32_0_3_0)) (View.ld x1 (Rect.unit ![3, 0, 0, 0] S1x1x32x168.size inb_S5x3x32x168_S1x1x32x168_3_0_0_0)))
      (View.ld x0 (Rect.unit ![0, 4, 0] S1x28x32.size inb_S1x96x32_S1x28x32_0_4_0)) (View.ld x1 (Rect.unit ![4, 0, 0, 0] S1x1x32x168.size inb_S5x3x32x168_S1x1x32x168_4_0_0_0))
      (View.ld x0 (Rect.unit ![0, 32, 0] S1x28x32.size inb_S1x96x32_S1x28x32_0_32_0)) (View.ld x1 (Rect.unit ![0, 1, 0, 0] S1x1x32x168.size inb_S5x3x32x168_S1x1x32x168_0_1_0_0))
      (View.ld x0 (Rect.unit ![0, 33, 0] S1x28x32.size inb_S1x96x32_S1x28x32_0_33_0)) (View.ld x1 (Rect.unit ![1, 1, 0, 0] S1x1x32x168.size inb_S5x3x32x168_S1x1x32x168_1_1_0_0))
      (View.ld x0 (Rect.unit ![0, 34, 0] S1x28x32.size inb_S1x96x32_S1x28x32_0_34_0)) (View.ld x1 (Rect.unit ![2, 1, 0, 0] S1x1x32x168.size inb_S5x3x32x168_S1x1x32x168_2_1_0_0)))
    (k0_pay4 (View.ld x0 (Rect.unit ![0, 35, 0] S1x28x32.size inb_S1x96x32_S1x28x32_0_35_0))) (View.ld x1 (Rect.unit ![3, 1, 0, 0] S1x1x32x168.size inb_S5x3x32x168_S1x1x32x168_3_1_0_0))
    (View.ld x0 (Rect.unit ![0, 36, 0] S1x28x32.size inb_S1x96x32_S1x28x32_0_36_0)) (View.ld x1 (Rect.unit ![4, 1, 0, 0] S1x1x32x168.size inb_S5x3x32x168_S1x1x32x168_4_1_0_0))
    (View.ld x0 (Rect.unit ![0, 64, 0] S1x28x32.size inb_S1x96x32_S1x28x32_0_64_0)) (View.ld x1 (Rect.unit ![0, 2, 0, 0] S1x1x32x168.size inb_S5x3x32x168_S1x1x32x168_0_2_0_0))
    (View.ld x0 (Rect.unit ![0, 65, 0] S1x28x32.size inb_S1x96x32_S1x28x32_0_65_0)) (View.ld x1 (Rect.unit ![1, 2, 0, 0] S1x1x32x168.size inb_S5x3x32x168_S1x1x32x168_1_2_0_0))

/-- The first layer after both pair-maxima: rows 0..26, lanes 0..161. -/
def pooledRows (x0 : Vec F S1x96x32 .f32) (x1 : Vec F S5x3x32x168 .f32) (x2 : Vec F S1x168 .f32) : FVec F S27x162 .f32 :=
  k0_pay7 (acc12 x0 x1) (k0_pay6 (View.ld x0 (Rect.unit ![0, 66, 0] S1x28x32.size inb_S1x96x32_S1x28x32_0_66_0))) (View.ld x1 (Rect.unit ![2, 2, 0, 0] S1x1x32x168.size inb_S5x3x32x168_S1x1x32x168_2_2_0_0))
    (View.ld x0 (Rect.unit ![0, 67, 0] S1x28x32.size inb_S1x96x32_S1x28x32_0_67_0)) (View.ld x1 (Rect.unit ![3, 2, 0, 0] S1x1x32x168.size inb_S5x3x32x168_S1x1x32x168_3_2_0_0))
    (View.ld x0 (Rect.unit ![0, 68, 0] S1x28x32.size inb_S1x96x32_S1x28x32_0_68_0)) (View.ld x1 (Rect.unit ![4, 2, 0, 0] S1x1x32x168.size inb_S5x3x32x168_S1x1x32x168_4_2_0_0)) x2

/-- The fourteen rows written to the scratch, last written first. -/
def scratchRows (x0 : Vec F S1x96x32 .f32) (x1 : Vec F S5x3x32x168 .f32) (x2 : Vec F S1x168 .f32) :
    List (View.Piece (Elt F) S14x162 .f32) :=
  [⟨Rect.unit ![13, 0] S1x162.size inb_S14x162_S1x162_13_0, k0_pay22 (pooledRows x0 x1 x2)⟩,
   ⟨Rect.unit ![12, 0] S1x162.size inb_S14x162_S1x162_12_0, k0_pay21 (pooledRows x0 x1 x2)⟩,
   ⟨Rect.unit ![11, 0] S1x162.size inb_S14x162_S1x162_11_0, k0_pay20 (pooledRows x0 x1 x2)⟩,
   ⟨Rect.unit ![10, 0] S1x162.size inb_S14x162_S1x162_10_0, k0_pay19 (k0_pay18 (pooledRows x0 x1 x2))⟩,
   ⟨Rect.unit ![9, 0] S1x162.size inb_S14x162_S1x162_9_0, k0_pay17 (pooledRows x0 x1 x2)⟩,
   ⟨Rect.unit ![8, 0] S1x162.size inb_S14x162_S1x162_8_0, k0_pay16 (pooledRows x0 x1 x2)⟩,
   ⟨Rect.unit ![7, 0] S1x162.size inb_S14x162_S1x162_7_0, k0_pay15 (pooledRows x0 x1 x2)⟩,
   ⟨Rect.unit ![6, 0] S1x162.size inb_S14x162_S1x162_6_0, k0_pay14 (pooledRows x0 x1 x2)⟩,
   ⟨Rect.unit ![5, 0] S1x162.size inb_S14x162_S1x162_5_0, k0_pay13 (pooledRows x0 x1 x2)⟩,
   ⟨Rect.unit ![4, 0] S1x162.size inb_S14x162_S1x162_4_0, k0_pay12 (pooledRows x0 x1 x2)⟩,
   ⟨Rect.unit ![3, 0] S1x162.size inb_S14x162_S1x162_3_0, k0_pay11 (pooledRows x0 x1 x2)⟩,
   ⟨Rect.unit ![2, 0] S1x162.size inb_S14x162_S1x162_2_0, k0_pay10 (pooledRows x0 x1 x2)⟩,
   ⟨Rect.unit ![1, 0] S1x162.size inb_S14x162_S1x162_1_0,
      k0_pay9 (acc12 x0 x1) (k0_pay6 (View.ld x0 (Rect.unit ![0, 66, 0] S1x28x32.size inb_S1x96x32_S1x28x32_0_66_0))) (View.ld x1 (Rect.unit ![2, 2, 0, 0] S1x1x32x168.size inb_S5x3x32x168_S1x1x32x168_2_2_0_0))
        (View.ld x0 (Rect.unit ![0, 67, 0] S1x28x32.size inb_S1x96x32_S1x28x32_0_67_0)) (View.ld x1 (Rect.unit ![3, 2, 0, 0] S1x1x32x168.size inb_S5x3x32x168_S1x1x32x168_3_2_0_0))
        (View.ld x0 (Rect.unit ![0, 68, 0] S1x28x32.size inb_S1x96x32_S1x28x32_0_68_0)) (View.ld x1 (Rect.unit ![4, 2, 0, 0] S1x1x32x168.size inb_S5x3x32x168_S1x1x32x168_4_2_0_0)) x2⟩,
   ⟨Rect.unit ![0, 0] S1x162.size inb_S14x162_S1x162_0_0,
      k0_pay8 (acc12 x0 x1) (k0_pay6 (View.ld x0 (Rect.unit ![0, 66, 0] S1x28x32.size inb_S1x96x32_S1x28x32_0_66_0))) (View.ld x1 (Rect.unit ![2, 2, 0, 0] S1x1x32x168.size inb_S5x3x32x168_S1x1x32x168_2_2_0_0))
        (View.ld x0 (Rect.unit ![0, 67, 0] S1x28x32.size inb_S1x96x32_S1x28x32_0_67_0)) (View.ld x1 (Rect.unit ![3, 2, 0, 0] S1x1x32x168.size inb_S5x3x32x168_S1x1x32x168_3_2_0_0))
        (View.ld x0 (Rect.unit ![0, 68, 0] S1x28x32.size inb_S1x96x32_S1x28x32_0_68_0)) (View.ld x1 (Rect.unit ![4, 2, 0, 0] S1x1x32x168.size inb_S5x3x32x168_S1x1x32x168_4_2_0_0)) x2⟩]

/-- What the scratch holds once the fourteen rows are written. -/
def scratch (x0 : Vec F S1x96x32 .f32) (x1 : Vec F S5x3x32x168 .f32) (x2 : Vec F S1x168 .f32) : Vec F S14x162 .f32 :=
  View.canon (scratchRows x0 x1 x2)

/-- The sum of the first three tap products of the second convolution, from scratch contents `s`. -/
def acc2a (s : Vec F S14x162 .f32) (x3 : Vec F S5x162x160 .f32) : FVec F S10x160 .f32 :=
  k0_pay23 (View.ld s (Rect.unit ![0, 0] S10x162.size inb_S14x162_S10x162_0_0)) (View.ld x3 (Rect.unit ![0, 0, 0] S1x162x160.size inb_S5x162x160_S1x162x160_0_0_0))
    (View.ld s (Rect.unit ![1, 0] S10x162.size inb_S14x162_S10x162_1_0)) (View.ld x3 (Rect.unit ![1, 0, 0] S1x162x160.size inb_S5x162x160_S1x162x160_1_0_0))
    (View.ld s (Rect.unit ![2, 0] S10x162.size inb_S14x162_S10x162_2_0)) (View.ld x3 (Rect.unit ![2, 0, 0] S1x162x160.size inb_S5x162x160_S1x162x160_2_0_0))

/-- The second layer after both pair-maxima: rows 0..8, lanes 0..143. -/
def pooledRows2 (s : Vec F S14x162 .f32) (x3 : Vec F S5x162x160 .f32) (x4 : Vec F S1x160 .f32) : FVec F S9x144 .f32 :=
  k0_pay24 (acc2a s x3) (View.ld s (Rect.unit ![3, 0] S10x162.size inb_S14x162_S10x162_3_0)) (View.ld x3 (Rect.unit ![3, 0, 0] S1x162x160.size inb_S5x162x160_S1x162x160_3_0_0))
    (View.ld s (Rect.unit ![4, 0] S10x162.size inb_S14x162_S10x162_4_0)) (View.ld x3 (Rect.unit ![4, 0, 0] S1x162x160.size inb_S5x162x160_S1x162x160_4_0_0)) x4

/-- The three dense layers on the pooled second layer, from scratch contents `s`. -/
def tail (s : Vec F S14x162 .f32) (x3 : Vec F S5x162x160 .f32) (x4 : Vec F S1x160 .f32) (x5 : Vec F S5x144x120 .f32)
    (x6 : Vec F S1x120 .f32) (x7 : Vec F S120x84 .f32) (x8 : Vec F S1x84 .f32) (x9 : Vec F S84x10 .f32) (x10 : Vec F S1x10 .f32) :
    FVec F S1x10 .f32 :=
  k0_pay27 (pooledRows2 s x3 x4)
    (k0_pay25 (acc2a s x3) (View.ld s (Rect.unit ![3, 0] S10x162.size inb_S14x162_S10x162_3_0)) (View.ld x3 (Rect.unit ![3, 0, 0] S1x162x160.size inb_S5x162x160_S1x162x160_3_0_0))
      (View.ld s (Rect.unit ![4, 0] S10x162.size inb_S14x162_S10x162_4_0)) (View.ld x3 (Rect.unit ![4, 0, 0] S1x162x160.size inb_S5x162x160_S1x162x160_4_0_0)) x4 (View.ld x5 (Rect.unit ![0, 0, 0] S1x144x120.size inb_S5x144x120_S1x144x120_0_0_0)) (View.ld x5 (Rect.unit ![1, 0, 0] S1x144x120.size inb_S5x144x120_S1x144x120_1_0_0)))
    (k0_pay26 (acc2a s x3) (View.ld s (Rect.unit ![3, 0] S10x162.size inb_S14x162_S10x162_3_0)) (View.ld x3 (Rect.unit ![3, 0, 0] S1x162x160.size inb_S5x162x160_S1x162x160_3_0_0))
      (View.ld s (Rect.unit ![4, 0] S10x162.size inb_S14x162_S10x162_4_0)) (View.ld x3 (Rect.unit ![4, 0, 0] S1x162x160.size inb_S5x162x160_S1x162x160_4_0_0)) x4)
    (View.ld x5 (Rect.unit ![2, 0, 0] S1x144x120.size inb_S5x144x120_S1x144x120_2_0_0)) (View.ld x5 (Rect.unit ![3, 0, 0] S1x144x120.size inb_S5x144x120_S1x144x120_3_0_0)) (View.ld x5 (Rect.unit ![4, 0, 0] S1x144x120.size inb_S5x144x120_S1x144x120_4_0_0)) x6 x7 x8 x9 x10

theorem zero2 : (![0, 0] : Fin 2 → Nat) = fun _ => 0 := funext fun a => by fin_cases a <;> rfl
theorem zero3 : (![0, 0, 0] : Fin 3 → Nat) = fun _ => 0 := funext fun a => by fin_cases a <;> rfl

/-- The block the body leaves is the dense tail of the scratch its own first half wrote. -/
theorem out_eq (c : Dev nD) (i : grid0.Coords) (arg1 : Memref sig .tc .vmem S1x96x32 .f32) (harg1 : arg1.IsWhole) (arg2 : Memref sig .tc .vmem S5x3x32x168 .f32) (harg2 : arg2.IsWhole) (arg3 : Memref sig .tc .vmem S1x168 .f32) (harg3 : arg3.IsWhole) (arg4 : Memref sig .tc .vmem S5x162x160 .f32) (harg4 : arg4.IsWhole) (arg5 : Memref sig .tc .vmem S1x160 .f32) (harg5 : arg5.IsWhole) (arg6 : Memref sig .tc .vmem S5x144x120 .f32) (harg6 : arg6.IsWhole) (arg7 : Memref sig .tc .vmem S1x120 .f32) (harg7 : arg7.IsWhole) (arg8 : Memref sig .tc .vmem S120x84 .f32) (harg8 : arg8.IsWhole) (arg9 : Memref sig .tc .vmem S1x84 .f32) (harg9 : arg9.IsWhole) (arg10 : Memref sig .tc .vmem S84x10 .f32) (harg10 : arg10.IsWhole) (arg11 : Memref sig .tc .vmem S1x10 .f32) (harg11 : arg11.IsWhole) (arg12 : Memref sig .tc .vmem S1x1x10 .f32) (harg12 : arg12.IsWhole) (arg13 : Memref sig .tc .vmem S14x162 .f32) (harg13 : arg13.IsWhole)
    (x0 : Vec F S1x96x32 .f32) (x1 : Vec F S5x3x32x168 .f32) (x2 : Vec F S1x168 .f32) (x3 : Vec F S5x162x160 .f32) (x4 : Vec F S1x160 .f32) (x5 : Vec F S5x144x120 .f32) (x6 : Vec F S1x120 .f32) (x7 : Vec F S120x84 .f32) (x8 : Vec F S1x84 .f32) (x9 : Vec F S84x10 .f32) (x10 : Vec F S1x10 .f32) :
    out0_A_11 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = k0_pay1 (tail (scratch x0 x1 x2) x3 x4 x5 x6 x7 x8 x9 x10) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  rw [View.canon_unit_zero zero3]
  simp only [View.readAt_eq_ld, harg1.read_unread, harg2.read_unread, harg3.read_unread, harg4.read_unread, harg5.read_unread,
    harg6.read_unread, harg7.read_unread, harg8.read_unread, harg9.read_unread, harg10.read_unread, harg11.read_unread,
    View.readCov_eq_canon', View.ld_unit_zero (S := S1x168) zero2, View.ld_unit_zero (S := S1x160) zero2,
    View.ld_unit_zero (S := S1x120) zero2, View.ld_unit_zero (S := S120x84) zero2, View.ld_unit_zero (S := S1x84) zero2,
    View.ld_unit_zero (S := S84x10) zero2, View.ld_unit_zero (S := S1x10) zero2]
  rfl

end Cert.ReferenceIdeal.RBody

end
-- ==== Proof.RefBodyOps.lean ====
/-
  Reading the body's building blocks at an index, on the extended reals.  A load of a sub-rectangle reads the
  block at the shifted index; a shape cast that drops leading unit axes keeps the remaining coordinates; each of
  the five matrix products, accumulated into zeros, is the plain sum over its contracted axis; a bias row
  broadcast over the rows reads its own lane; and the zero literal is 0.
-/
import proofs.«140764_g2000603131124687_pallasbulk_7_36_alg».proof.Proof.RDefs
import proofs.«140764_g2000603131124687_pallasbulk_7_36_alg».proof.Proof.LibMatOps
import Idealize.ShloMosaic.Lib.Pipeline.Value
import Idealize.ShloMosaic.Lib.Pipeline.FrameBody
import Idealize.ShloMosaic.PureOps.Ideal.Laws

noncomputable section

open scoped BigOperators

namespace Cert.ReferenceIdeal.RBody

open Cert.ReferenceIdeal Cert.ReferenceIdeal.Gen Idealize.ShloMosaic Idealize.ShloMosaic.ValueIdx LeNetSpec

/-- A load through a unit-stride rectangle reads the block at the index shifted by the offsets. -/
theorem ld_unit_apply {Val : EltTy → Type} {S : Shape} {e : EltTy} (X : S.Idx → Val e) (off size : Fin S.rank → Nat)
    (inb : ∀ a, off a + size a ≤ S.size a) (j : (Rect.unit off size inb).shape.Idx) (k : S.Idx)
    (hk : ∀ a, (k a).val = off a + (j a).val) : View.ld X (Rect.unit off size inb) j = X k := by
  show X ((Rect.unit off size inb).idx j) = X k
  refine congrArg X (funext fun a => Fin.ext ?_)
  rw [hk a]
  show off a + 1 * (j a).val = off a + (j a).val
  omega

/-- `[1, a, b]` viewed as `[a, b]`. -/
theorem cast3_apply {α : Type} {a b : ℕ} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) := by
  refine shapeCast_apply v h (ix2 p q) (ix3 0 p q) ?_
  rw [Shape.rowMajor_val_three, Shape.rowMajor_val_two]
  show (0 * a + p.val) * b + q.val = p.val * b + q.val
  simp

/-- `[1, 1, a, b]` viewed as `[a, b]`. -/
theorem cast4_apply {α : Type} {a b : ℕ} (v : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ v h (ix2 p q) = v (ix4 0 0 p q) := by
  refine shapeCast_apply v h (ix2 p q) (ix4 0 0 p q) ?_
  rw [Shape.rowMajor_val_four, Shape.rowMajor_val_two]
  show ((0 * 1 + 0) * a + p.val) * b + q.val = p.val * b + q.val
  simp

/-- A `[1, b]` row broadcast over `a` rows reads its own lane. -/
theorem bcastRow_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 0 q) := by
  refine broadcastTo_apply v h (ix2 p q) (ix2 0 q) fun ax => ?_
  match ax with
  | ⟨0, _⟩ => rfl
  | ⟨1, _⟩ =>
    show q.val = if b = 1 then 0 else q.val
    split
    · have := q.isLt; omega
    · rfl

/-- The zero literal. -/
theorem zero_lit : (Scalar.ofBits (F := Ideal) .f32 0x00000000#32 : EReal) = 0 := Ideal.ofBits_zero_f32

/-- One vertical tap of one channel of the first convolution: 28 image rows times a 32×168 table. -/
theorem mm1_apply (a : Vec Ideal S1x28x32 .f32) (b : Vec Ideal S1x1x32x168 .f32) (oh : Fin 28) (l : Fin 168) :
    matmul (F := Ideal) (φ₁ := .f32) (φ₂ := .f32) dot_S28x32_S32x168_S28x168_1_0_0_1_n_n none (shapeCast S28x32 a shapeCasts_S1x28x32_S28x32)
        (shapeCast S32x168 b shapeCasts_S1x1x32x168_S32x168) (constant S28x168 .f32 0x00000000#32) (ix2 oh l)
      = ∑ w : Fin 32, a (ix3 0 oh w) * b (ix4 0 0 w l) := by
  refine (Cert.MatOps.matmul_plain_apply dot_S28x32_S32x168_S28x168_1_0_0_1_n_n_wf none _ _ oh l).trans ?_
  refine Finset.sum_congr rfl fun w _ => ?_
  rw [cast3_apply, cast4_apply]

/-- One vertical tap of the second convolution: ten scratch rows times a 162×160 table. -/
theorem mm2_apply (a : Vec Ideal S10x162 .f32) (b : Vec Ideal S1x162x160 .f32) (oh : Fin 10) (j : Fin 160) :
    matmul (F := Ideal) (φ₁ := .f32) (φ₂ := .f32) dot_S10x162_S162x160_S10x160_1_0_0_1_n_n none a
        (shapeCast S162x160 b shapeCasts_S1x162x160_S162x160) (constant S10x160 .f32 0x00000000#32) (ix2 oh j)
      = ∑ l : Fin 162, a (ix2 oh l) * b (ix3 0 l j) := by
  refine (Cert.MatOps.matmul_plain_apply dot_S10x162_S162x160_S10x160_1_0_0_1_n_n_wf none _ _ oh j).trans ?_
  refine Finset.sum_congr rfl fun l _ => ?_
  rw [cast3_apply]

/-- One pooled row of the first dense layer: a `[1, 144]` row times a 144×120 table. -/
theorem mm3_apply (a : FVec Ideal S1x144 .f32) (b : Vec Ideal S1x144x120 .f32) (j : Fin 120) :
    matmul (F := Ideal) (φ₁ := .f32) (φ₂ := .f32) dot_S1x144_S144x120_S1x120_1_0_0_1_n_n none a
        (shapeCast S144x120 b shapeCasts_S1x144x120_S144x120) (constant S1x120 .f32 0x00000000#32) (ix2 0 j)
      = ∑ l : Fin 144, a (ix2 0 l) * b (ix3 0 l j) := by
  refine (Cert.MatOps.matmul_plain_apply dot_S1x144_S144x120_S1x120_1_0_0_1_n_n_wf none _ _ 0 j).trans ?_
  refine Finset.sum_congr rfl fun l _ => ?_
  rw [cast3_apply]

/-- The second dense layer's product. -/
theorem mm4_apply (a : FVec Ideal S1x120 .f32) (b : Vec Ideal S120x84 .f32) (j : Fin 84) :
    matmul (F := Ideal) (φ₁ := .f32) (φ₂ := .f32) dot_S1x120_S120x84_S1x84_1_0_0_1_n_n none a b (constant S1x84 .f32 0x00000000#32) (ix2 0 j)
      = ∑ k : Fin 120, a (ix2 0 k) * b (ix2 k j) :=
  Cert.MatOps.matmul_plain_apply dot_S1x120_S120x84_S1x84_1_0_0_1_n_n_wf none _ _ 0 j

/-- The output layer's product. -/
theorem mm5_apply (a : FVec Ideal S1x84 .f32) (b : Vec Ideal S84x10 .f32) (j : Fin 10) :
    matmul (F := Ideal) (φ₁ := .f32) (φ₂ := .f32) dot_S1x84_S84x10_S1x10_1_0_0_1_n_n none a b (constant S1x10 .f32 0x00000000#32) (ix2 0 j)
      = ∑ k : Fin 84, a (ix2 0 k) * b (ix2 k j) :=
  Cert.MatOps.matmul_plain_apply dot_S1x84_S84x10_S1x10_1_0_0_1_n_n_wf none _ _ 0 j

end Cert.ReferenceIdeal.RBody

end
-- ==== Proof.RefBodyConv1.lean ====
/-
  The first layer of the one-image body, read entry by entry.  Each of the fifteen products is one vertical tap
  `kh` of one channel `ci`: 28 consecutive image rows starting at row `ci*32 + kh` of the `[96, 32]` image
  block, times table `(kh, ci)`.  Their left-nested sum, taken channel by channel and tap by tap, is the
  triple sum of the specification by associativity of addition alone; bias, rectification and the two
  pair-maxima then read lane `l` against `l + 6` and row `r` against `r + 1`.
-/
import proofs.«140764_g2000603131124687_pallasbulk_7_36_alg».proof.Proof.RefBodyPiece
import proofs.«140764_g2000603131124687_pallasbulk_7_36_alg».proof.Proof.RefBodyOps

noncomputable section

open scoped BigOperators

namespace Cert.ReferenceIdeal.RBody

open Cert.ReferenceIdeal Cert.ReferenceIdeal.Gen Idealize.ShloMosaic Idealize.ShloMosaic.ValueIdx LeNetSpec

/-- One tap product as an array. -/
abbrev tapMM (a : Vec Ideal S1x28x32 .f32) (b : Vec Ideal S1x1x32x168 .f32) : FVec Ideal S28x168 .f32 :=
  matmul (F := Ideal) (φ₁ := .f32) (φ₂ := .f32) dot_S28x32_S32x168_S28x168_1_0_0_1_n_n none
    (shapeCast S28x32 a shapeCasts_S1x28x32_S28x32) (shapeCast S32x168 b shapeCasts_S1x1x32x168_S32x168)
    (constant S28x168 .f32 0x00000000#32)

/-- One tap of the specification: the sum over the 32 input lanes. -/
def tapSum (x0 : Vec Ideal S1x96x32 .f32) (x1 : Vec Ideal S5x3x32x168 .f32) (ci : Fin 3) (kh : Fin 5) (oh : Fin 28) (l : Fin 168) : EReal :=
  ∑ w : Fin 32, RDefs.rImg x0 ci ⟨oh.val + kh.val, by omega⟩ w * x1 (ix4 kh ci w l)

/-- A tap product read at `(oh, l)`: image rows `k + oh` with `k = ci*32 + kh`, table `(kh, ci)`. -/
theorem tap_apply (x0 : Vec Ideal S1x96x32 .f32) (x1 : Vec Ideal S5x3x32x168 .f32) (k kh ci : ℕ)
    (inb0 : ∀ a, (![0, k, 0] : Fin 3 → ℕ) a + S1x28x32.size a ≤ S1x96x32.size a)
    (inb1 : ∀ a, (![kh, ci, 0, 0] : Fin 4 → ℕ) a + S1x1x32x168.size a ≤ S5x3x32x168.size a)
    (ci' : Fin 3) (kh' : Fin 5) (hci : ci'.val = ci) (hkh : kh'.val = kh) (hk : k = ci * 32 + kh) (oh : Fin 28) (l : Fin 168) :
    tapMM (View.ld x0 (Rect.unit ![0, k, 0] S1x28x32.size inb0)) (View.ld x1 (Rect.unit ![kh, ci, 0, 0] S1x1x32x168.size inb1)) (ix2 oh l)
      = tapSum x0 x1 ci' kh' oh l := by
  refine (mm1_apply _ _ oh l).trans ?_
  refine Finset.sum_congr rfl fun w _ => ?_
  refine congrArg₂ (· * ·) ?_ ?_
  · refine ld_unit_apply x0 _ _ inb0 (ix3 0 oh w) _ fun a => ?_
    match a with
    | ⟨0, _⟩ => rfl
    | ⟨1, _⟩ => show ci'.val * 32 + (oh.val + kh'.val) = k + oh.val; omega
    | ⟨2, _⟩ => show w.val = 0 + w.val; omega
  · refine ld_unit_apply x1 _ _ inb1 (ix4 0 0 w l) _ fun a => ?_
    match a with
    | ⟨0, _⟩ => show kh'.val = kh + 0; omega
    | ⟨1, _⟩ => show ci'.val = ci + 0; omega
    | ⟨2, _⟩ => show w.val = 0 + w.val; omega
    | ⟨3, _⟩ => show l.val = 0 + l.val; omega

/-- The sum of all fifteen tap products. -/
def acc15 (x0 : Vec Ideal S1x96x32 .f32) (x1 : Vec Ideal S5x3x32x168 .f32) : FVec Ideal S28x168 .f32 :=
  addf (addf (addf (acc12 x0 x1) (tapMM (View.ld x0 (Rect.unit ![0, 66, 0] S1x28x32.size inb_S1x96x32_S1x28x32_0_66_0)) (View.ld x1 (Rect.unit ![2, 2, 0, 0] S1x1x32x168.size inb_S5x3x32x168_S1x1x32x168_2_2_0_0))))
    (tapMM (View.ld x0 (Rect.unit ![0, 67, 0] S1x28x32.size inb_S1x96x32_S1x28x32_0_67_0)) (View.ld x1 (Rect.unit ![3, 2, 0, 0] S1x1x32x168.size inb_S5x3x32x168_S1x1x32x168_3_2_0_0))))
    (tapMM (View.ld x0 (Rect.unit ![0, 68, 0] S1x28x32.size inb_S1x96x32_S1x28x32_0_68_0)) (View.ld x1 (Rect.unit ![4, 2, 0, 0] S1x1x32x168.size inb_S5x3x32x168_S1x1x32x168_4_2_0_0)))

/-- The first twelve, tap by tap. -/
theorem acc12_apply (x0 : Vec Ideal S1x96x32 .f32) (x1 : Vec Ideal S5x3x32x168 .f32) (oh : Fin 28) (l : Fin 168) :
    acc12 (F := Ideal) x0 x1 (ix2 oh l) = ((((((((((((0 + tapSum x0 x1 0 0 oh l) + tapSum x0 x1 0 1 oh l) + tapSum x0 x1 0 2 oh l) + tapSum x0 x1 0 3 oh l) + tapSum x0 x1 0 4 oh l) + tapSum x0 x1 1 0 oh l) + tapSum x0 x1 1 1 oh l) + tapSum x0 x1 1 2 oh l) + tapSum x0 x1 1 3 oh l) + tapSum x0 x1 1 4 oh l) + tapSum x0 x1 2 0 oh l) + tapSum x0 x1 2 1 oh l) := by
  show (((((((((((((Scalar.ofBits (F := Ideal) .f32 0x00000000#32 : EReal) + tapMM (View.ld x0 (Rect.unit ![0, 0, 0] S1x28x32.size inb_S1x96x32_S1x28x32_0_0_0)) (View.ld x1 (Rect.unit ![0, 0, 0, 0] S1x1x32x168.size inb_S5x3x32x168_S1x1x32x168_0_0_0_0)) (ix2 oh l)) + tapMM (View.ld x0 (Rect.unit ![0, 1, 0] S1x28x32.size inb_S1x96x32_S1x28x32_0_1_0)) (View.ld x1 (Rect.unit ![1, 0, 0, 0] S1x1x32x168.size inb_S5x3x32x168_S1x1x32x168_1_0_0_0)) (ix2 oh l)) + tapMM (View.ld x0 (Rect.unit ![0, 2, 0] S1x28x32.size inb_S1x96x32_S1x28x32_0_2_0)) (View.ld x1 (Rect.unit ![2, 0, 0, 0] S1x1x32x168.size inb_S5x3x32x168_S1x1x32x168_2_0_0_0)) (ix2 oh l)) + tapMM (View.ld x0 (Rect.unit ![0, 3, 0] S1x28x32.size inb_S1x96x32_S1x28x32_0_3_0)) (View.ld x1 (Rect.unit ![3, 0, 0, 0] S1x1x32x168.size inb_S5x3x32x168_S1x1x32x168_3_0_0_0)) (ix2 oh l)) + tapMM (View.ld x0 (Rect.unit ![0, 4, 0] S1x28x32.size inb_S1x96x32_S1x28x32_0_4_0)) (View.ld x1 (Rect.unit ![4, 0, 0, 0] S1x1x32x168.size inb_S5x3x32x168_S1x1x32x168_4_0_0_0)) (ix2 oh l)) + tapMM (View.ld x0 (Rect.unit ![0, 32, 0] S1x28x32.size inb_S1x96x32_S1x28x32_0_32_0)) (View.ld x1 (Rect.unit ![0, 1, 0, 0] S1x1x32x168.size inb_S5x3x32x168_S1x1x32x168_0_1_0_0)) (ix2 oh l)) + tapMM (View.ld x0 (Rect.unit ![0, 33, 0] S1x28x32.size inb_S1x96x32_S1x28x32_0_33_0)) (View.ld x1 (Rect.unit ![1, 1, 0, 0] S1x1x32x168.size inb_S5x3x32x168_S1x1x32x168_1_1_0_0)) (ix2 oh l)) + tapMM (View.ld x0 (Rect.unit ![0, 34, 0] S1x28x32.size inb_S1x96x32_S1x28x32_0_34_0)) (View.ld x1 (Rect.unit ![2, 1, 0, 0] S1x1x32x168.size inb_S5x3x32x168_S1x1x32x168_2_1_0_0)) (ix2 oh l)) + tapMM (View.ld x0 (Rect.unit ![0, 35, 0] S1x28x32.size inb_S1x96x32_S1x28x32_0_35_0)) (View.ld x1 (Rect.unit ![3, 1, 0, 0] S1x1x32x168.size inb_S5x3x32x168_S1x1x32x168_3_1_0_0)) (ix2 oh l)) + tapMM (View.ld x0 (Rect.unit ![0, 36, 0] S1x28x32.size inb_S1x96x32_S1x28x32_0_36_0)) (View.ld x1 (Rect.unit ![4, 1, 0, 0] S1x1x32x168.size inb_S5x3x32x168_S1x1x32x168_4_1_0_0)) (ix2 oh l)) + tapMM (View.ld x0 (Rect.unit ![0, 64, 0] S1x28x32.size inb_S1x96x32_S1x28x32_0_64_0)) (View.ld x1 (Rect.unit ![0, 2, 0, 0] S1x1x32x168.size inb_S5x3x32x168_S1x1x32x168_0_2_0_0)) (ix2 oh l)) + tapMM (View.ld x0 (Rect.unit ![0, 65, 0] S1x28x32.size inb_S1x96x32_S1x28x32_0_65_0)) (View.ld x1 (Rect.unit ![1, 2, 0, 0] S1x1x32x168.size inb_S5x3x32x168_S1x1x32x168_1_2_0_0)) (ix2 oh l)) = _
  rw [zero_lit,
    tap_apply x0 x1 0 0 0 _ _ 0 0 rfl rfl rfl oh l,
    tap_apply x0 x1 1 1 0 _ _ 0 1 rfl rfl rfl oh l,
    tap_apply x0 x1 2 2 0 _ _ 0 2 rfl rfl rfl oh l,
    tap_apply x0 x1 3 3 0 _ _ 0 3 rfl rfl rfl oh l,
    tap_apply x0 x1 4 4 0 _ _ 0 4 rfl rfl rfl oh l,
    tap_apply x0 x1 32 0 1 _ _ 1 0 rfl rfl rfl oh l,
    tap_apply x0 x1 33 1 1 _ _ 1 1 rfl rfl rfl oh l,
    tap_apply x0 x1 34 2 1 _ _ 1 2 rfl rfl rfl oh l,
    tap_apply x0 x1 35 3 1 _ _ 1 3 rfl rfl rfl oh l,
    tap_apply x0 x1 36 4 1 _ _ 1 4 rfl rfl rfl oh l,
    tap_apply x0 x1 64 0 2 _ _ 2 0 rfl rfl rfl oh l,
    tap_apply x0 x1 65 1 2 _ _ 2 1 rfl rfl rfl oh l]

/-- All fifteen. -/
theorem acc15_apply (x0 : Vec Ideal S1x96x32 .f32) (x1 : Vec Ideal S5x3x32x168 .f32) (oh : Fin 28) (l : Fin 168) :
    acc15 x0 x1 (ix2 oh l) = ∑ ci : Fin 3, ∑ kh : Fin 5, tapSum x0 x1 ci kh oh l := by
  show (((acc12 (F := Ideal) x0 x1 (ix2 oh l) + tapMM (View.ld x0 (Rect.unit ![0, 66, 0] S1x28x32.size inb_S1x96x32_S1x28x32_0_66_0)) (View.ld x1 (Rect.unit ![2, 2, 0, 0] S1x1x32x168.size inb_S5x3x32x168_S1x1x32x168_2_2_0_0)) (ix2 oh l)) + tapMM (View.ld x0 (Rect.unit ![0, 67, 0] S1x28x32.size inb_S1x96x32_S1x28x32_0_67_0)) (View.ld x1 (Rect.unit ![3, 2, 0, 0] S1x1x32x168.size inb_S5x3x32x168_S1x1x32x168_3_2_0_0)) (ix2 oh l)) + tapMM (View.ld x0 (Rect.unit ![0, 68, 0] S1x28x32.size inb_S1x96x32_S1x28x32_0_68_0)) (View.ld x1 (Rect.unit ![4, 2, 0, 0] S1x1x32x168.size inb_S5x3x32x168_S1x1x32x168_4_2_0_0)) (ix2 oh l)) = _
  rw [acc12_apply,
    tap_apply x0 x1 66 2 2 _ _ 2 2 rfl rfl rfl oh l,
    tap_apply x0 x1 67 3 2 _ _ 2 3 rfl rfl rfl oh l,
    tap_apply x0 x1 68 4 2 _ _ 2 4 rfl rfl rfl oh l]
  simp only [Fin.sum_univ_three, Fin.sum_univ_five, zero_add, add_assoc]

/-- The rectified first convolution as an array. -/
def relu1 (x0 : Vec Ideal S1x96x32 .f32) (x1 : Vec Ideal S5x3x32x168 .f32) (x2 : Vec Ideal S1x168 .f32) : FVec Ideal S28x168 .f32 :=
  maximumf (addf (acc15 x0 x1) (broadcastTo S28x168 x2 broadcasts_S1x168_S28x168))
    (broadcast S28x168 (Scalar.ofBits (F := Ideal) .f32 0x00000000#32))

/-- It is the specification's rectified convolution of the block's image with the block's table and bias. -/
theorem relu1_apply (x0 : Vec Ideal S1x96x32 .f32) (x1 : Vec Ideal S5x3x32x168 .f32) (x2 : Vec Ideal S1x168 .f32) (oh : Fin 28) (l : Fin 168) :
    relu1 x0 x1 x2 (ix2 oh l)
      = c1 (RDefs.rImg x0) (fun kh ci w l => x1 (ix4 kh ci w l)) (fun l => x2 (ix2 0 l)) oh l := by
  show max (acc15 x0 x1 (ix2 oh l) + broadcastTo S28x168 x2 broadcasts_S1x168_S28x168 (ix2 oh l)) (Scalar.ofBits (F := Ideal) .f32 0x00000000#32 : EReal)
    = max ((∑ ci : Fin 3, ∑ kh : Fin 5, tapSum x0 x1 ci kh oh l) + x2 (ix2 0 l)) 0
  rw [acc15_apply, bcastRow_apply, zero_lit]

/-- The width pairs of a `[28, 168]` array: lanes `l` and `l + 6`. -/
def laneA (v : FVec Ideal S28x168 .f32) : FVec Ideal S28x162 .f32 :=
  maximumf (extractStridedSlice S28x162 ![0, 0] v slices_S28x168_o0_0_S28x162) (extractStridedSlice S28x162 ![0, 6] v slices_S28x168_o0_6_S28x162)

/-- Then the row pairs: rows `r` and `r + 1`. -/
def poolA (v : FVec Ideal S28x168 .f32) : FVec Ideal S27x162 .f32 :=
  maximumf (extractStridedSlice S27x162 ![0, 0] (laneA v) slices_S28x162_o0_0_S27x162)
    (extractStridedSlice S27x162 ![1, 0] (laneA v) slices_S28x162_o1_0_S27x162)

theorem laneA_apply (v : FVec Ideal S28x168 .f32) (C : Fin 28 → Fin 168 → EReal) (hC : ∀ oh l, v (ix2 oh l) = C oh l)
    (oh : Fin 28) (l : Fin 162) : laneA v (ix2 oh l) = m1 C oh l := by
  show max (extractStridedSlice S28x162 ![0, 0] v slices_S28x168_o0_0_S28x162 (ix2 oh l))
    (extractStridedSlice S28x162 ![0, 6] v slices_S28x168_o0_6_S28x162 (ix2 oh l)) = max (C oh ⟨l.val, by omega⟩) (C oh ⟨l.val + 6, by omega⟩)
  rw [← hC, ← hC]
  refine congrArg₂ max ?_ ?_
  · refine extractStridedSlice_apply _ v _ (ix2 oh l) _ fun a => ?_
    match a with
    | ⟨0, _⟩ => show oh.val = 0 + oh.val; omega
    | ⟨1, _⟩ => show l.val = 0 + l.val; omega
  · refine extractStridedSlice_apply _ v _ (ix2 oh l) _ fun a => ?_
    match a with
    | ⟨0, _⟩ => show oh.val = 0 + oh.val; omega
    | ⟨1, _⟩ => show l.val + 6 = 6 + l.val; omega

/-- Read at `(r, l)`, against any description `C` of the array. -/
theorem poolA_apply (v : FVec Ideal S28x168 .f32) (C : Fin 28 → Fin 168 → EReal) (hC : ∀ oh l, v (ix2 oh l) = C oh l)
    (r : Fin 27) (l : Fin 162) :
    poolA v (ix2 r l) = max (m1 C ⟨r.val, by omega⟩ l) (m1 C ⟨r.val + 1, by omega⟩ l) := by
  show max (extractStridedSlice S27x162 ![0, 0] (laneA v) slices_S28x162_o0_0_S27x162 (ix2 r l))
    (extractStridedSlice S27x162 ![1, 0] (laneA v) slices_S28x162_o1_0_S27x162 (ix2 r l)) = _
  rw [← laneA_apply v C hC, ← laneA_apply v C hC]
  refine congrArg₂ max ?_ ?_
  · refine extractStridedSlice_apply _ (laneA v) _ (ix2 r l) _ fun a => ?_
    match a with
    | ⟨0, _⟩ => show r.val = 0 + r.val; omega
    | ⟨1, _⟩ => show l.val = 0 + l.val; omega
  · refine extractStridedSlice_apply _ (laneA v) _ (ix2 r l) _ fun a => ?_
    match a with
    | ⟨0, _⟩ => show r.val + 1 = 1 + r.val; omega
    | ⟨1, _⟩ => show l.val = 0 + l.val; omega

/-- The body's pooled rows are the pair-maxima of the rectified convolution. -/
theorem pooledRows_eq (x0 : Vec Ideal S1x96x32 .f32) (x1 : Vec Ideal S5x3x32x168 .f32) (x2 : Vec Ideal S1x168 .f32) :
    pooledRows (F := Ideal) x0 x1 x2 = poolA (relu1 x0 x1 x2) := rfl

/-- Row `r`, lane `l` of the pooled rows: rows `r`, `r + 1` of the specification's width pairs. -/
theorem pooledRows_apply (x0 : Vec Ideal S1x96x32 .f32) (x1 : Vec Ideal S5x3x32x168 .f32) (x2 : Vec Ideal S1x168 .f32)
    (r : Fin 27) (l : Fin 162) :
    pooledRows (F := Ideal) x0 x1 x2 (ix2 r l)
      = max (m1 (c1 (RDefs.rImg x0) (fun kh ci w l => x1 (ix4 kh ci w l)) (fun l => x2 (ix2 0 l))) ⟨r.val, by omega⟩ l)
          (m1 (c1 (RDefs.rImg x0) (fun kh ci w l => x1 (ix4 kh ci w l)) (fun l => x2 (ix2 0 l))) ⟨r.val + 1, by omega⟩ l) := by
  rw [pooledRows_eq]
  exact poolA_apply _ _ (relu1_apply x0 x1 x2) r l

end Cert.ReferenceIdeal.RBody

end
-- ==== Proof.RefBodyScratch.lean ====
/-
  What the scratch holds.  The fourteen stores write rows 0, 2, …, 26 of the pooled rows to scratch rows
  0, 1, …, 13, so scratch row `p` is the maximum of rows `2p` and `2p + 1` of the width pairs: the first
  pooled layer of the specification.  Every scratch entry lies in exactly one written row.
-/
import proofs.«140764_g2000603131124687_pallasbulk_7_36_alg».proof.Proof.RefBodyConv1

noncomputable section

open scoped BigOperators

namespace Cert.ReferenceIdeal.RBody

open Cert.ReferenceIdeal Cert.ReferenceIdeal.Gen Idealize.ShloMosaic Idealize.ShloMosaic.ValueIdx LeNetSpec

/-- A stored row: row `m` of the pooled rows. -/
theorem row_apply (P : FVec Ideal S27x162 .f32) (m : ℕ) (hm : m < 27) (hs : S27x162.Slices ![m, 0] S1x162)
    (hc : S1x162.ShapeCasts S1x162) (a : Fin 1) (b : Fin 162) :
    shapeCast S1x162 (extractStridedSlice S1x162 ![m, 0] P hs) hc (ix2 a b) = P (ix2 ⟨m, hm⟩ b) := by
  rw [shapeCast_self]
  refine extractStridedSlice_apply _ P hs (ix2 a b) _ fun ax => ?_
  match ax with
  | ⟨0, _⟩ => show m = m + a.val; have := a.isLt; omega
  | ⟨1, _⟩ => show b.val = 0 + b.val; omega

/-- The store of row `m = 2n` at scratch row `n` agrees with the first pooled layer there. -/
theorem piece_ok (C : Fin 28 → Fin 168 → EReal) (P : FVec Ideal S27x162 .f32)
    (hP : ∀ (r : Fin 27) (l : Fin 162), P (ix2 r l) = max (m1 C ⟨r.val, by omega⟩ l) (m1 C ⟨r.val + 1, by omega⟩ l))
    (m n : ℕ) (hmn : m = 2 * n) (hn : n < 14)
    (inb : ∀ a, (![n, 0] : Fin 2 → ℕ) a + S1x162.size a ≤ S14x162.size a)
    (hs : S27x162.Slices ![m, 0] S1x162) (hc : S1x162.ShapeCasts S1x162) (x : S1x162.Idx) :
    shapeCast S1x162 (extractStridedSlice S1x162 ![m, 0] P hs) hc x
      = (fun y : S14x162.Idx => p1 (m1 C) (y 0) (y 1)) ((Rect.unit (s := S14x162) ![n, 0] S1x162.size inb).emb x) := by
  obtain ⟨a, b, rfl⟩ : ∃ (a : Fin 1) (b : Fin 162), x = ix2 a b := ⟨x 0, x 1, eq_ix2 x⟩
  have e0 : ((Rect.unit (s := S14x162) ![n, 0] S1x162.size inb).emb (ix2 a b)) 0 = ⟨n, hn⟩ :=
    Fin.ext (show n + 1 * a.val = n by have := a.isLt; omega)
  have e1 : ((Rect.unit (s := S14x162) ![n, 0] S1x162.size inb).emb (ix2 a b)) 1 = b :=
    Fin.ext (show 0 + 1 * b.val = b.val by omega)
  show _ = p1 (m1 C) (((Rect.unit (s := S14x162) ![n, 0] S1x162.size inb).emb (ix2 a b)) 0)
    (((Rect.unit (s := S14x162) ![n, 0] S1x162.size inb).emb (ix2 a b)) 1)
  rw [e0, e1]
  subst hmn
  exact (row_apply P (2 * n) (by omega) hs hc a b).trans (hP ⟨2 * n, by omega⟩ b)

/-- Scratch entry `(n, l)` lies in the row stored at `n`. -/
theorem mem_row (n : ℕ) (hn : n < 14) (inb : ∀ a, (![n, 0] : Fin 2 → ℕ) a + S1x162.size a ≤ S14x162.size a) (l : Fin 162) :
    ix2 (⟨n, hn⟩ : Fin 14) l ∈ (Rect.unit (s := S14x162) ![n, 0] S1x162.size inb).set := by
  rw [Rect.mem_set_unit]
  intro a
  match a with
  | ⟨0, _⟩ => exact ⟨le_refl n, Nat.lt_succ_self n⟩
  | ⟨1, _⟩ => exact ⟨Nat.zero_le _, by show l.val < 0 + 162; omega⟩

/-- The scratch is the first pooled layer of the block's image. -/
theorem scratch_apply (x0 : Vec Ideal S1x96x32 .f32) (x1 : Vec Ideal S5x3x32x168 .f32) (x2 : Vec Ideal S1x168 .f32) (ph : Fin 14) (l : Fin 162) :
    scratch (F := Ideal) x0 x1 x2 (ix2 ph l) = p1 (m1 (c1 (RDefs.rImg x0) (fun kh ci w l => x1 (ix4 kh ci w l)) (fun l => x2 (ix2 0 l)))) ph l := by
  have hP := pooledRows_apply x0 x1 x2
  refine View.canon_apply_of_pieces (fun y : S14x162.Idx => p1 (m1 (c1 (RDefs.rImg x0) (fun kh ci w l => x1 (ix4 kh ci w l)) (fun l => x2 (ix2 0 l)))) (y 0) (y 1))
    (scratchRows x0 x1 x2) ?_ (ix2 ph l) ?_
  · unfold scratchRows
    refine List.forall_mem_cons.mpr ⟨piece_ok _ (pooledRows x0 x1 x2) hP 26 13 rfl (by omega) inb_S14x162_S1x162_13_0 slices_S27x162_o26_0_S1x162 shapeCasts_S1x162_S1x162, ?_⟩
    refine List.forall_mem_cons.mpr ⟨piece_ok _ (pooledRows x0 x1 x2) hP 24 12 rfl (by omega) inb_S14x162_S1x162_12_0 slices_S27x162_o24_0_S1x162 shapeCasts_S1x162_S1x162, ?_⟩
    refine List.forall_mem_cons.mpr ⟨piece_ok _ (pooledRows x0 x1 x2) hP 22 11 rfl (by omega) inb_S14x162_S1x162_11_0 slices_S27x162_o22_0_S1x162 shapeCasts_S1x162_S1x162, ?_⟩
    refine List.forall_mem_cons.mpr ⟨piece_ok _ (pooledRows x0 x1 x2) hP 20 10 rfl (by omega) inb_S14x162_S1x162_10_0 slices_S27x162_o20_0_S1x162 shapeCasts_S1x162_S1x162, ?_⟩
    refine List.forall_mem_cons.mpr ⟨piece_ok _ (pooledRows x0 x1 x2) hP 18 9 rfl (by omega) inb_S14x162_S1x162_9_0 slices_S27x162_o18_0_S1x162 shapeCasts_S1x162_S1x162, ?_⟩
    refine List.forall_mem_cons.mpr ⟨piece_ok _ (pooledRows x0 x1 x2) hP 16 8 rfl (by omega) inb_S14x162_S1x162_8_0 slices_S27x162_o16_0_S1x162 shapeCasts_S1x162_S1x162, ?_⟩
    refine List.forall_mem_cons.mpr ⟨piece_ok _ (pooledRows x0 x1 x2) hP 14 7 rfl (by omega) inb_S14x162_S1x162_7_0 slices_S27x162_o14_0_S1x162 shapeCasts_S1x162_S1x162, ?_⟩
    refine List.forall_mem_cons.mpr ⟨piece_ok _ (pooledRows x0 x1 x2) hP 12 6 rfl (by omega) inb_S14x162_S1x162_6_0 slices_S27x162_o12_0_S1x162 shapeCasts_S1x162_S1x162, ?_⟩
    refine List.forall_mem_cons.mpr ⟨piece_ok _ (pooledRows x0 x1 x2) hP 10 5 rfl (by omega) inb_S14x162_S1x162_5_0 slices_S27x162_o10_0_S1x162 shapeCasts_S1x162_S1x162, ?_⟩
    refine List.forall_mem_cons.mpr ⟨piece_ok _ (pooledRows x0 x1 x2) hP 8 4 rfl (by omega) inb_S14x162_S1x162_4_0 slices_S27x162_o8_0_S1x162 shapeCasts_S1x162_S1x162, ?_⟩
    refine List.forall_mem_cons.mpr ⟨piece_ok _ (pooledRows x0 x1 x2) hP 6 3 rfl (by omega) inb_S14x162_S1x162_3_0 slices_S27x162_o6_0_S1x162 shapeCasts_S1x162_S1x162, ?_⟩
    refine List.forall_mem_cons.mpr ⟨piece_ok _ (pooledRows x0 x1 x2) hP 4 2 rfl (by omega) inb_S14x162_S1x162_2_0 slices_S27x162_o4_0_S1x162 shapeCasts_S1x162_S1x162, ?_⟩
    refine List.forall_mem_cons.mpr ⟨piece_ok _ (pooledRows x0 x1 x2) hP 2 1 rfl (by omega) inb_S14x162_S1x162_1_0 slices_S27x162_o2_0_S1x162 shapeCasts_S1x162_S1x162, ?_⟩
    refine List.forall_mem_cons.mpr ⟨piece_ok _ (pooledRows x0 x1 x2) hP 0 0 rfl (by omega) inb_S14x162_S1x162_0_0 slices_S27x162_o0_0_S1x162 shapeCasts_S1x162_S1x162, ?_⟩
    exact fun _ h => absurd h List.not_mem_nil
  · unfold scratchRows
    rcases ph with ⟨n, hn⟩
    interval_cases n
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_row 0 (by omega) inb_S14x162_S1x162_0_0 l⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_row 1 (by omega) inb_S14x162_S1x162_1_0 l⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_row 2 (by omega) inb_S14x162_S1x162_2_0 l⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_row 3 (by omega) inb_S14x162_S1x162_3_0 l⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_row 4 (by omega) inb_S14x162_S1x162_4_0 l⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_row 5 (by omega) inb_S14x162_S1x162_5_0 l⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_row 6 (by omega) inb_S14x162_S1x162_6_0 l⟩
    · exact ⟨_, List.mem_cons_of_mem _ (List.mem_cons_of_mem _ (List.mem_cons_of_mem _ (List.mem_cons_of_mem _ (List.mem_cons_of_mem _ (List.mem_cons_of_mem _ (List.mem_cons_self)))))), mem_row 7 (by omega) inb_S14x162_S1x162_7_0 l⟩
    · exact ⟨_, List.mem_cons_of_mem _ (List.mem_cons_of_mem _ (List.mem_cons_of_mem _ (List.mem_cons_of_mem _ (List.mem_cons_of_mem _ (List.mem_cons_self))))), mem_row 8 (by omega) inb_S14x162_S1x162_8_0 l⟩
    · exact ⟨_, List.mem_cons_of_mem _ (List.mem_cons_of_mem _ (List.mem_cons_of_mem _ (List.mem_cons_of_mem _ (List.mem_cons_self)))), mem_row 9 (by omega) inb_S14x162_S1x162_9_0 l⟩
    · exact ⟨_, List.mem_cons_of_mem _ (List.mem_cons_of_mem _ (List.mem_cons_of_mem _ (List.mem_cons_self))), mem_row 10 (by omega) inb_S14x162_S1x162_10_0 l⟩
    · exact ⟨_, List.mem_cons_of_mem _ (List.mem_cons_of_mem _ (List.mem_cons_self)), mem_row 11 (by omega) inb_S14x162_S1x162_11_0 l⟩
    · exact ⟨_, List.mem_cons_of_mem _ (List.mem_cons_self), mem_row 12 (by omega) inb_S14x162_S1x162_12_0 l⟩
    · exact ⟨_, List.mem_cons_self, mem_row 13 (by omega) inb_S14x162_S1x162_13_0 l⟩

end Cert.ReferenceIdeal.RBody

end
-- ==== Proof.RefBodyConv2.lean ====
/-
  The second layer, from any scratch contents `s`.  Each of the five products is one vertical tap `kh`: ten
  consecutive scratch rows starting at row `kh`, times table `kh`.  Their left-nested sum is the double sum
  of the specification; bias, rectification and the pair-maxima (lanes `l`, `l + 16`; rows `r`, `r + 1`)
  follow.
-/
import proofs.«140764_g2000603131124687_pallasbulk_7_36_alg».proof.Proof.RefBodyPiece
import proofs.«140764_g2000603131124687_pallasbulk_7_36_alg».proof.Proof.RefBodyOps

noncomputable section

open scoped BigOperators

namespace Cert.ReferenceIdeal.RBody

open Cert.ReferenceIdeal Cert.ReferenceIdeal.Gen Idealize.ShloMosaic Idealize.ShloMosaic.ValueIdx LeNetSpec

/-- One tap product as an array. -/
abbrev tap2MM (a : Vec Ideal S10x162 .f32) (b : Vec Ideal S1x162x160 .f32) : FVec Ideal S10x160 .f32 :=
  matmul (F := Ideal) (φ₁ := .f32) (φ₂ := .f32) dot_S10x162_S162x160_S10x160_1_0_0_1_n_n none a
    (shapeCast S162x160 b shapeCasts_S1x162x160_S162x160) (constant S10x160 .f32 0x00000000#32)

/-- One tap of the specification: the sum over the 162 lanes of a pooled row. -/
def tap2Sum (s : Vec Ideal S14x162 .f32) (x3 : Vec Ideal S5x162x160 .f32) (kh : Fin 5) (oh : Fin 10) (j : Fin 160) : EReal :=
  ∑ l : Fin 162, s (ix2 ⟨oh.val + kh.val, by omega⟩ l) * x3 (ix3 kh l j)

/-- A tap product read at `(oh, j)`: scratch row `kh + oh`, table `kh`. -/
theorem tap2_apply (s : Vec Ideal S14x162 .f32) (x3 : Vec Ideal S5x162x160 .f32) (kh : ℕ)
    (inbs : ∀ a, (![kh, 0] : Fin 2 → ℕ) a + S10x162.size a ≤ S14x162.size a)
    (inb3 : ∀ a, (![kh, 0, 0] : Fin 3 → ℕ) a + S1x162x160.size a ≤ S5x162x160.size a)
    (kh' : Fin 5) (hkh : kh'.val = kh) (oh : Fin 10) (j : Fin 160) :
    tap2MM (View.ld s (Rect.unit ![kh, 0] S10x162.size inbs)) (View.ld x3 (Rect.unit ![kh, 0, 0] S1x162x160.size inb3)) (ix2 oh j)
      = tap2Sum s x3 kh' oh j := by
  refine (mm2_apply _ _ oh j).trans ?_
  refine Finset.sum_congr rfl fun l _ => ?_
  refine congrArg₂ (· * ·) ?_ ?_
  · refine ld_unit_apply s _ _ inbs (ix2 oh l) _ fun a => ?_
    match a with
    | ⟨0, _⟩ => show oh.val + kh'.val = kh + oh.val; omega
    | ⟨1, _⟩ => show l.val = 0 + l.val; omega
  · refine ld_unit_apply x3 _ _ inb3 (ix3 0 l j) _ fun a => ?_
    match a with
    | ⟨0, _⟩ => show kh'.val = kh + 0; omega
    | ⟨1, _⟩ => show l.val = 0 + l.val; omega
    | ⟨2, _⟩ => show j.val = 0 + j.val; omega

/-- The sum of all five tap products. -/
def acc2 (s : Vec Ideal S14x162 .f32) (x3 : Vec Ideal S5x162x160 .f32) : FVec Ideal S10x160 .f32 :=
  addf (addf (acc2a s x3) (tap2MM (View.ld s (Rect.unit ![3, 0] S10x162.size inb_S14x162_S10x162_3_0)) (View.ld x3 (Rect.unit ![3, 0, 0] S1x162x160.size inb_S5x162x160_S1x162x160_3_0_0)))) (tap2MM (View.ld s (Rect.unit ![4, 0] S10x162.size inb_S14x162_S10x162_4_0)) (View.ld x3 (Rect.unit ![4, 0, 0] S1x162x160.size inb_S5x162x160_S1x162x160_4_0_0)))

theorem acc2_apply (s : Vec Ideal S14x162 .f32) (x3 : Vec Ideal S5x162x160 .f32) (oh : Fin 10) (j : Fin 160) :
    acc2 s x3 (ix2 oh j) = ∑ kh : Fin 5, tap2Sum s x3 kh oh j := by
  show (((((Scalar.ofBits (F := Ideal) .f32 0x00000000#32 : EReal) + tap2MM (View.ld s (Rect.unit ![0, 0] S10x162.size inb_S14x162_S10x162_0_0)) (View.ld x3 (Rect.unit ![0, 0, 0] S1x162x160.size inb_S5x162x160_S1x162x160_0_0_0)) (ix2 oh j)) + tap2MM (View.ld s (Rect.unit ![1, 0] S10x162.size inb_S14x162_S10x162_1_0)) (View.ld x3 (Rect.unit ![1, 0, 0] S1x162x160.size inb_S5x162x160_S1x162x160_1_0_0)) (ix2 oh j))
    + tap2MM (View.ld s (Rect.unit ![2, 0] S10x162.size inb_S14x162_S10x162_2_0)) (View.ld x3 (Rect.unit ![2, 0, 0] S1x162x160.size inb_S5x162x160_S1x162x160_2_0_0)) (ix2 oh j)) + tap2MM (View.ld s (Rect.unit ![3, 0] S10x162.size inb_S14x162_S10x162_3_0)) (View.ld x3 (Rect.unit ![3, 0, 0] S1x162x160.size inb_S5x162x160_S1x162x160_3_0_0)) (ix2 oh j)) + tap2MM (View.ld s (Rect.unit ![4, 0] S10x162.size inb_S14x162_S10x162_4_0)) (View.ld x3 (Rect.unit ![4, 0, 0] S1x162x160.size inb_S5x162x160_S1x162x160_4_0_0)) (ix2 oh j) = _
  rw [zero_lit, tap2_apply s x3 0 _ _ 0 rfl oh j, tap2_apply s x3 1 _ _ 1 rfl oh j, tap2_apply s x3 2 _ _ 2 rfl oh j,
    tap2_apply s x3 3 _ _ 3 rfl oh j, tap2_apply s x3 4 _ _ 4 rfl oh j]
  simp only [Fin.sum_univ_five, zero_add]

/-- The rectified second convolution as an array. -/
def relu2 (s : Vec Ideal S14x162 .f32) (x3 : Vec Ideal S5x162x160 .f32) (x4 : Vec Ideal S1x160 .f32) : FVec Ideal S10x160 .f32 :=
  maximumf (addf (acc2 s x3) (broadcastTo S10x160 x4 broadcasts_S1x160_S10x160))
    (broadcast S10x160 (Scalar.ofBits (F := Ideal) .f32 0x00000000#32))

theorem relu2_apply (s : Vec Ideal S14x162 .f32) (x3 : Vec Ideal S5x162x160 .f32) (x4 : Vec Ideal S1x160 .f32) (oh : Fin 10) (j : Fin 160) :
    relu2 s x3 x4 (ix2 oh j)
      = c2 (fun ph l => s (ix2 ph l)) (fun kh l j => x3 (ix3 kh l j)) (fun j => x4 (ix2 0 j)) oh j := by
  show max (acc2 s x3 (ix2 oh j) + broadcastTo S10x160 x4 broadcasts_S1x160_S10x160 (ix2 oh j)) (Scalar.ofBits (F := Ideal) .f32 0x00000000#32 : EReal)
    = max ((∑ kh : Fin 5, tap2Sum s x3 kh oh j) + x4 (ix2 0 j)) 0
  rw [acc2_apply, bcastRow_apply, zero_lit]

/-- The width pairs of a `[10, 160]` array: lanes `l` and `l + 16`. -/
def laneB (v : FVec Ideal S10x160 .f32) : FVec Ideal S10x144 .f32 :=
  maximumf (extractStridedSlice S10x144 ![0, 0] v slices_S10x160_o0_0_S10x144) (extractStridedSlice S10x144 ![0, 16] v slices_S10x160_o0_16_S10x144)

/-- Then the row pairs: rows `r` and `r + 1`. -/
def poolB (v : FVec Ideal S10x160 .f32) : FVec Ideal S9x144 .f32 :=
  maximumf (extractStridedSlice S9x144 ![0, 0] (laneB v) slices_S10x144_o0_0_S9x144)
    (extractStridedSlice S9x144 ![1, 0] (laneB v) slices_S10x144_o1_0_S9x144)

theorem laneB_apply (v : FVec Ideal S10x160 .f32) (C : Fin 10 → Fin 160 → EReal) (hC : ∀ oh l, v (ix2 oh l) = C oh l)
    (oh : Fin 10) (l : Fin 144) : laneB v (ix2 oh l) = m2 C oh l := by
  show max (extractStridedSlice S10x144 ![0, 0] v slices_S10x160_o0_0_S10x144 (ix2 oh l))
    (extractStridedSlice S10x144 ![0, 16] v slices_S10x160_o0_16_S10x144 (ix2 oh l)) = max (C oh ⟨l.val, by omega⟩) (C oh ⟨l.val + 16, by omega⟩)
  rw [← hC, ← hC]
  refine congrArg₂ max ?_ ?_
  · refine extractStridedSlice_apply _ v _ (ix2 oh l) _ fun a => ?_
    match a with
    | ⟨0, _⟩ => show oh.val = 0 + oh.val; omega
    | ⟨1, _⟩ => show l.val = 0 + l.val; omega
  · refine extractStridedSlice_apply _ v _ (ix2 oh l) _ fun a => ?_
    match a with
    | ⟨0, _⟩ => show oh.val = 0 + oh.val; omega
    | ⟨1, _⟩ => show l.val + 16 = 16 + l.val; omega

theorem poolB_apply (v : FVec Ideal S10x160 .f32) (C : Fin 10 → Fin 160 → EReal) (hC : ∀ oh l, v (ix2 oh l) = C oh l)
    (r : Fin 9) (l : Fin 144) :
    poolB v (ix2 r l) = max (m2 C ⟨r.val, by omega⟩ l) (m2 C ⟨r.val + 1, by omega⟩ l) := by
  show max (extractStridedSlice S9x144 ![0, 0] (laneB v) slices_S10x144_o0_0_S9x144 (ix2 r l))
    (extractStridedSlice S9x144 ![1, 0] (laneB v) slices_S10x144_o1_0_S9x144 (ix2 r l)) = _
  rw [← laneB_apply v C hC, ← laneB_apply v C hC]
  refine congrArg₂ max ?_ ?_
  · refine extractStridedSlice_apply _ (laneB v) _ (ix2 r l) _ fun a => ?_
    match a with
    | ⟨0, _⟩ => show r.val = 0 + r.val; omega
    | ⟨1, _⟩ => show l.val = 0 + l.val; omega
  · refine extractStridedSlice_apply _ (laneB v) _ (ix2 r l) _ fun a => ?_
    match a with
    | ⟨0, _⟩ => show r.val + 1 = 1 + r.val; omega
    | ⟨1, _⟩ => show l.val = 0 + l.val; omega

/-- The body's second pooled rows are the pair-maxima of the rectified second convolution. -/
theorem pooledRows2_eq (s : Vec Ideal S14x162 .f32) (x3 : Vec Ideal S5x162x160 .f32) (x4 : Vec Ideal S1x160 .f32) :
    pooledRows2 (F := Ideal) s x3 x4 = poolB (relu2 s x3 x4) := rfl

/-- Row `2r` of them is the second pooled layer of the specification on `s`. -/
theorem pooledRows2_apply (s : Vec Ideal S14x162 .f32) (x3 : Vec Ideal S5x162x160 .f32) (x4 : Vec Ideal S1x160 .f32) (r : Fin 5) (l : Fin 144) :
    pooledRows2 (F := Ideal) s x3 x4 (ix2 (⟨2 * r.val, by omega⟩ : Fin 9) l)
      = p2 (m2 (c2 (fun ph l => s (ix2 ph l)) (fun kh l j => x3 (ix3 kh l j)) (fun j => x4 (ix2 0 j)))) r l := by
  rw [pooledRows2_eq]
  exact poolB_apply _ _ (relu2_apply s x3 x4) ⟨2 * r.val, by omega⟩ l

end Cert.ReferenceIdeal.RBody

end
-- ==== Proof.RefBodyDense.lean ====
/-
  The three dense layers.  The first takes rows 0, 2, 4, 6, 8 of the second pooled rows, one `[1, 144]` row per
  table, and sums the five products left to right; the other two are single products.  Each is the
  specification's layer by reading the products as sums over the contracted axis.
-/
import proofs.«140764_g2000603131124687_pallasbulk_7_36_alg».proof.Proof.RefBodyPiece
import proofs.«140764_g2000603131124687_pallasbulk_7_36_alg».proof.Proof.RefBodyOps

noncomputable section

open scoped BigOperators

namespace Cert.ReferenceIdeal.RBody

open Cert.ReferenceIdeal Cert.ReferenceIdeal.Gen Idealize.ShloMosaic Idealize.ShloMosaic.ValueIdx LeNetSpec

/-- One row product of the first dense layer. -/
abbrev tap3MM (a : FVec Ideal S1x144 .f32) (b : Vec Ideal S1x144x120 .f32) : FVec Ideal S1x120 .f32 :=
  matmul (F := Ideal) (φ₁ := .f32) (φ₂ := .f32) dot_S1x144_S144x120_S1x120_1_0_0_1_n_n none a
    (shapeCast S144x120 b shapeCasts_S1x144x120_S144x120) (constant S1x120 .f32 0x00000000#32)

/-- The first dense layer on pooled rows `Q`. -/
def dense1 (Q : FVec Ideal S9x144 .f32) (x5 : Vec Ideal S5x144x120 .f32) (x6 : Vec Ideal S1x120 .f32) : FVec Ideal S1x120 .f32 :=
  maximumf
    (addf (addf (addf (addf (addf (addf (broadcast S1x120 (Scalar.ofBits (F := Ideal) .f32 0x00000000#32))
      (tap3MM (extractStridedSlice S1x144 ![0, 0] Q slices_S9x144_o0_0_S1x144) (View.ld x5 (Rect.unit ![0, 0, 0] S1x144x120.size inb_S5x144x120_S1x144x120_0_0_0))))
      (tap3MM (extractStridedSlice S1x144 ![2, 0] Q slices_S9x144_o2_0_S1x144) (View.ld x5 (Rect.unit ![1, 0, 0] S1x144x120.size inb_S5x144x120_S1x144x120_1_0_0))))
      (tap3MM (extractStridedSlice S1x144 ![4, 0] Q slices_S9x144_o4_0_S1x144) (View.ld x5 (Rect.unit ![2, 0, 0] S1x144x120.size inb_S5x144x120_S1x144x120_2_0_0))))
      (tap3MM (extractStridedSlice S1x144 ![6, 0] Q slices_S9x144_o6_0_S1x144) (View.ld x5 (Rect.unit ![3, 0, 0] S1x144x120.size inb_S5x144x120_S1x144x120_3_0_0))))
      (tap3MM (extractStridedSlice S1x144 ![8, 0] Q slices_S9x144_o8_0_S1x144) (View.ld x5 (Rect.unit ![4, 0, 0] S1x144x120.size inb_S5x144x120_S1x144x120_4_0_0)))) x6)
    (broadcast S1x120 (Scalar.ofBits (F := Ideal) .f32 0x00000000#32))

/-- The second dense layer. -/
def dense2 (y : FVec Ideal S1x120 .f32) (x7 : Vec Ideal S120x84 .f32) (x8 : Vec Ideal S1x84 .f32) : FVec Ideal S1x84 .f32 :=
  maximumf (addf (matmul (F := Ideal) (φ₁ := .f32) (φ₂ := .f32) dot_S1x120_S120x84_S1x84_1_0_0_1_n_n none y x7 (constant S1x84 .f32 0x00000000#32)) x8)
    (broadcast S1x84 (Scalar.ofBits (F := Ideal) .f32 0x00000000#32))

/-- The output layer. -/
def dense3 (y : FVec Ideal S1x84 .f32) (x9 : Vec Ideal S84x10 .f32) (x10 : Vec Ideal S1x10 .f32) : FVec Ideal S1x10 .f32 :=
  addf (matmul (F := Ideal) (φ₁ := .f32) (φ₂ := .f32) dot_S1x84_S84x10_S1x10_1_0_0_1_n_n none y x9 (constant S1x10 .f32 0x00000000#32)) x10

/-- The body's tail is the three layers on its second pooled rows. -/
theorem tail_eq (s : Vec Ideal S14x162 .f32) (x3 : Vec Ideal S5x162x160 .f32) (x4 : Vec Ideal S1x160 .f32) (x5 : Vec Ideal S5x144x120 .f32)
    (x6 : Vec Ideal S1x120 .f32) (x7 : Vec Ideal S120x84 .f32) (x8 : Vec Ideal S1x84 .f32) (x9 : Vec Ideal S84x10 .f32) (x10 : Vec Ideal S1x10 .f32) :
    tail (F := Ideal) s x3 x4 x5 x6 x7 x8 x9 x10
      = dense3 (dense2 (dense1 (pooledRows2 s x3 x4) x5 x6) x7 x8) x9 x10 := rfl

/-- A row product read at lane `j`: pooled row `m = 2r` against table `r`. -/
theorem tap3_apply (Q : FVec Ideal S9x144 .f32) (x5 : Vec Ideal S5x144x120 .f32) (P : Fin 5 → Fin 144 → EReal)
    (hQ : ∀ (r : Fin 5) (l : Fin 144), Q (ix2 (⟨2 * r.val, by omega⟩ : Fin 9) l) = P r l)
    (m k : ℕ) (hs : S9x144.Slices ![m, 0] S1x144)
    (inb5 : ∀ a, (![k, 0, 0] : Fin 3 → ℕ) a + S1x144x120.size a ≤ S5x144x120.size a)
    (r : Fin 5) (hk : r.val = k) (hm : m = 2 * k) (j : Fin 120) :
    tap3MM (extractStridedSlice S1x144 ![m, 0] Q hs) (View.ld x5 (Rect.unit ![k, 0, 0] S1x144x120.size inb5)) (ix2 0 j)
      = ∑ l : Fin 144, P r l * x5 (ix3 r l j) := by
  refine (mm3_apply _ _ j).trans ?_
  refine Finset.sum_congr rfl fun l _ => ?_
  refine congrArg₂ (· * ·) ?_ ?_
  · rw [← hQ]
    refine extractStridedSlice_apply _ Q hs (ix2 0 l) _ fun a => ?_
    match a with
    | ⟨0, _⟩ => show 2 * r.val = m + 0; omega
    | ⟨1, _⟩ => show l.val = 0 + l.val; omega
  · refine ld_unit_apply x5 _ _ inb5 (ix3 0 l j) _ fun a => ?_
    match a with
    | ⟨0, _⟩ => show r.val = k + 0; omega
    | ⟨1, _⟩ => show l.val = 0 + l.val; omega
    | ⟨2, _⟩ => show j.val = 0 + j.val; omega

theorem dense1_apply (Q : FVec Ideal S9x144 .f32) (x5 : Vec Ideal S5x144x120 .f32) (x6 : Vec Ideal S1x120 .f32) (P : Fin 5 → Fin 144 → EReal)
    (hQ : ∀ (r : Fin 5) (l : Fin 144), Q (ix2 (⟨2 * r.val, by omega⟩ : Fin 9) l) = P r l) (j : Fin 120) :
    dense1 Q x5 x6 (ix2 0 j) = y1 P (fun r l j => x5 (ix3 r l j)) (fun j => x6 (ix2 0 j)) j := by
  show max (((((( (Scalar.ofBits (F := Ideal) .f32 0x00000000#32 : EReal) + tap3MM (extractStridedSlice S1x144 ![0, 0] Q slices_S9x144_o0_0_S1x144) (View.ld x5 (Rect.unit ![0, 0, 0] S1x144x120.size inb_S5x144x120_S1x144x120_0_0_0)) (ix2 0 j)) + tap3MM (extractStridedSlice S1x144 ![2, 0] Q slices_S9x144_o2_0_S1x144) (View.ld x5 (Rect.unit ![1, 0, 0] S1x144x120.size inb_S5x144x120_S1x144x120_1_0_0)) (ix2 0 j))
      + tap3MM (extractStridedSlice S1x144 ![4, 0] Q slices_S9x144_o4_0_S1x144) (View.ld x5 (Rect.unit ![2, 0, 0] S1x144x120.size inb_S5x144x120_S1x144x120_2_0_0)) (ix2 0 j)) + tap3MM (extractStridedSlice S1x144 ![6, 0] Q slices_S9x144_o6_0_S1x144) (View.ld x5 (Rect.unit ![3, 0, 0] S1x144x120.size inb_S5x144x120_S1x144x120_3_0_0)) (ix2 0 j))
      + tap3MM (extractStridedSlice S1x144 ![8, 0] Q slices_S9x144_o8_0_S1x144) (View.ld x5 (Rect.unit ![4, 0, 0] S1x144x120.size inb_S5x144x120_S1x144x120_4_0_0)) (ix2 0 j)) + x6 (ix2 0 j)) (Scalar.ofBits (F := Ideal) .f32 0x00000000#32 : EReal)
    = max ((∑ r : Fin 5, ∑ l : Fin 144, P r l * x5 (ix3 r l j)) + x6 (ix2 0 j)) 0
  rw [zero_lit, tap3_apply Q x5 P hQ 0 0 _ _ 0 rfl rfl j, tap3_apply Q x5 P hQ 2 1 _ _ 1 rfl rfl j, tap3_apply Q x5 P hQ 4 2 _ _ 2 rfl rfl j,
    tap3_apply Q x5 P hQ 6 3 _ _ 3 rfl rfl j, tap3_apply Q x5 P hQ 8 4 _ _ 4 rfl rfl j]
  simp only [Fin.sum_univ_five, zero_add]

theorem dense2_apply (y : FVec Ideal S1x120 .f32) (x7 : Vec Ideal S120x84 .f32) (x8 : Vec Ideal S1x84 .f32) (Y : Fin 120 → EReal)
    (hy : ∀ k, y (ix2 0 k) = Y k) (j : Fin 84) :
    dense2 y x7 x8 (ix2 0 j) = y2 Y (fun k j => x7 (ix2 k j)) (fun j => x8 (ix2 0 j)) j := by
  show max (matmul (F := Ideal) (φ₁ := .f32) (φ₂ := .f32) dot_S1x120_S120x84_S1x84_1_0_0_1_n_n none y x7 (constant S1x84 .f32 0x00000000#32) (ix2 0 j)
      + x8 (ix2 0 j)) (Scalar.ofBits (F := Ideal) .f32 0x00000000#32 : EReal)
    = max ((∑ k : Fin 120, Y k * x7 (ix2 k j)) + x8 (ix2 0 j)) 0
  rw [zero_lit, mm4_apply]
  simp only [hy]

theorem dense3_apply (y : FVec Ideal S1x84 .f32) (x9 : Vec Ideal S84x10 .f32) (x10 : Vec Ideal S1x10 .f32) (Y : Fin 84 → EReal)
    (hy : ∀ k, y (ix2 0 k) = Y k) (j : Fin 10) :
    dense3 y x9 x10 (ix2 0 j) = y3 Y (fun k j => x9 (ix2 k j)) (fun j => x10 (ix2 0 j)) j := by
  show matmul (F := Ideal) (φ₁ := .f32) (φ₂ := .f32) dot_S1x84_S84x10_S1x10_1_0_0_1_n_n none y x9 (constant S1x10 .f32 0x00000000#32) (ix2 0 j)
      + x10 (ix2 0 j)
    = (∑ k : Fin 84, Y k * x9 (ix2 k j)) + x10 (ix2 0 j)
  rw [mm5_apply]
  simp only [hy]

end Cert.ReferenceIdeal.RBody

end
-- ==== Proof.RefBody.lean ====
/-
  The block the one-image body leaves holds the network's ten outputs for the block's image.  The body's
  value is the three dense layers on the second pooled rows computed from the scratch; the scratch is the first
  pooled layer of the image; reading each layer at an index against the specification and composing gives the
  statement.  Only associativity of addition and re-indexing of finite sums are used on the way.
-/
import proofs.«140764_g2000603131124687_pallasbulk_7_36_alg».proof.Proof.RefBodyScratch
import proofs.«140764_g2000603131124687_pallasbulk_7_36_alg».proof.Proof.RefBodyConv2
import proofs.«140764_g2000603131124687_pallasbulk_7_36_alg».proof.Proof.RefBodyDense

noncomputable section

open scoped BigOperators

namespace Cert.ReferenceIdeal.RBody

open Cert.ReferenceIdeal Cert.ReferenceIdeal.Gen Idealize.ShloMosaic Idealize.ShloMosaic.ValueIdx LeNetSpec

/-- The last shape cast `[1, 10] → [1, 1, 10]` keeps the lane. -/
theorem lastCast_apply (v : FVec Ideal S1x10 .f32) (j : Fin 10) : k0_pay1 (F := Ideal) v (ix3 0 0 j) = v (ix2 0 j) := by
  refine shapeCast_apply v shapeCasts_S1x10_S1x1x10 (ix3 0 0 j) (ix2 0 j) ?_
  rw [Shape.rowMajor_val_two, Shape.rowMajor_val_three]
  show 0 * 10 + j.val = (0 * 1 + 0) * 10 + j.val
  simp

/-- The scratch, as a curried table, is the first pooled layer of the block's image under the block's weights. -/
theorem scratch_eq_pool1 (x0 : Vec Ideal S1x96x32 .f32) (x1 : Vec Ideal S5x3x32x168 .f32) (x2 : Vec Ideal S1x168 .f32) (x3 : Vec Ideal S5x162x160 .f32) (x4 : Vec Ideal S1x160 .f32) (x5 : Vec Ideal S5x144x120 .f32) (x6 : Vec Ideal S1x120 .f32) (x7 : Vec Ideal S120x84 .f32) (x8 : Vec Ideal S1x84 .f32) (x9 : Vec Ideal S84x10 .f32) (x10 : Vec Ideal S1x10 .f32) :
    (fun ph l => (scratch (F := Ideal) x0 x1 x2) (ix2 ph l)) = pool1 (weightsOf x1 x2 x3 x4 x5 x6 x7 x8 x9 x10) (RDefs.rImg x0) :=
  funext fun ph => funext fun l => scratch_apply x0 x1 x2 ph l

theorem body_value : Cert.ReferenceIdeal.RDefs.BodyValue := by
  intro c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 j
  rw [out_eq, lastCast_apply, tail_eq]
  have h1 : ∀ (r : Fin 5) (l : Fin 144), pooledRows2 (F := Ideal) (scratch (F := Ideal) x0 x1 x2) x3 x4 (ix2 (⟨2 * r.val, by omega⟩ : Fin 9) l) = (p2 (m2 (c2 (fun ph l => (scratch (F := Ideal) x0 x1 x2) (ix2 ph l)) (fun kh l j => x3 (ix3 kh l j)) (fun j => x4 (ix2 0 j))))) r l :=
    pooledRows2_apply (scratch (F := Ideal) x0 x1 x2) x3 x4
  have h2 : ∀ k, dense1 (pooledRows2 (F := Ideal) (scratch (F := Ideal) x0 x1 x2) x3 x4) x5 x6 (ix2 0 k) = (y1 (p2 (m2 (c2 (fun ph l => (scratch (F := Ideal) x0 x1 x2) (ix2 ph l)) (fun kh l j => x3 (ix3 kh l j)) (fun j => x4 (ix2 0 j))))) (fun r l j => x5 (ix3 r l j)) (fun j => x6 (ix2 0 j))) k :=
    dense1_apply _ x5 x6 _ h1
  have h3 : ∀ k, dense2 (dense1 (pooledRows2 (F := Ideal) (scratch (F := Ideal) x0 x1 x2) x3 x4) x5 x6) x7 x8 (ix2 0 k) = (y2 (y1 (p2 (m2 (c2 (fun ph l => (scratch (F := Ideal) x0 x1 x2) (ix2 ph l)) (fun kh l j => x3 (ix3 kh l j)) (fun j => x4 (ix2 0 j))))) (fun r l j => x5 (ix3 r l j)) (fun j => x6 (ix2 0 j))) (fun k j => x7 (ix2 k j)) (fun j => x8 (ix2 0 j))) k :=
    dense2_apply _ x7 x8 _ h2
  refine (dense3_apply _ x9 x10 _ h3 j).trans ?_
  rw [scratch_eq_pool1 x0 x1 x2 x3 x4 x5 x6 x7 x8 x9 x10]
  rfl

end Cert.ReferenceIdeal.RBody

end
-- ==== Proof.RefArrIn.lean ====
/-
  What the one-image-per-point program's windows hold at a grid point, read off the launch memory.
  The image array is first recounted row-major from [4096, 3, 32, 32] to [4096, 96, 32]; point t's
  block is row t of that array, so its entry [0, ci*32 + h, w] is x[t, ci, h, w].  Every weight window
  has one block, the whole array, at block index 0, so its block is the argument array itself.
-/
import proofs.«140764_g2000603131124687_pallasbulk_7_36_alg».proof.Proof.RDefs
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RArr

open Cert.ReferenceIdeal Cert.ReferenceIdeal.Gen Idealize.ShloMosaic.ValueIdx LeNetSpec

variable (m : (ℓ : Loc nD τ sig) → Buf (Elt Ideal) ℓ)

/-- The reshaped image array the region finds: the argument read through the row-major recount. -/
theorem V_v0 (c : Dev nD) : (V m c main_v0 : S4096x96x32.Idx → EReal) = shapeCast S4096x96x32 (m ((c : Thread nD τ).loc main_arg0) : S4096x3x32x32.Idx → EReal) shapeCasts_S4096x3x32x32_S4096x96x32 := by
  show StableHlo.after hostOps0 (fun b => m (c, b)) (Proc.devRef .tc main_v0) = _
  after_results
  rfl

theorem idx0 : ∀ t : Fin cfg0.N, win0_0.index t 0 = t.val ∧ win0_0.index t 1 = 0 ∧ win0_0.index t 2 = 0 :=
  (by decide +kernel : ∀ t : Fin grid0.N, _)

theorem idx11 : ∀ t : Fin cfg0.N, win0_11.index t 0 = t.val ∧ win0_11.index t 1 = 0 ∧ win0_11.index t 2 = 0 :=
  (by decide +kernel : ∀ t : Fin grid0.N, _)

/-- A grid point as the number of its image. -/
def pt (t : Fin cfg0.N) : Fin 4096 := ⟨t.val, lt_of_lt_of_eq t.isLt N_0⟩

theorem iblk0_apply (c : Dev nD) (t : Fin cfg0.N) (r : Fin 96) (w : Fin 32) (ci : Fin 3) (h : Fin 32) (hr : r.val = ci.val * 32 + h.val) :
    (iblk m c 0 t : Vec Ideal S1x96x32 .f32) (ix3 0 r w)
      = (m ((c : Thread nD τ).loc main_arg0) : S4096x3x32x32.Idx → EReal) (ix4 (pt t) ci h w) := by
  obtain ⟨e0, e1, e2⟩ := idx0 t
  unfold iblk
  rw [View.read_apply]
  show (V m c main_v0 : S4096x96x32.Idx → EReal) (((cfg0.win 0).blk t).view.emb (ix3 0 r w)) = _
  rw [V_v0]
  refine shapeCast_apply (s := S4096x3x32x32) (t := S4096x96x32) _ _ _ _ ?_
  rw [Shape.rowMajor_val_three, Shape.rowMajor_val_four]
  show ((t.val * 3 + ci.val) * 32 + h.val) * 32 + w.val = ((win0_0.index t 0 * 1 + 1 * 0) * 96 + (win0_0.index t 1 * 96 + 1 * r.val)) * 32 + (win0_0.index t 2 * 32 + 1 * w.val)
  rw [e0, e1, e2]
  omega

/-! The weight windows: one block, the whole array, so the block is the argument array. -/

theorem iblk1_eq (c : Dev nD) (t : Fin cfg0.N) :
    (iblk m c 1 t : Vec Ideal S5x3x32x168 .f32) = (m ((c : Thread nD τ).loc main_arg1) : S5x3x32x168.Idx → EReal) := by
  have hz' : (fun a => win0_1.index t a * main_arg1.ty.shape.size a) = fun _ => 0 := funext fun a => by fin_cases a <;> rfl
  unfold iblk
  exact (Memref.read_access_unit_zero (Elt Ideal) main_arg1 hz' (fun a => by rw [congrFun hz' a]; simp) (V m c main_arg1)).trans (V_main_arg1 m c)

theorem iblk2_eq (c : Dev nD) (t : Fin cfg0.N) :
    (iblk m c 2 t : Vec Ideal S1x168 .f32) = (m ((c : Thread nD τ).loc main_arg2) : S1x168.Idx → EReal) := by
  have hz' : (fun a => win0_2.index t a * main_arg2.ty.shape.size a) = fun _ => 0 := funext fun a => by fin_cases a <;> rfl
  unfold iblk
  exact (Memref.read_access_unit_zero (Elt Ideal) main_arg2 hz' (fun a => by rw [congrFun hz' a]; simp) (V m c main_arg2)).trans (V_main_arg2 m c)

theorem iblk3_eq (c : Dev nD) (t : Fin cfg0.N) :
    (iblk m c 3 t : Vec Ideal S5x162x160 .f32) = (m ((c : Thread nD τ).loc main_arg3) : S5x162x160.Idx → EReal) := by
  have hz' : (fun a => win0_3.index t a * main_arg3.ty.shape.size a) = fun _ => 0 := funext fun a => by fin_cases a <;> rfl
  unfold iblk
  exact (Memref.read_access_unit_zero (Elt Ideal) main_arg3 hz' (fun a => by rw [congrFun hz' a]; simp) (V m c main_arg3)).trans (V_main_arg3 m c)

theorem iblk4_eq (c : Dev nD) (t : Fin cfg0.N) :
    (iblk m c 4 t : Vec Ideal S1x160 .f32) = (m ((c : Thread nD τ).loc main_arg4) : S1x160.Idx → EReal) := by
  have hz' : (fun a => win0_4.index t a * main_arg4.ty.shape.size a) = fun _ => 0 := funext fun a => by fin_cases a <;> rfl
  unfold iblk
  exact (Memref.read_access_unit_zero (Elt Ideal) main_arg4 hz' (fun a => by rw [congrFun hz' a]; simp) (V m c main_arg4)).trans (V_main_arg4 m c)

theorem iblk5_eq (c : Dev nD) (t : Fin cfg0.N) :
    (iblk m c 5 t : Vec Ideal S5x144x120 .f32) = (m ((c : Thread nD τ).loc main_arg5) : S5x144x120.Idx → EReal) := by
  have hz' : (fun a => win0_5.index t a * main_arg5.ty.shape.size a) = fun _ => 0 := funext fun a => by fin_cases a <;> rfl
  unfold iblk
  exact (Memref.read_access_unit_zero (Elt Ideal) main_arg5 hz' (fun a => by rw [congrFun hz' a]; simp) (V m c main_arg5)).trans (V_main_arg5 m c)

theorem iblk6_eq (c : Dev nD) (t : Fin cfg0.N) :
    (iblk m c 6 t : Vec Ideal S1x120 .f32) = (m ((c : Thread nD τ).loc main_arg6) : S1x120.Idx → EReal) := by
  have hz' : (fun a => win0_6.index t a * main_arg6.ty.shape.size a) = fun _ => 0 := funext fun a => by fin_cases a <;> rfl
  unfold iblk
  exact (Memref.read_access_unit_zero (Elt Ideal) main_arg6 hz' (fun a => by rw [congrFun hz' a]; simp) (V m c main_arg6)).trans (V_main_arg6 m c)

theorem iblk7_eq (c : Dev nD) (t : Fin cfg0.N) :
    (iblk m c 7 t : Vec Ideal S120x84 .f32) = (m ((c : Thread nD τ).loc main_arg7) : S120x84.Idx → EReal) := by
  have hz' : (fun a => win0_7.index t a * main_arg7.ty.shape.size a) = fun _ => 0 := funext fun a => by fin_cases a <;> rfl
  unfold iblk
  exact (Memref.read_access_unit_zero (Elt Ideal) main_arg7 hz' (fun a => by rw [congrFun hz' a]; simp) (V m c main_arg7)).trans (V_main_arg7 m c)

theorem iblk8_eq (c : Dev nD) (t : Fin cfg0.N) :
    (iblk m c 8 t : Vec Ideal S1x84 .f32) = (m ((c : Thread nD τ).loc main_arg8) : S1x84.Idx → EReal) := by
  have hz' : (fun a => win0_8.index t a * main_arg8.ty.shape.size a) = fun _ => 0 := funext fun a => by fin_cases a <;> rfl
  unfold iblk
  exact (Memref.read_access_unit_zero (Elt Ideal) main_arg8 hz' (fun a => by rw [congrFun hz' a]; simp) (V m c main_arg8)).trans (V_main_arg8 m c)

theorem iblk9_eq (c : Dev nD) (t : Fin cfg0.N) :
    (iblk m c 9 t : Vec Ideal S84x10 .f32) = (m ((c : Thread nD τ).loc main_arg9) : S84x10.Idx → EReal) := by
  have hz' : (fun a => win0_9.index t a * main_arg9.ty.shape.size a) = fun _ => 0 := funext fun a => by fin_cases a <;> rfl
  unfold iblk
  exact (Memref.read_access_unit_zero (Elt Ideal) main_arg9 hz' (fun a => by rw [congrFun hz' a]; simp) (V m c main_arg9)).trans (V_main_arg9 m c)

theorem iblk10_eq (c : Dev nD) (t : Fin cfg0.N) :
    (iblk m c 10 t : Vec Ideal S1x10 .f32) = (m ((c : Thread nD τ).loc main_arg10) : S1x10.Idx → EReal) := by
  have hz' : (fun a => win0_10.index t a * main_arg10.ty.shape.size a) = fun _ => 0 := funext fun a => by fin_cases a <;> rfl
  unfold iblk
  exact (Memref.read_access_unit_zero (Elt Ideal) main_arg10 hz' (fun a => by rw [congrFun hz' a]; simp) (V m c main_arg10)).trans (V_main_arg10 m c)

/-- The image a point's block holds is that point's image of the batch. -/
theorem rImg_iblk0 (c : Dev nD) (t : Fin cfg0.N) :
    RDefs.rImg (iblk m c 0 t) = imgOf (m ((c : Thread nD τ).loc main_arg0) : S4096x3x32x32.Idx → EReal) (pt t) := by
  funext ci h w
  exact iblk0_apply m c t ⟨ci.val * 32 + h.val, by omega⟩ w ci h rfl

end Cert.ReferenceIdeal.RArr

end
-- ==== Proof.RefArrOut.lean ====
/-
  From the blocks the points write back to the region's result array.  The body leaves, at point t,
  the ten outputs of the network on image t in its [1, 1, 10] block; the block is row t of the
  [4096, 1, 10] array, and the 4096 points cover the 4096 rows, so the array ends holding, at
  [n, 0, j], output j of the network on image n.
-/
import proofs.«140764_g2000603131124687_pallasbulk_7_36_alg».proof.Proof.RefArrIn
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RArr

open Cert.ReferenceIdeal Cert.ReferenceIdeal.Gen Idealize.ShloMosaic.ValueIdx LeNetSpec

variable (m : (ℓ : Loc nD τ sig) → Buf (Elt Ideal) ℓ)

/-- The network's weights as the launch memory holds them on core `c`. -/
def Wt (c : Dev nD) : Weights :=
  weightsOf (m ((c : Thread nD τ).loc main_arg1) : S5x3x32x168.Idx → EReal) (m ((c : Thread nD τ).loc main_arg2) : S1x168.Idx → EReal)
    (m ((c : Thread nD τ).loc main_arg3) : S5x162x160.Idx → EReal) (m ((c : Thread nD τ).loc main_arg4) : S1x160.Idx → EReal)
    (m ((c : Thread nD τ).loc main_arg5) : S5x144x120.Idx → EReal) (m ((c : Thread nD τ).loc main_arg6) : S1x120.Idx → EReal)
    (m ((c : Thread nD τ).loc main_arg7) : S120x84.Idx → EReal) (m ((c : Thread nD τ).loc main_arg8) : S1x84.Idx → EReal)
    (m ((c : Thread nD τ).loc main_arg9) : S84x10.Idx → EReal) (m ((c : Thread nD τ).loc main_arg10) : S1x10.Idx → EReal)

/-- The region's result array: row `n` holds the ten outputs of image `n`. -/
def Garr (c : Dev nD) : S4096x1x10.Idx → EReal :=
  fun i => net (Wt m c) (imgOf (m ((c : Thread nD τ).loc main_arg0) : S4096x3x32x32.Idx → EReal) (i 0)) (i 2)

/-- What the body leaves at point `t`: the outputs of the network on image `t`. -/
theorem outsAt0_apply (hb : RDefs.BodyValue) (c : Dev nD) (t : Fin cfg0.N) (j : Fin 10) :
    (outsAt0 m c t : Vec Ideal S1x1x10 .f32) (ix3 0 0 j)
      = net (Wt m c) (imgOf (m ((c : Thread nD τ).loc main_arg0) : S4096x3x32x32.Idx → EReal) (pt t)) j := by
  unfold outsAt0
  refine (hb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) j).trans ?_
  rw [rImg_iblk0, iblk1_eq, iblk2_eq, iblk3_eq, iblk4_eq, iblk5_eq, iblk6_eq, iblk7_eq, iblk8_eq, iblk9_eq, iblk10_eq]
  rfl

/-- An index of a [1, 1, 10] block is its last coordinate. -/
theorem eq_ix3_00 (y : S1x1x10.Idx) : y = ix3 0 0 (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- What point `t` writes back is row `t` of the result array. -/
theorem flushed_eq (hb : RDefs.BodyValue) (c : Dev nD) (t : Fin cfg0.N) :
    (dats m 0 c).flushed 11 t = ((cfg0.win 11).blk t).view.read (Elt Ideal) (Garr m c) := by
  obtain ⟨e0, e1, e2⟩ := idx11 t
  show (cfg0.win 11).cut (grid0.coords t) ((dats m 0 c).after 11 t) = _
  rw [after0_11]
  funext y
  obtain ⟨j, rfl⟩ : ∃ j : Fin 10, y = ix3 0 0 j := ⟨y 2, eq_ix3_00 y⟩
  show (outsAt0 m c t : Vec Ideal S1x1x10 .f32) (ix3 0 0 j) = Garr m c (((cfg0.win 11).blk t).view.emb (ix3 0 0 j))
  rw [outsAt0_apply m hb c t j]
  have h0 : (((cfg0.win 11).blk t).view.emb (ix3 0 0 j) 0 : Fin 4096) = pt t :=
    Fin.ext (by show win0_11.index t 0 * 1 + 1 * 0 = t.val; rw [e0]; omega)
  have h2 : (((cfg0.win 11).blk t).view.emb (ix3 0 0 j) 2 : Fin 10) = j :=
    Fin.ext (by show win0_11.index t 2 * 10 + 1 * j.val = j.val; rw [e2]; omega)
  show _ = net (Wt m c) (imgOf _ (((cfg0.win 11).blk t).view.emb (ix3 0 0 j) 0)) (((cfg0.win 11).blk t).view.emb (ix3 0 0 j) 2)
  rw [h0, h2]

/-- Point `n` covers row `n`, so the array ends holding the network's outputs of every image. -/
theorem final (hb : RDefs.BodyValue) (c : Dev nD) : (dats m 0 c).arrAt 11 cfg0.N = Garr m c :=
  (dats m 0 c).arrAt_eq_of_cover 11 (Garr m c) (fun t _ => flushed_eq m hb c t) fun i => by
    have hi0 : (i 0 : Nat) < 4096 := (i 0).isLt
    have hi1 : (i 1 : Nat) < 1 := (i 1).isLt
    have hi2 : (i 2 : Nat) < 10 := (i 2).isLt
    obtain ⟨t, ht⟩ : ∃ t : Fin cfg0.N, t.val = (i 0 : Nat) := ⟨⟨(i 0).val, lt_of_lt_of_eq hi0 N_0.symm⟩, rfl⟩
    obtain ⟨e0, e1, e2⟩ := idx11 t
    refine ⟨t, flush0_11 t, ?_⟩
    show i ∈ ((View.whole main_v1).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [e0]; omega
    | ⟨1, _⟩ => show win0_11.index t 1 * 1 ≤ (i 1 : Nat) ∧ (i 1 : Nat) < win0_11.index t 1 * 1 + 1
                rw [e1]; omega
    | ⟨2, _⟩ => show win0_11.index t 2 * 10 ≤ (i 2 : Nat) ∧ (i 2 : Nat) < win0_11.index t 2 * 10 + 10
                rw [e2]; omega

end Cert.ReferenceIdeal.RArr

end
-- ==== Proof.RefArr.lean ====
/-
  The one-image-per-point program read whole: its result array [4096, 10] is the network of the
  specification applied to every image of the batch, as one function of the eleven argument arrays,
  and the arguments end as launched.  The region's array [4096, 1, 10] holds the outputs row by row;
  the host line after it only drops the unit axis.
-/
import proofs.«140764_g2000603131124687_pallasbulk_7_36_alg».proof.Proof.RefArrOut
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RArr

open Cert.ReferenceIdeal Cert.ReferenceIdeal.Gen Idealize.ShloMosaic.ValueIdx LeNetSpec

/-- The host line after the region drops the unit axis: entry [n, j] of the result is entry [n, 0, j] of the
    region's array, output `j` of the network on image `n`. -/
theorem tail_eq (m : (ℓ : Loc nD τ sig) → Buf (Elt Ideal) ℓ) (c : Dev nD) (hfin : (dats m 0 c).arrAt 11 cfg0.N = Garr m c) :
    Pipeline.afterTail₀ cfgs (dats m) 0 (V0 m) [hostOps1] c main_v2 = (G (m ((c : Thread nD τ).loc main_arg0) : S4096x3x32x32.Idx → EReal) (m ((c : Thread nD τ).loc main_arg1) : S5x3x32x168.Idx → EReal) (m ((c : Thread nD τ).loc main_arg2) : S1x168.Idx → EReal)
      (m ((c : Thread nD τ).loc main_arg3) : S5x162x160.Idx → EReal) (m ((c : Thread nD τ).loc main_arg4) : S1x160.Idx → EReal)
      (m ((c : Thread nD τ).loc main_arg5) : S5x144x120.Idx → EReal) (m ((c : Thread nD τ).loc main_arg6) : S1x120.Idx → EReal)
      (m ((c : Thread nD τ).loc main_arg7) : S120x84.Idx → EReal) (m ((c : Thread nD τ).loc main_arg8) : S1x84.Idx → EReal)
      (m ((c : Thread nD τ).loc main_arg9) : S84x10.Idx → EReal) (m ((c : Thread nD τ).loc main_arg10) : S1x10.Idx → EReal)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1) = Garr m c :=
    (Pipeline.withArrays_arr spec0 launch0.win.arr_inj c _ _ 11).trans hfin
  funext i
  refine (congrArg (fun f : S4096x1x10.Idx → EReal => shapeCast S4096x10 f shapeCasts_S4096x1x10_S4096x10 i) hw).trans ?_
  refine (shapeCast_apply (s := S4096x1x10) (t := S4096x10) (Garr m c) _ i (ix3 (i 0) 0 (i 1)) ?_).trans ?_
  · rw [Shape.rowMajor_val_three, Shape.rowMajor_val_two]
    show ((i 0).val * 1 + 0) * 10 + (i 1).val = (i 0).val * 10 + (i 1).val
    omega
  · rfl

/-- The run, read: every weakly fair execution ends with the result array holding the network's outputs of
    every image of the batch, and the eleven argument arrays as launched (the image array is staged by no
    window and written by no host line; each weight array is an input window's, never written back). -/
theorem run (hb : RDefs.BodyValue) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2) = (G (m ((c : Thread nD τ).loc main_arg0) : S4096x3x32x32.Idx → EReal) (m ((c : Thread nD τ).loc main_arg1) : S5x3x32x168.Idx → EReal) (m ((c : Thread nD τ).loc main_arg2) : S1x168.Idx → EReal)
      (m ((c : Thread nD τ).loc main_arg3) : S5x162x160.Idx → EReal) (m ((c : Thread nD τ).loc main_arg4) : S1x160.Idx → EReal)
      (m ((c : Thread nD τ).loc main_arg5) : S5x144x120.Idx → EReal) (m ((c : Thread nD τ).loc main_arg6) : S1x120.Idx → EReal)
      (m ((c : Thread nD τ).loc main_arg7) : S120x84.Idx → EReal) (m ((c : Thread nD τ).loc main_arg8) : S1x84.Idx → EReal)
      (m ((c : Thread nD τ).loc main_arg9) : S84x10.Idx → EReal) (m ((c : Thread nD τ).loc main_arg10) : S1x10.Idx → EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).2 main_v2 (Pipeline.mem_restRefs_of main_v2 (by decide) (by decide))).trans (tail_eq m c (final m hb c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.ReferenceIdeal.RArr

end
-- ==== Proof.lean ====
/-
  Both programs run a LeNet-5 forward over 4096 images of 3×32×32: two 5×5 valid convolutions stored as
  row-Toeplitz tables, each followed by a rectifier and a 2×2 max-pool kept "dilated" in the lanes, then three dense
  layers.  One program treats 512 images per grid point, stacks them into tall slabs with the image index minor
  and does every layer as ONE matrix product whose left operand sets the vertical taps side by side; the other treats
  one image per grid point and adds the taps' products one after the other, keeping the first pool's rows in a
  scratch array.  On the extended reals (every change of float format the identity) both compute, for image `n` and
  output `j`, the same nest of sums and maxima of the same products — `LeNetSpec.net` — because a sum over the
  concatenated columns is the double sum over taps and lanes and addition is associative and commutative; no
  distributivity and no finiteness is used.  So both result arrays are `LeNetSpec.G` of the argument arrays.
  The three frames are the generated ones; the ideal pass rewrote nothing, so the idealization claim is trivial.
-/
import proofs.«140764_g2000603131124687_pallasbulk_7_36_alg».proof.Defs
import proofs.«140764_g2000603131124687_pallasbulk_7_36_alg».proof.Proof.Gen.Kernel
import proofs.«140764_g2000603131124687_pallasbulk_7_36_alg».proof.Proof.Gen.Kernel.Frame
import proofs.«140764_g2000603131124687_pallasbulk_7_36_alg».proof.Proof.Gen.KernelIdeal
import proofs.«140764_g2000603131124687_pallasbulk_7_36_alg».proof.Proof.Gen.KernelIdeal.Frame
import proofs.«140764_g2000603131124687_pallasbulk_7_36_alg».proof.Proof.Gen.ReferenceIdeal
import proofs.«140764_g2000603131124687_pallasbulk_7_36_alg».proof.Proof.Gen.ReferenceIdeal.Frame
import proofs.«140764_g2000603131124687_pallasbulk_7_36_alg».proof.Proof.Gen.Pre_finite_inputs
import proofs.«140764_g2000603131124687_pallasbulk_7_36_alg».proof.Proof.KerBody
import proofs.«140764_g2000603131124687_pallasbulk_7_36_alg».proof.Proof.KerArr
import proofs.«140764_g2000603131124687_pallasbulk_7_36_alg».proof.Proof.RefBody
import proofs.«140764_g2000603131124687_pallasbulk_7_36_alg».proof.Proof.RefArr

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Run from memories that agree on the arguments, both programs end with the result array `LeNetSpec.G` of the
    arguments, which they leave unchanged. -/
theorem algebraic :
    Cert.algebraic_KernelIdeal_ReferenceIdeal := by
  intro m ρ m' ρ' _ hagree
  refine ⟨_, Cert.KernelIdeal.KArr.run Cert.KernelIdeal.KBody.body_value m ρ, ?_⟩
  refine (θ_run Cert.ReferenceIdeal.defs _ _).mono (fun _ h c => ⟨(h c).1.trans ?_, (h c).2⟩)
    (Cert.ReferenceIdeal.RArr.run Cert.ReferenceIdeal.RBody.body_value m' ρ')
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
